-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x1600000 : Shape := ⟨2, ![2, 1600000]⟩
abbrev S6x64 : Shape := ⟨2, ![6, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S6x64 : S_.BroadcastsInDim S6x64 (![] : Fin 0 → Fin S6x64.rank)
  reducesTo_S6x64_S_d0_1 : S6x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S32x1 .f32) (main_arg13 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x1 .f32 := Host.absf main_arg12
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S32x32 .f32) (main_arg9 : FVec F S32 .f32) (main_arg10 : FVec F S32x32 .f32) (main_arg11 : FVec F S32 .f32) (main_arg12 : FVec F S32x1 .f32) (main_arg13 : FVec F S1 .f32) (main_v33 : IVec S_ 1) : IVec S_ 1 :=
  let main_v34 : FVec F S32x32 .f32 := Host.absf main_arg8
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg10
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_v48 main_v49 main_v50

def fn_part1 {F : FTy → Type} [FloatOps F] (main_arg5 : FVec F S32 .f32) (main_arg6 : FVec F S32x32 .f32) (main_arg7 : FVec F S32 .f32) (main_arg8 : FVec F S32x32 .f32) (main_arg9 : FVec F S32 .f32) (main_arg10 : FVec F S32x32 .f32) (main_arg11 : FVec F S32 .f32) (main_arg12 : FVec F S32x1 .f32) (main_arg13 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x6 .f32) (main_arg1 : IVec S2x1600000 32) (main_arg2 : FVec F S6x64 .f32) (main_arg3 : FVec F S64 .f32) (main_arg4 : FVec F S64x32 .f32) (main_arg5 : FVec F S32 .f32) (main_arg6 : FVec F S32x32 .f32) (main_arg7 : FVec F S32 .f32) (main_arg8 : FVec F S32x32 .f32) (main_arg9 : FVec F S32 .f32) (main_arg10 : FVec F S32x32 .f32) (main_arg11 : FVec F S32 .f32) (main_arg12 : FVec F S32x1 .f32) (main_arg13 : FVec F S1 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S6x64 .f32 := Host.absf main_arg2
  let main_cst_0 : FVec F S_ .f32 := constant S_ .f32 0x7F800000#32
  let main_v5 : FVec F S6x64 .f32 := broadcastInDim S6x64 ![] bcast_S_S6x64 main_cst_0
  let main_v6 : IVec S6x64 1 := cmpf .olt main_v4 main_v5
  let main_c_1 : IVec S_ 1 := constantI S_ 1 1#1
  let main_v7 : IVec S_ 1 := (fun x v => Host.reduce IntOp.andi x v reducesTo_S6x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_arg10 main_arg11 main_arg12 main_arg13 main_v13 main_v16
-- ==== Kernel.lean ====
abbrev S100000x6 : Shape := ⟨2, ![100000, 6]⟩
abbrev S2x1600000 : Shape := ⟨2, ![2, 1600000]⟩
abbrev S6x64 : Shape := ⟨2, ![6, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x32 : Shape := ⟨2, ![100000, 32]⟩
abbrev S5000x6 : Shape := ⟨2, ![5000, 6]⟩
abbrev S5000x32 : Shape := ⟨2, ![5000, 32]⟩
abbrev S5000x64 : Shape := ⟨2, ![5000, 64]⟩
abbrev S1x64 : Shape := ⟨2, ![1, 64]⟩
abbrev S1x32 : Shape := ⟨2, ![1, 32]⟩
abbrev S1600000x32 : Shape := ⟨2, ![1600000, 32]⟩
abbrev S5000x1 : Shape := ⟨2, ![5000, 1]⟩
abbrev S1x1 : Shape := ⟨2, ![1, 1]⟩

abbrev nBuf : Space → Nat
  | .hbm => 86
  | .vmem => 32
  | .smem => 0
  | _ => 0

abbrev bufTy : (tb : Table) → Fin (tcTables nBuf tb) → BufTy
  | .hbm, ⟨0, _⟩ => ⟨S100000x6, .f32⟩
  | .hbm, ⟨1, _⟩ => ⟨S2x1600000, .i32⟩
  | .hbm, ⟨2, _⟩ => ⟨S6x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x32, .f32⟩
  | .hbm, ⟨11, _⟩ => ⟨S32, .f32⟩
  | .hbm, ⟨12, _⟩ => ⟨S32x1, .f32⟩
  | .hbm, ⟨13, _⟩ => ⟨S1, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000, .f32⟩
  | .hbm, ⟨46, _⟩ => ⟨S1600000, .f32⟩
  | .hbm, ⟨47, _⟩ => ⟨S100000, .f32⟩
  | .hbm, ⟨48, _⟩ => ⟨S100000x1, .f32⟩
  | .hbm, ⟨49, _⟩ => ⟨S100000x32, .bf16⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x32, .bf16⟩
  | .hbm, ⟨59, _⟩ => ⟨S1600000x32, .f32⟩
  | .hbm, ⟨60, _⟩ => ⟨S1600000x1, .f32⟩
  | .hbm, ⟨61, _⟩ => ⟨S1600000x32, .f32⟩
  | .hbm, ⟨62, _⟩ => ⟨S1600000x32, .f32⟩
  | .hbm, ⟨63, _⟩ => ⟨S_, .f32⟩
  | .hbm, ⟨64, _⟩ => ⟨S100000x32, .f32⟩
  | .hbm, ⟨65, _⟩ => ⟨S1600000x1, .i32⟩
  | .hbm, ⟨66, _⟩ => ⟨S100000x32, .f32⟩
  | .hbm, ⟨67, _⟩ => ⟨S100000x32, .bf16⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x32, .bf16⟩
  | .hbm, ⟨77, _⟩ => ⟨S1600000x32, .f32⟩
  | .hbm, ⟨78, _⟩ => ⟨S1600000x1, .f32⟩
  | .hbm, ⟨79, _⟩ => ⟨S1600000x32, .f32⟩
  | .hbm, ⟨80, _⟩ => ⟨S1600000x32, .f32⟩
  | .hbm, ⟨81, _⟩ => ⟨S_, .f32⟩
  | .hbm, ⟨82, _⟩ => ⟨S100000x32, .f32⟩
  | .hbm, ⟨83, _⟩ => ⟨S1600000x1, .i32⟩
  | .hbm, ⟨84, _⟩ => ⟨S100000x32, .f32⟩
  | .hbm, ⟨85, _⟩ => ⟨S100000x1, .f32⟩
  | .local _ .vmem, ⟨0, _⟩ => ⟨S5000x6, .f32⟩
  | .local _ .vmem, ⟨1, _⟩ => ⟨S5000x6, .f32⟩
  | .local _ .vmem, ⟨2, _⟩ => ⟨S6x64, .f32⟩
  | .local _ .vmem, ⟨3, _⟩ => ⟨S64, .f32⟩
  | .local _ .vmem, ⟨4, _⟩ => ⟨S64x32, .f32⟩
  | .local _ .vmem, ⟨5, _⟩ => ⟨S32, .f32⟩
  | .local _ .vmem, ⟨6, _⟩ => ⟨S32x32, .f32⟩
  | .local _ .vmem, ⟨7, _⟩ => ⟨S5000x32, .bf16⟩
  | .local _ .vmem, ⟨8, _⟩ => ⟨S5000x32, .bf16⟩
  | .local _ .vmem, ⟨9, _⟩ => ⟨S5000x32, .f32⟩
  | .local _ .vmem, ⟨10, _⟩ => ⟨S5000x32, .f32⟩
  | .local _ .vmem, ⟨11, _⟩ => ⟨S5000x32, .bf16⟩
  | .local _ .vmem, ⟨12, _⟩ => ⟨S5000x32, .bf16⟩
  | .local _ .vmem, ⟨13, _⟩ => ⟨S5000x1, .f32⟩
  | .local _ .vmem, ⟨14, _⟩ => ⟨S5000x1, .f32⟩
  | .local _ .vmem, ⟨15, _⟩ => ⟨S32, .f32⟩
  | .local _ .vmem, ⟨16, _⟩ => ⟨S32x32, .f32⟩
  | .local _ .vmem, ⟨17, _⟩ => ⟨S5000x32, .bf16⟩
  | .local _ .vmem, ⟨18, _⟩ => ⟨S5000x32, .bf16⟩
  | .local _ .vmem, ⟨19, _⟩ => ⟨S5000x32, .f32⟩
  | .local _ .vmem, ⟨20, _⟩ => ⟨S5000x32, .f32⟩
  | .local _ .vmem, ⟨21, _⟩ => ⟨S5000x32, .bf16⟩
  | .local _ .vmem, ⟨22, _⟩ => ⟨S5000x32, .bf16⟩
  | .local _ .vmem, ⟨23, _⟩ => ⟨S5000x1, .f32⟩
  | .local _ .vmem, ⟨24, _⟩ => ⟨S5000x1, .f32⟩
  | .local _ .vmem, ⟨25, _⟩ => ⟨S32, .f32⟩
  | .local _ .vmem, ⟨26, _⟩ => ⟨S32x32, .f32⟩
  | .local _ .vmem, ⟨27, _⟩ => ⟨S32, .f32⟩
  | .local _ .vmem, ⟨28, _⟩ => ⟨S32x1, .f32⟩
  | .local _ .vmem, ⟨29, _⟩ => ⟨S1, .f32⟩
  | .local _ .vmem, ⟨30, _⟩ => ⟨S5000x1, .f32⟩
  | .local _ .vmem, ⟨31, _⟩ => ⟨S5000x1, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_8 : Ref sig .tc := ⟨.hbm, 68, rfl⟩
abbrev main_v44 : Ref sig .tc := ⟨.hbm, 69, rfl⟩
abbrev main_v45 : Ref sig .tc := ⟨.hbm, 70, rfl⟩
abbrev main_c_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg8_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem8_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x32 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x6_S5000x6_0_0 : ∀ a, (![0, 0] : Fin 2 → Nat) a + S5000x6.size a ≤ S5000x6.size a
  h_S5000x6 : 0 < S5000x6.numel
  bitsLt_bf16_f32 : FTy.bits .bf16 < FTy.bits .f32
  inb_S6x64_S6x64_0_0 : ∀ a, (![0, 0] : Fin 2 → Nat) a + S6x64.size a ≤ S6x64.size a
  h_S6x64 : 0 < S6x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  inb_S5000x32_S5000x32_0_0 : ∀ a, (![0, 0] : Fin 2 → Nat) a + S5000x32.size a ≤ S5000x32.size a
  h_S5000x32 : 0 < S5000x32.numel
  packedbf16_S5000x32_S5000x32_0_0 : (Rect.unit (s := S5000x32) ![0, 0] S5000x32.size inb_S5000x32_S5000x32_0_0).PackedRows (EltTy.packing .bf16)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x6_S6x64_S5000x64_1_0_0_1_n_n_wf : DotDims.WF S5000x6 S6x64 S5000x64 [1] [0] [0] [1] [] []
  dot_S5000x64_S64x32_S5000x32_1_0_0_1_n_n_wf : DotDims.WF S5000x64 S64x32 S5000x32 [1] [0] [0] [1] [] []
  dot_S5000x32_S32x32_S5000x32_1_0_0_1_n_n_wf : DotDims.WF S5000x32 S32x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x6.size a ≤ S100000x6.size a
  hwx0_0 : ∀ i : grid0.Coords, EltTy.bits .f32 = 32 ∨ (Rect.block (s := S100000x6) S5000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x64.size a ≤ S6x64.size a
  hwx0_1 : ∀ i : grid0.Coords, EltTy.bits .f32 = 32 ∨ (Rect.block (s := S6x64) S6x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x32.size a ≤ S100000x32.size a
  hwx0_6 : ∀ i : grid0.Coords, EltTy.bits .bf16 = 32 ∨ (Rect.block (s := S100000x32) S5000x32.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .bf16 = 32 ∨ (Rect.block (s := S100000x32) S5000x32.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .bf16 = 32 ∨ (Rect.block (s := S100000x32) S5000x32.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S100000x32.size a
  hwx2_1 : ∀ i : grid2.Coords, EltTy.bits .bf16 = 32 ∨ (Rect.block (s := S100000x32) S5000x32.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32.size a ≤ S32.size a
  hwx2_3 : ∀ i : grid2.Coords, EltTy.bits .f32 = 32 ∨ (Rect.block (s := S32) S32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x32.size a ≤ S32x32.size a
  hwx2_4 : ∀ i : grid2.Coords, EltTy.bits .f32 = 32 ∨ (Rect.block (s := S32x32) S32x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32.size a ≤ S32.size a
  hwx2_5 : ∀ i : grid2.Coords, EltTy.bits .f32 = 32 ∨ (Rect.block (s := S32) S32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32x1.size a ≤ S32x1.size a
  hwx2_6 : ∀ i : grid2.Coords, EltTy.bits .f32 = 32 ∨ (Rect.block (s := S32x1) S32x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1.size a ≤ S1.size a
  hwx2_7 : ∀ i : grid2.Coords, EltTy.bits .f32 = 32 ∨ (Rect.block (s := S1) S1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x1.size a ≤ S100000x1.size a
  hwx2_8 : ∀ i : grid2.Coords, EltTy.bits .f32 = 32 ∨ (Rect.block (s := S100000x1) S5000x1.size (cc2_transform_8 i) (hinb2_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x6_S6x64_S5000x64_1_0_0_1_n_n : DotDims S5000x6 S6x64 S5000x64 where
  lhsContracting := [1]
  rhsContracting := [0]
  lhsNonContracting := [0]
  rhsNonContracting := [1]
  lhsBatch := []
  rhsBatch := []
  wf := dot_S5000x6_S6x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S5000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v42) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S32x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg12) S32x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg13) S1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v58) S5000x1.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x6 : Shape := ⟨2, ![100000, 6]⟩
abbrev S2x1600000 : Shape := ⟨2, ![2, 1600000]⟩
abbrev S6x64 : Shape := ⟨2, ![6, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S1x64 : Shape := ⟨2, ![1, 64]⟩
abbrev S100000x32 : Shape := ⟨2, ![100000, 32]⟩
abbrev S1x32 : Shape := ⟨2, ![1, 32]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S100000x1 : Shape := ⟨2, ![100000, 1]⟩
abbrev S1x1 : Shape := ⟨2, ![1, 1]⟩

abbrev nBuf : Space → Nat
  | .hbm => 156
  | .vmem => 0
  | .smem => 0
  | _ => 0

abbrev hbmTy0_0 (i : Nat) : BufTy := match i % 128 with
  | 0 => ⟨S100000x6, .f32⟩
  | 1 => ⟨S2x1600000, .i32⟩
  | 2 => ⟨S6x64, .f32⟩
  | 3 => ⟨S64, .f32⟩
  | 4 => ⟨S64x32, .f32⟩
  | 5 => ⟨S32, .f32⟩
  | 6 => ⟨S32x32, .f32⟩
  | 7 => ⟨S32, .f32⟩
  | 8 => ⟨S32x32, .f32⟩
  | 9 => ⟨S32, .f32⟩
  | 10 => ⟨S32x32, .f32⟩
  | 11 => ⟨S32, .f32⟩
  | 12 => ⟨S32x1, .f32⟩
  | 13 => ⟨S1, .f32⟩
  | 14 => ⟨S1x1600000, .i32⟩
  | 15 => ⟨S1600000, .i32⟩
  | 16 => ⟨S1x1600000, .i32⟩
  | 17 => ⟨S1600000, .i32⟩
  | 18 => ⟨S100000x64, .f32⟩
  | 19 => ⟨S1x64, .f32⟩
  | 20 => ⟨S100000x64, .f32⟩
  | 21 => ⟨S100000x64, .f32⟩
  | 22 => ⟨S100000x64, .f32⟩
  | 23 => ⟨S100000x32, .f32⟩
  | 24 => ⟨S1x32, .f32⟩
  | 25 => ⟨S100000x32, .f32⟩
  | 26 => ⟨S100000x32, .f32⟩
  | 27 => ⟨S100000x32, .f32⟩
  | 28 => ⟨S100000x32, .f32⟩
  | 29 => ⟨S100000, .i32⟩
  | 30 => ⟨S1700000, .i32⟩
  | 31 => ⟨S1700000, .i32⟩
  | 32 => ⟨S_, .f32⟩
  | 33 => ⟨S1700000, .f32⟩
  | 34 => ⟨S_, .f32⟩
  | 35 => ⟨S100000, .f32⟩
  | 36 => ⟨S1700000x1, .i32⟩
  | 37 => ⟨S100000, .f32⟩
  | 38 => ⟨S_, .f32⟩
  | 39 => ⟨S100000, .f32⟩
  | 40 => ⟨S100000, .i1⟩
  | 41 => ⟨S100000, .f32⟩
  | 42 => ⟨S_, .f32⟩
  | 43 => ⟨S_, .f32⟩
  | 44 => ⟨S100000, .f32⟩
  | 45 => ⟨S100000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000, .f32⟩
  | 64 => ⟨S1700000, .f32⟩
  | 65 => ⟨S_, .i32⟩
  | 66 => ⟨S1700000, .i32⟩
  | 67 => ⟨S1700000, .i1⟩
  | 68 => ⟨S_, .i32⟩
  | 69 => ⟨S1700000, .i32⟩
  | 70 => ⟨S1700000, .i32⟩
  | 71 => ⟨S1700000, .i32⟩
  | 72 => ⟨S1700000x1, .i32⟩
  | 73 => ⟨S1700000x32, .f32⟩
  | 74 => ⟨S1700000x1, .f32⟩
  | 75 => ⟨S1700000x32, .f32⟩
  | 76 => ⟨S1700000x32, .f32⟩
  | 77 => ⟨S_, .f32⟩
  | 78 => ⟨S100000x32, .f32⟩
  | 79 => ⟨S1700000x1, .i32⟩
  | 80 => ⟨S100000x32, .f32⟩
  | 81 => ⟨S1x32, .f32⟩
  | 82 => ⟨S100000x32, .f32⟩
  | 83 => ⟨S100000x32, .f32⟩
  | 84 => ⟨S_, .f32⟩
  | 85 => ⟨S100000x32, .f32⟩
  | 86 => ⟨S100000x32, .f32⟩
  | 87 => ⟨S100000x32, .f32⟩
  | 88 => ⟨S100000, .i32⟩
  | 89 => ⟨S1700000, .i32⟩
  | 90 => ⟨S1700000, .i32⟩
  | 91 => ⟨S_, .f32⟩
  | 92 => ⟨S1700000, .f32⟩
  | 93 => ⟨S_, .f32⟩
  | 94 => ⟨S100000, .f32⟩
  | 95 => ⟨S1700000x1, .i32⟩
  | 96 => ⟨S100000, .f32⟩
  | 97 => ⟨S_, .f32⟩
  | 98 => ⟨S100000, .f32⟩
  | 99 => ⟨S100000, .i1⟩
  | 100 => ⟨S100000, .f32⟩
  | 101 => ⟨S_, .f32⟩
  | 102 => ⟨S_, .f32⟩
  | 103 => ⟨S100000, .f32⟩
  | 104 => ⟨S100000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000, .f32⟩
  | 123 => ⟨S1700000, .f32⟩
  | 124 => ⟨S_, .i32⟩
  | 125 => ⟨S1700000, .i32⟩
  | 126 => ⟨S1700000, .i1⟩
  | 127 => ⟨S_, .i32⟩
  | _ => ⟨S100000x6, .f32⟩

abbrev hbmTy0_1 (i : Nat) : BufTy := match i % 128 with
  | 0 => ⟨S1700000, .i32⟩
  | 1 => ⟨S1700000, .i32⟩
  | 2 => ⟨S1700000, .i32⟩
  | 3 => ⟨S1700000x1, .i32⟩
  | 4 => ⟨S1700000x32, .f32⟩
  | 5 => ⟨S1700000x1, .f32⟩
  | 6 => ⟨S1700000x32, .f32⟩
  | 7 => ⟨S1700000x32, .f32⟩
  | 8 => ⟨S_, .f32⟩
  | 9 => ⟨S100000x32, .f32⟩
  | 10 => ⟨S1700000x1, .i32⟩
  | 11 => ⟨S100000x32, .f32⟩
  | 12 => ⟨S1x32, .f32⟩
  | 13 => ⟨S100000x32, .f32⟩
  | 14 => ⟨S100000x32, .f32⟩
  | 15 => ⟨S_, .f32⟩
  | 16 => ⟨S100000x32, .f32⟩
  | 17 => ⟨S100000x32, .f32⟩
  | 18 => ⟨S100000x32, .f32⟩
  | 19 => ⟨S1x32, .f32⟩
  | 20 => ⟨S100000x32, .f32⟩
  | 21 => ⟨S100000x32, .f32⟩
  | 22 => ⟨S100000x32, .f32⟩
  | 23 => ⟨S100000x1, .f32⟩
  | 24 => ⟨S1x1, .f32⟩
  | 25 => ⟨S100000x1, .f32⟩
  | 26 => ⟨S100000x1, .f32⟩
  | 27 => ⟨S100000x1, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_v25 : Ref sig .tc := ⟨.hbm, 45, rfl⟩
abbrev main_c : Ref sig .tc := ⟨.hbm, 46, rfl⟩
abbrev main_v26 : Ref sig .tc := ⟨.hbm, 47, rfl⟩
abbrev main_v27 : Ref sig .tc := ⟨.hbm, 48, rfl⟩
abbrev main_c_3 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_4 : Ref sig .tc := ⟨.hbm, 55, rfl⟩
abbrev main_v33 : Ref sig .tc := ⟨.hbm, 56, rfl⟩
abbrev main_v34 : Ref sig .tc := ⟨.hbm, 57, rfl⟩
abbrev main_c_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_6 : Ref sig .tc := ⟨.hbm, 65, rfl⟩
abbrev main_v41 : Ref sig .tc := ⟨.hbm, 66, rfl⟩
abbrev main_v42 : Ref sig .tc := ⟨.hbm, 67, rfl⟩
abbrev main_c_7 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call1_cst : Ref sig .tc := ⟨.hbm, 84, rfl⟩
abbrev main_call1_v0 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_9 : Ref sig .tc := ⟨.hbm, 91, rfl⟩
abbrev main_v62 : Ref sig .tc := ⟨.hbm, 92, rfl⟩
abbrev main_cst_10 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_11 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_12 : Ref sig .tc := ⟨.hbm, 101, rfl⟩
abbrev main_call2_v0 : Ref sig .tc := ⟨.hbm, 102, rfl⟩
abbrev main_call2_v1 : Ref sig .tc := ⟨.hbm, 103, rfl⟩
abbrev main_v69 : Ref sig .tc := ⟨.hbm, 104, rfl⟩
abbrev main_c_13 : Ref sig .tc := ⟨.hbm, 105, rfl⟩
abbrev main_v70 : Ref sig .tc := ⟨.hbm, 106, rfl⟩
abbrev main_v71 : Ref sig .tc := ⟨.hbm, 107, rfl⟩
abbrev main_c_14 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_c_15 : Ref sig .tc := ⟨.hbm, 114, rfl⟩
abbrev main_v77 : Ref sig .tc := ⟨.hbm, 115, rfl⟩
abbrev main_v78 : Ref sig .tc := ⟨.hbm, 116, rfl⟩
abbrev main_c_16 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_c_17 : Ref sig .tc := ⟨.hbm, 124, rfl⟩
abbrev main_v85 : Ref sig .tc := ⟨.hbm, 125, rfl⟩
abbrev main_v86 : Ref sig .tc := ⟨.hbm, 126, rfl⟩
abbrev main_c_18 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_19 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_call3_cst : Ref sig .tc := ⟨.hbm, 143, rfl⟩
abbrev main_call3_v0 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x6_S6x64_S100000x64_1_0_0_1_n_n_wf : DotDims.WF S100000x6 S6x64 S100000x64 [1] [0] [0] [1] [] []
  dot_S100000x64_S64x32_S100000x32_1_0_0_1_n_n_wf : DotDims.WF S100000x64 S64x32 S100000x32 [1] [0] [0] [1] [] []
  dot_S100000x32_S32x32_S100000x32_1_0_0_1_n_n_wf : DotDims.WF S100000x32 S32x32 S100000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x1_S100000x1_1_0_0_1_n_n_wf : DotDims.WF S100000x32 S32x1 S100000x1 [1] [0] [0] [1] [] []

variable [Facts₀]

def dot_S100000x6_S6x64_S100000x64_1_0_0_1_n_n : DotDims S100000x6 S6x64 S100000x64 where
  lhsContracting := [1]
  rhsContracting := [0]
  lhsNonContracting := [0]
  rhsNonContracting := [1]
  lhsBatch := []
  rhsBatch := []
  wf := dot_S100000x6_S6x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KRun.lean ====
/-
  The idealized kernel's run with its result named.

  @main is six segments: a stretch of host operations, a pallas_call, a stretch, a pallas_call, a stretch, a pallas_call.
  The generated frame follows every unscoped buffer through them — `Gen.W1` after the first stretch, `Gen.W2` after the
  first call, … `Gen.W6` at the return — and reads the last contents against the final state. Its statement keeps only
  the argument arrays; here the same run keeps the result array too: in every final state the result buffer holds
  `Gen.W6`'s contents of it.
-/
import proofs.«127179_j13134009991452_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents of it and the argument arrays end as launched. -/
theorem run_named : θ_run defs (onTc (τ := τ) (main (F := F))) ⟨m, fun _ => 0, ρ⟩ (fun r => ∀ c : Dev nD,
      r.2.mem ((c.tc : Thread nD τ).loc main_v58) = W6 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v58 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.KernelIdeal.KRun

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibRowExtras.lean ====
/-
  More row readings of two-dimensional arrays over the extended reals, beside LibRowLayers:
  entry-by-entry maps (a product, tanh, exp, on the device and on the host) read on a row; a vector given a
  unit leading axis, read as its one row; and three arrays set side by side along the columns, read on a row
  as a join of a join.
-/
import proofs.«127179_j13134009991452_2_alg».proof.Proof.LibRowLayers

noncomputable section

namespace Cert.RowLayers

open Idealize.ShloMosaic Idealize.ShloMosaic.ValueIdx

/-- A vector [n] as a function of its one coordinate. -/
def vec {α : Type} {n : ℕ} (x : (⟨1, ![n]⟩ : Shape).Idx → α) : Fin n → α := fun j => x (ix1 j)

section Maps
variable {a b : ℕ} {φ : FTy}

/-- A product of arrays, on a row. -/
theorem rowOf_mulf (x y : FVec Ideal ⟨2, ![a, b]⟩ φ) (p : Fin a) : rowOf (mulf x y) p = fun j => rowOf x p j * rowOf y p j := rfl

/-- The device's tanh, on a row. -/
theorem rowOf_tanh (x : FVec Ideal ⟨2, ![a, b]⟩ φ) (p : Fin a) : rowOf (tanh x) p = fun j => Ideal.tanh (rowOf x p j) := rfl

/-- The device's exp, on a row. -/
theorem rowOf_exp (x : FVec Ideal ⟨2, ![a, b]⟩ φ) (p : Fin a) : rowOf (exp x) p = fun j => Ideal.exp (rowOf x p j) := rfl

/-- The host's tanh, on a row: the same function. -/
theorem rowOf_hostTanh (x : FVec Ideal ⟨2, ![a, b]⟩ φ) (p : Fin a) : rowOf (Host.tanh x) p = fun j => Ideal.tanh (rowOf x p j) := rfl

/-- The host's exp, on a row: the same function. -/
theorem rowOf_hostExp (x : FVec Ideal ⟨2, ![a, b]⟩ φ) (p : Fin a) : rowOf (Host.exp x) p = fun j => Ideal.exp (rowOf x p j) := rfl

/-- A splat scalar, on a row. -/
theorem rowOf_broadcast (z : Ideal φ) (p : Fin a) : rowOf (broadcast (⟨2, ![a, b]⟩ : Shape) z) p = fun _ => z := rfl

/-- A rank-0 constant broadcast over the array, on a row. -/
theorem rowOf_broadcastInDim_const {s : Shape} (w : BitVec φ.bits) (dims : Fin s.rank → Fin 2)
    (h : s.BroadcastsInDim ⟨2, ![a, b]⟩ dims) (p : Fin a) :
    rowOf (broadcastInDim ⟨2, ![a, b]⟩ dims h (constant (F := Ideal) s φ w)) p = fun _ => Ideal.ofBits φ w := rfl

end Maps

/-- A vector [n] viewed as [1, n]: its one row is the vector. -/
theorem rowOf_shapeCast_lead {α : Type} {n : ℕ} (x : (⟨1, ![n]⟩ : Shape).Idx → α)
    (h : (⟨1, ![n]⟩ : Shape).ShapeCasts ⟨2, ![1, n]⟩) : rowOf (shapeCast ⟨2, ![1, n]⟩ x h) 0 = vec x :=
  funext fun j => shapeCast_a_1a_apply x h 0 j

/-- Three arrays concatenated along the columns: each row is the three rows side by side. -/
theorem rowOf_concat3_cols {α : Type} {a A B C E D : ℕ} (x : (⟨2, ![a, A]⟩ : Shape).Idx → α) (y : (⟨2, ![a, B]⟩ : Shape).Idx → α)
    (z : (⟨2, ![a, C]⟩ : Shape).Idx → α)
    (h : Shape.Concatenates [(⟨2, ![a, A]⟩ : Shape), ⟨2, ![a, B]⟩, ⟨2, ![a, C]⟩] ⟨2, ![a, D]⟩ 1) (hE : E = A + B) (hD : D = E + C) (p : Fin a) :
    rowOf (concatenate ⟨2, ![a, D]⟩ 1 [⟨⟨2, ![a, A]⟩, x⟩, ⟨⟨2, ![a, B]⟩, y⟩, ⟨⟨2, ![a, C]⟩, z⟩] h) p
      = join hD (join hE (rowOf x p) (rowOf y p)) (rowOf z p) := by
  funext k
  show concatenate ⟨2, ![a, D]⟩ 1 [⟨⟨2, ![a, A]⟩, x⟩, ⟨⟨2, ![a, B]⟩, y⟩, ⟨⟨2, ![a, C]⟩, z⟩] h (ix2 p k) = _
  unfold join
  by_cases hk : k.val < E
  · rw [dif_pos hk]
    by_cases hk' : k.val < A
    · rw [dif_pos hk']
      exact concatenate_apply_piece 1 [⟨⟨2, ![a, A]⟩, x⟩, ⟨⟨2, ![a, B]⟩, y⟩, ⟨⟨2, ![a, C]⟩, z⟩] h (ix2 p k) 0 (by show 0 < 3; omega) _ x rfl rfl 0 rfl (ix2 p ⟨k.val, hk'⟩)
        (fun ax hne => by
          match ax with
          | ⟨0, _⟩ => rfl
          | ⟨1, _⟩ => exact absurd rfl hne)
        (by show 0 + k.val = k.val; omega)
    · rw [dif_neg hk']
      exact concatenate_apply_piece 1 [⟨⟨2, ![a, A]⟩, x⟩, ⟨⟨2, ![a, B]⟩, y⟩, ⟨⟨2, ![a, C]⟩, z⟩] h (ix2 p k) 1 (by show 1 < 3; omega) _ y rfl rfl A rfl (ix2 p ⟨k.val - A, by omega⟩)
        (fun ax hne => by
          match ax with
          | ⟨0, _⟩ => rfl
          | ⟨1, _⟩ => exact absurd rfl hne)
        (by show A + (k.val - A) = k.val; omega)
  · rw [dif_neg hk]
    exact concatenate_apply_piece 1 [⟨⟨2, ![a, A]⟩, x⟩, ⟨⟨2, ![a, B]⟩, y⟩, ⟨⟨2, ![a, C]⟩, z⟩] h (ix2 p k) 2 (by show 2 < 3; omega) _ z rfl rfl E (by subst hE; rfl) (ix2 p ⟨k.val - E, by have := k.isLt; omega⟩)
      (fun ax hne => by
        match ax with
        | ⟨0, _⟩ => rfl
        | ⟨1, _⟩ => exact absurd rfl hne)
      (by show E + (k.val - E) = k.val; omega)

end Cert.RowLayers

end
-- ==== Proof.LibSegmentScale.lean ====
/-
  Messages sent along the edges of a graph and summed at their target nodes, with a factor per node — over the extended reals.

  Node `r` carries a feature row `H[r, ·]` and a factor `D r`. Every edge `k` names a source node and a target node by
  two integer words. The message of edge `k` is the source's row; the value at node `c` is the sum of the messages of the
  edges whose target is `c`. A symmetric normalisation weighs edge `k`'s message by `D (source k) · D (target k)`.
  It can be applied edge by edge, or split: every row scaled by its own node's factor BEFORE it is sent, and every
  sum scaled by the target node's factor AFTER it is formed. The two agree because every edge summed at `c` has target
  `c`, so the second factor is the same in every term and moves out of the sum — which on the extended reals is sound
  for a factor that is a nonnegative finite number (`sum_mul_of_nonneg_ne_top`), whatever the terms are.

  The array operations that spell this: a gather of rows at clamped start indices (`rowsGather`), a gather of
  entries (`entryGather`), and a scatter that adds each update row at the row its start index names and drops it
  when that row does not exist (`rowsScatter`); each is read here at an index given by coordinates.
  Last, the factor itself when it is the inverse square root of a count guarded against zero: nonnegative and finite.
-/
import Idealize.ShloMosaic.PureOps.Ideal
import Idealize.ShloMosaic.PureOps.Ideal.Laws
import Idealize.ShloMosaic.Lib.ValueIdx

noncomputable section

namespace Cert.SegmentScale

open Idealize.ShloMosaic Idealize.ShloMosaic.ValueIdx

/-! ## A nonnegative finite factor moves out of a sum of extended reals -/

/-- `(∑ a j) · d = ∑ (a j · d)` when `0 ≤ d < ⊤`: right distributivity holds for such a factor whatever the two
    summands are (an infinite summand times `d` keeps its sign, or vanishes with `d`), hence for every finite sum. -/
theorem sum_mul_of_nonneg_ne_top {ι : Type*} (s : Finset ι) (a : ι → EReal) {d : EReal} (h0 : 0 ≤ d) (ht : d ≠ ⊤) :
    (∑ j ∈ s, a j) * d = ∑ j ∈ s, a j * d := by
  classical
  induction s using Finset.induction_on with
  | empty => simp
  | insert j s hj ih =>
    rw [Finset.sum_insert hj, Finset.sum_insert hj, EReal.right_distrib_of_nonneg_of_ne_top h0 ht, ih]

/-! ## The inverse square root of a count, guarded against zero, is a nonnegative finite number -/

/-- `if 0 < v then 1/√v else 0` on the extended reals: at `v = ⊤` the inverse root is `0`, at a positive real it is a
    positive real, and otherwise the guard answers `0`. -/
theorem guardedRsqrt_nonneg_ne_top (v : EReal) :
    (0 : EReal) ≤ Scalar.select (Ideal.cmp .ogt v 0) (Ideal.rsqrt v) 0
      ∧ Scalar.select (Ideal.cmp .ogt v 0) (Ideal.rsqrt v) 0 ≠ (⊤ : EReal) := by
  unfold Scalar.select Ideal.cmp
  by_cases h : (0 : EReal) < v
  · have hb : BitVec.ofBool (decide ((0 : EReal) < v)) = 1 := by rw [decide_eq_true h]; rfl
    rw [if_pos hb]
    induction v using EReal.rec with
    | bot => exact absurd h (by simp)
    | top => exact ⟨le_refl _, by simp⟩
    | coe r =>
      have hr : 0 < r := by exact_mod_cast h
      rw [Ideal.rsqrt_coe, if_neg (not_lt.mpr hr.le), if_neg hr.ne']
      exact ⟨by exact_mod_cast inv_nonneg.mpr (Real.sqrt_nonneg r), EReal.coe_ne_top _⟩
  · have hb : ¬ BitVec.ofBool (decide ((0 : EReal) < v)) = 1 := by rw [decide_eq_false h]; decide
    rw [if_neg hb]
    exact ⟨le_refl _, by simp⟩

/-- The same for a whole vector of counts as the array operations spell it: compare with a zero vector, take the
    host's inverse square root, select it or a zero. -/
theorem guardedRsqrt_vec {s : Shape} (deg z z' : FVec Ideal s .f32) (hz : ∀ k, z k = (0 : EReal)) (hz' : ∀ k, z' k = (0 : EReal))
    (k : s.Idx) :
    (0 : EReal) ≤ select (cmpf .ogt deg z) (Host.rsqrt deg) z' k ∧ select (cmpf .ogt deg z) (Host.rsqrt deg) z' k ≠ (⊤ : EReal) := by
  have e : select (cmpf .ogt deg z) (Host.rsqrt deg) z' k = Scalar.select (Ideal.cmp .ogt (deg k) 0) (Ideal.rsqrt (deg k)) 0 := by
    show Scalar.select (Ideal.cmp .ogt (deg k) (z k)) (Ideal.rsqrt (deg k)) (z' k) = _
    rw [hz k, hz' k]
  rw [e]
  exact guardedRsqrt_nonneg_ne_top (deg k)

/-! ## Coordinates of edges and nodes -/

section Dims
variable {n e f : ℕ}

/-- The node (row) coordinate of an index of an `[n, f]` array. -/
def nodeOf (p : (⟨2, ![n, f]⟩ : Shape).Idx) : Fin n := ⟨(p 0).val, idx2_lt0 p⟩
/-- The feature (column) coordinate of an index of an `[a, f]` array. -/
def featOf {a : ℕ} (p : (⟨2, ![a, f]⟩ : Shape).Idx) : Fin f := ⟨(p 1).val, idx2_lt1 p⟩
/-- The edge (row) coordinate of an index of an `[e, f]` array of messages. -/
def edgeOf (j : (⟨2, ![e, f]⟩ : Shape).Idx) : Fin e := ⟨(j 0).val, idx2_lt0 j⟩
/-- Where edge `k`'s one start-index word sits in the `[e, 1]` array of start indices. -/
abbrev edgeIdx (k : Fin e) : (⟨2, ![e, 1]⟩ : Shape).Idx := ix2 k (0 : Fin 1)

theorem nodeOf_ix2 (r : Fin n) (q : Fin f) : nodeOf (ix2 r q) = r := rfl
theorem featOf_ix2 {a : ℕ} (r : Fin a) (q : Fin f) : featOf (ix2 r q) = q := rfl
theorem eq_ix2_node_feat (p : (⟨2, ![n, f]⟩ : Shape).Idx) : p = ix2 (nodeOf p) (featOf p) := by
  funext a; match a with | ⟨0, _⟩ => rfl | ⟨1, _⟩ => rfl

/-- A start-index word read as a signed integer and clamped into `[0, n − 1]`: the node a gather reads. -/
def clampNode {w : ℕ} (hn : 0 < n) (v : BitVec w) : Fin n := ⟨min v.toInt.toNat (n - 1), by omega⟩

/-- A word whose signed value is a node's number clamps to that node. -/
theorem clampNode_of_toInt {w : ℕ} (hn : 0 < n) (v : BitVec w) (c : Fin n) (h : v.toInt = (c.val : ℤ)) : clampNode hn v = c := by
  apply Fin.ext
  show min v.toInt.toNat (n - 1) = c.val
  rw [h, Int.toNat_natCast]
  have := c.isLt
  omega

/-! ## The three array operations' dimension numbers -/

/-- Rows of an `[n, f]` array gathered at `[e, 1]` start indices into `[e, f]`: row `k` of the result is the operand's row
    at the clamped start index of `k`. -/
abbrev rowsGather (wf : GatherDims.WF ⟨2, ![n, f]⟩ ⟨2, ![e, 1]⟩ ⟨2, ![e, f]⟩ [1] [0] [] [0] [] 1 ![1, f]) :
    GatherDims ⟨2, ![n, f]⟩ ⟨2, ![e, 1]⟩ ⟨2, ![e, f]⟩ where
  offsetDims := [1]
  collapsedSliceDims := [0]
  operandBatchingDims := []
  startIndicesBatchingDims := []
  startIndexMap := [0]
  indexVectorDim := 1
  sliceSizes := ![1, f]
  wf := wf

/-- Entries of an `[n]` array gathered at `[e, 1]` start indices into `[e]`. -/
abbrev entryGather (wf : GatherDims.WF ⟨1, ![n]⟩ ⟨2, ![e, 1]⟩ ⟨1, ![e]⟩ [] [0] [] [0] [] 1 ![1]) :
    GatherDims ⟨1, ![n]⟩ ⟨2, ![e, 1]⟩ ⟨1, ![e]⟩ where
  offsetDims := []
  collapsedSliceDims := [0]
  operandBatchingDims := []
  startIndicesBatchingDims := []
  startIndexMap := [0]
  indexVectorDim := 1
  sliceSizes := ![1]
  wf := wf

/-- Rows of an `[e, f]` array of updates added into an `[n, f]` array at the rows `[e, 1]` start indices name. -/
abbrev rowsScatter (wf : ScatterDims.WF ⟨2, ![n, f]⟩ ⟨2, ![e, 1]⟩ ⟨2, ![e, f]⟩ [1] [0] [0] 1) :
    ScatterDims ⟨2, ![n, f]⟩ ⟨2, ![e, 1]⟩ ⟨2, ![e, f]⟩ where
  updateWindowDims := [1]
  insertedWindowDims := [0]
  scatterDimsToOperandDims := [0]
  indexVectorDim := 1
  wf := wf

/-! ## The gathers read at an index -/

/-- THE ROW GATHER AT `(k, q)`: the operand at the clamped start index of edge `k`, column `q`. -/
theorem rowsGather_apply {α : Type} {w : ℕ} (hn : 0 < n)
    (wf : GatherDims.WF ⟨2, ![n, f]⟩ ⟨2, ![e, 1]⟩ ⟨2, ![e, f]⟩ [1] [0] [] [0] [] 1 ![1, f])
    (X : (⟨2, ![n, f]⟩ : Shape).Idx → α) (idx : IVec ⟨2, ![e, 1]⟩ w) (j : (⟨2, ![e, f]⟩ : Shape).Idx) :
    Host.gather (rowsGather wf) X idx j = X (ix2 (clampNode hn (idx (edgeIdx (edgeOf j)))) (featOf j)) := by
  unfold Host.gather
  congr 1
  funext a
  refine Fin.ext ?_
  have hsi : (rowsGather wf).siIdx j ⟨List.idxOf (0 : Fin 2) (rowsGather wf).startIndexMap,
      List.idxOf_lt_length_iff.2 (List.mem_singleton.mpr rfl)⟩ = edgeIdx (edgeOf j) := by
    funext b; refine Fin.ext ?_
    match b with
    | ⟨0, _⟩ => rfl
    | ⟨1, _⟩ => rfl
  match a with
  | ⟨0, _⟩ =>
    show (rowsGather wf).start j idx 0 + (rowsGather wf).batchCoord j 0 + (rowsGather wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather wf).startIndexMap from List.mem_singleton.mpr rfl), hsi]
    rfl
  | ⟨1, _⟩ =>
    show (rowsGather wf).start j idx 1 + (rowsGather wf).batchCoord j 1 + (rowsGather wf).offCoord j 1 = (j 1).val
    rw [GatherDims.batchCoord_eq_zero _ _ _ List.not_mem_nil]
    unfold GatherDims.start
    rw [dif_neg (show (1 : Fin 2) ∉ (rowsGather wf).startIndexMap from fun h => Nat.one_ne_zero (congrArg Fin.val (List.mem_singleton.mp h)))]
    unfold GatherDims.offCoord
    rw [dif_pos (show (1 : Fin 2) ∈ (rowsGather wf).sKept from (GatherDims.mem_sKept _ _).mpr
      ⟨fun h => Nat.one_ne_zero (congrArg Fin.val (List.mem_singleton.mp h)), List.not_mem_nil⟩)]
    simp only [Nat.zero_add, Nat.add_zero]
    rfl

/-- THE ENTRY GATHER AT `k`: the operand at the clamped start index of edge `k`. -/
theorem entryGather_apply {α : Type} {w : ℕ} (hn : 0 < n)
    (wf : GatherDims.WF ⟨1, ![n]⟩ ⟨2, ![e, 1]⟩ ⟨1, ![e]⟩ [] [0] [] [0] [] 1 ![1])
    (D : (⟨1, ![n]⟩ : Shape).Idx → α) (idx : IVec ⟨2, ![e, 1]⟩ w) (k : Fin e) :
    Host.gather (entryGather wf) D idx (ix1 k) = D (ix1 (clampNode hn (idx (edgeIdx k)))) := by
  unfold Host.gather
  congr 1
  funext a
  obtain rfl : a = 0 := Subsingleton.elim _ _
  refine Fin.ext ?_
  show (entryGather wf).start (ix1 k) idx 0 + (entryGather wf).batchCoord (ix1 k) 0 + (entryGather wf).offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryGather wf).startIndexMap from List.mem_singleton.mpr rfl)]
  have hsi : (entryGather wf).siIdx (ix1 k) ⟨List.idxOf (0 : Fin 1) (entryGather wf).startIndexMap,
      List.idxOf_lt_length_iff.2 (List.mem_singleton.mpr rfl)⟩ = edgeIdx k := by
    funext b; refine Fin.ext ?_
    match b with
    | ⟨0, _⟩ => rfl
    | ⟨1, _⟩ => rfl
  rw [hsi]
  rfl

/-! ## Where the scatter puts an update row -/

/-- An update of edge `j`'s row that lands at index `i` lands on the row its start-index word names: the word, read
    signed, IS row `i`'s number (in particular it is not negative and is below `n`; otherwise the update is dropped). -/
theorem rowsScatter_some {w : ℕ} (wf : ScatterDims.WF ⟨2, ![n, f]⟩ ⟨2, ![e, 1]⟩ ⟨2, ![e, f]⟩ [1] [0] [0] 1)
    (idx : IVec ⟨2, ![e, 1]⟩ w) (j : (⟨2, ![e, f]⟩ : Shape).Idx) (i : (⟨2, ![n, f]⟩ : Shape).Idx)
    (h : (rowsScatter wf).resultIdx? j idx = some i) : (idx (edgeIdx (edgeOf j))).toInt = ((nodeOf i).val : ℤ) := by
  have hsi : (rowsScatter wf).siIdx j ⟨List.idxOf (0 : Fin 2) (rowsScatter wf).scatterDimsToOperandDims,
      List.idxOf_lt_length_iff.2 (List.mem_singleton.mpr rfl)⟩ = edgeIdx (edgeOf j) := by
    funext b; refine Fin.ext ?_
    match b with
    | ⟨0, _⟩ => rfl
    | ⟨1, _⟩ => rfl
  have hstart : (rowsScatter wf).start j idx 0 = (idx (edgeIdx (edgeOf j))).toInt := by
    unfold ScatterDims.start
    rw [dif_pos (show (0 : Fin 2) ∈ (rowsScatter wf).scatterDimsToOperandDims from List.mem_singleton.mpr rfl), hsi]
  have hwin : (rowsScatter wf).window j 0 = 0 := by
    unfold ScatterDims.window
    rw [dif_neg (show (0 : Fin 2) ∉ (rowsScatter wf).sKept from fun h => by
      have h2 := (List.mem_filter.mp h).2
      simp at h2)]
  unfold ScatterDims.resultIdx? at h
  split at h
  · rename_i hh
    have hi := Option.some.inj h
    have h0 := (hh 0).1
    rw [hstart, hwin] at h0
    subst hi
    show (idx (edgeIdx (edgeOf j))).toInt = (((rowsScatter wf).start j idx 0 + ((rowsScatter wf).window j 0 : ℕ)).toNat : ℤ)
    rw [hstart, hwin]
    simp only [Nat.cast_zero, add_zero] at h0 ⊢
    exact (Int.toNat_of_nonneg h0).symm
  · exact absurd h (by simp)

/-! ## Scaling before the messages are sent and after they are summed, against scaling edge by edge -/

/-- THE NORMALISATION SPLIT. `H` the nodes' rows, `D` a nonnegative finite factor per node, `Z` a zero array to add into.
    Left: rows scaled by their own node's factor, gathered at the sources, summed at the targets, the sum at node
    `c` scaled by `D c`. Right: rows gathered at the sources, each edge's row scaled by the product of the factor gathered
    at its source and the factor gathered at its target — the target read through start indices `colIN` that agree
    with the scatter's `colI` wherever the latter is not negative —, then summed at the targets. Equal at every index:
    an edge summed at `c` has the word `c` as its target, which is not negative, so both readings of its target are
    `c`, the second factor is `D c` in every term, and it moves out of the sum. -/
theorem scale_split (hn : 0 < n)
    (ws : ScatterDims.WF ⟨2, ![n, f]⟩ ⟨2, ![e, 1]⟩ ⟨2, ![e, f]⟩ [1] [0] [0] 1)
    (wg : GatherDims.WF ⟨2, ![n, f]⟩ ⟨2, ![e, 1]⟩ ⟨2, ![e, f]⟩ [1] [0] [] [0] [] 1 ![1, f])
    (we : GatherDims.WF ⟨1, ![n]⟩ ⟨2, ![e, 1]⟩ ⟨1, ![e]⟩ [] [0] [] [0] [] 1 ![1])
    (H Z : FVec Ideal ⟨2, ![n, f]⟩ .f32) (D : FVec Ideal ⟨1, ![n]⟩ .f32) (rowI colI colIN : IVec ⟨2, ![e, 1]⟩ 32)
    (hZ : ∀ i, Z i = (0 : EReal)) (hD : ∀ k, (0 : EReal) ≤ D k ∧ D k ≠ (⊤ : EReal))
    (hN : ∀ k : Fin e, 0 ≤ (colI (edgeIdx k)).toInt → colIN (edgeIdx k) = colI (edgeIdx k))
    (i : (⟨2, ![n, f]⟩ : Shape).Idx) :
    (Host.scatterAdd (F := Ideal) (rowsScatter ws) Z colI
        (Host.gather (rowsGather wg) (fun p => (H p * D (ix1 (nodeOf p)) : EReal)) rowI) i : EReal) * D (ix1 (nodeOf i))
      = Host.scatterAdd (F := Ideal) (rowsScatter ws) Z colI
          (fun j => (Host.gather (rowsGather wg) H rowI j
            * (Host.gather (entryGather we) D rowI (ix1 (edgeOf j)) * Host.gather (entryGather we) D colIN (ix1 (edgeOf j))) : EReal)) i := by
  show ((Z i + ∑ j ∈ Finset.univ.filter (fun j => (rowsScatter ws).resultIdx? j colI = some i),
          Host.gather (rowsGather wg) (fun p => (H p * D (ix1 (nodeOf p)) : EReal)) rowI j : EReal)) * D (ix1 (nodeOf i))
      = Z i + ∑ j ∈ Finset.univ.filter (fun j => (rowsScatter ws).resultIdx? j colI = some i),
          (Host.gather (rowsGather wg) H rowI j
            * (Host.gather (entryGather we) D rowI (ix1 (edgeOf j)) * Host.gather (entryGather we) D colIN (ix1 (edgeOf j))) : EReal)
  rw [hZ i, zero_add, zero_add, sum_mul_of_nonneg_ne_top _ _ (hD _).1 (hD _).2]
  refine Finset.sum_congr rfl fun j hj => ?_
  have hj' : (rowsScatter ws).resultIdx? j colI = some i := (Finset.mem_filter.mp hj).2
  have ht := rowsScatter_some ws colI j i hj'
  have hnn : 0 ≤ (colI (edgeIdx (edgeOf j))).toInt := by rw [ht]; exact Int.natCast_nonneg _
  rw [rowsGather_apply hn wg, rowsGather_apply hn wg, entryGather_apply hn we, entryGather_apply hn we,
    hN (edgeOf j) hnn, clampNode_of_toInt hn _ (nodeOf i) ht, nodeOf_ix2]
  exact mul_assoc _ _ _

end Dims

end Cert.SegmentScale

end
-- ==== Proof.GcnSpec.lean ====
/-
  The function both programs compute, over the extended reals.

  A graph of `n` nodes and `e` directed edges given by an array of 32-bit words `[2, e]` (row 0 the sources, row 1 the
  targets). A node-wise two-layer tanh network embeds each node's features and projects them; two graph-convolution layers
  follow, each "aggregate the neighbours' projected rows with the symmetric normalisation, add the node's own row with
  its self-loop weight, add a bias, rectify, project"; a node-wise two-layer tanh network ends it.

  The normalisation counts one self-loop per node: `deg c = 0 + (one per edge whose target word is c) + 1`, `dinv c =
  1/√(deg c)`, the weight of edge `k` is `dinv (source k) · dinv (target k)` and a node's self-loop weight is
  `dinv c · dinv c`. An edge is summed at node `c` exactly when its target word, read as a signed integer, is `c`'s number
  (other edges are dropped); the rows and weights an edge READS are taken at its words wrapped (a negative word has the node
  count added) and clamped into range. The float patterns of 0.0 and 1.0 stay as words: both programs carry the same ones.
-/
import Idealize.ShloMosaic.PureOps.Ideal
import Idealize.ShloMosaic.PureOps.Ideal.Laws
import Idealize.ShloMosaic.Lib.ValueIdx
import proofs.«127179_j13134009991452_2_alg».proof.Proof.LibRowLayers
import proofs.«127179_j13134009991452_2_alg».proof.Proof.LibRowExtras
import proofs.«127179_j13134009991452_2_alg».proof.Proof.LibSegmentScale

noncomputable section

open scoped BigOperators

namespace Cert.GcnSpec

open Idealize.ShloMosaic Idealize.ShloMosaic.ValueIdx Cert.RowLayers Cert.SegmentScale

/-- The float pattern of 0.0, as an extended real. -/
abbrev zeroW : EReal := Ideal.ofBits .f32 0x00000000#32
/-- The float pattern of 1.0, as an extended real. -/
abbrev oneW : EReal := Ideal.ofBits .f32 0x3F800000#32

/-! ## Row functions -/

/-- tanh of every entry of a row. -/
def tanhRow {J : ℕ} (f : Fin J → EReal) : Fin J → EReal := fun j => Ideal.tanh (f j)

/-- A row times a matrix: entry `j` is `∑ k, h k · w[k, j]`. -/
def proj {K J : ℕ} (h : Fin K → EReal) (w : (⟨2, ![K, J]⟩ : Shape).Idx → EReal) : Fin J → EReal :=
  fun j => ∑ k : Fin K, h k * w (ix2 k j)

/-- A node's features through the embedding network (two dense tanh layers) and the first projection. -/
def embedRow {A B C D : ℕ} (w1 : (⟨2, ![A, B]⟩ : Shape).Idx → EReal) (b1 : Fin B → EReal)
    (w2 : (⟨2, ![B, C]⟩ : Shape).Idx → EReal) (b2 : Fin C → EReal) (wg : (⟨2, ![C, D]⟩ : Shape).Idx → EReal)
    (xr : Fin A → EReal) : Fin D → EReal :=
  proj (tanhRow (dense (tanhRow (dense xr w1 b1)) w2 b2)) wg

/-- A node's combination: its aggregated row plus its own row times its self-loop weight, plus the bias, rectified. -/
def combineRow {C : ℕ} (bias aggr own : Fin C → EReal) (s : EReal) : Fin C → EReal :=
  relu zeroW (fun j => (aggr j + own j * s) + bias j)

/-- The closing network on a row: two dense tanh layers. -/
def headRow {C D O : ℕ} (w1 : (⟨2, ![C, D]⟩ : Shape).Idx → EReal) (b1 : Fin D → EReal)
    (w2 : (⟨2, ![D, O]⟩ : Shape).Idx → EReal) (b2 : Fin O → EReal) (h : Fin C → EReal) : Fin O → EReal :=
  tanhRow (dense (tanhRow (dense h w1 b1)) w2 b2)

/-! ## The graph -/

section Graph
variable {n e : ℕ}

/-- A row number as a gather takes it: a negative word has the node count's word added. -/
def wrap (nW v : BitVec 32) : BitVec 32 := Scalar.select (IntOp.cmpi .slt v 0#32) (IntOp.addi v nW) v

/-- The node a gather reads for the word `v`: wrapped, read signed, clamped into range. -/
def nodeAt (hn : 0 < n) (nW v : BitVec 32) : Fin n := clampNode hn (wrap nW v)

/-- The edges summed at node `c`: those whose target word, read signed, is `c`'s number. -/
def hits (dst : Fin e → BitVec 32) (c : Fin n) : Finset (Fin e) :=
  Finset.univ.filter (fun k => (dst k).toInt = (c.val : ℤ))

/-- The degree with the self-loop counted. -/
def deg (dst : Fin e → BitVec 32) (c : Fin n) : EReal := (zeroW + ∑ _k ∈ hits dst c, oneW) + oneW

/-- The inverse square root of the degree. -/
def dinv (dst : Fin e → BitVec 32) (c : Fin n) : EReal := Ideal.rsqrt (deg dst c)

/-- A node's self-loop weight. -/
def selfW (dst : Fin e → BitVec 32) (c : Fin n) : EReal := dinv dst c * dinv dst c

/-- Edge `k`'s weight: `dinv` at its source times `dinv` at its target, both as the gathers read them. -/
def edgeW (hn : 0 < n) (nW : BitVec 32) (src dst : Fin e → BitVec 32) (k : Fin e) : EReal :=
  dinv dst (nodeAt hn nW (src k)) * dinv dst (nodeAt hn nW (dst k))

/-- The aggregation over the edges: at `(c, q)`, zero plus the sum over the edges summed at `c` of the source's row entry
    times the edge's weight. -/
def agg {f : ℕ} (hn : 0 < n) (nW : BitVec 32) (src dst : Fin e → BitVec 32)
    (Hm : (⟨2, ![n, f]⟩ : Shape).Idx → EReal) : (⟨2, ![n, f]⟩ : Shape).Idx → EReal :=
  fun i => zeroW + ∑ k ∈ hits dst (nodeOf i), Hm (ix2 (nodeAt hn nW (src k)) (featOf i)) * edgeW hn nW src dst k

end Graph

/-! ## The layers as whole arrays -/

section Layers
variable {n : ℕ}

/-- Every node's features embedded and projected. -/
def embedLayer {A B C D : ℕ} (x : (⟨2, ![n, A]⟩ : Shape).Idx → EReal) (w1 : (⟨2, ![A, B]⟩ : Shape).Idx → EReal)
    (b1 : (⟨1, ![B]⟩ : Shape).Idx → EReal) (w2 : (⟨2, ![B, C]⟩ : Shape).Idx → EReal) (b2 : (⟨1, ![C]⟩ : Shape).Idx → EReal)
    (wg : (⟨2, ![C, D]⟩ : Shape).Idx → EReal) : (⟨2, ![n, D]⟩ : Shape).Idx → EReal :=
  fun i => embedRow w1 (vec b1) w2 (vec b2) wg (rowOf x (nodeOf i)) (featOf i)

/-- Every node combined (aggregated row `A`, own row `H`, self-loop weight `S`) and projected by `wg`. -/
def midLayer {C D : ℕ} (bias : (⟨1, ![C]⟩ : Shape).Idx → EReal) (wg : (⟨2, ![C, D]⟩ : Shape).Idx → EReal)
    (A H : (⟨2, ![n, C]⟩ : Shape).Idx → EReal) (S : Fin n → EReal) : (⟨2, ![n, D]⟩ : Shape).Idx → EReal :=
  fun i => proj (combineRow (vec bias) (rowOf A (nodeOf i)) (rowOf H (nodeOf i)) (S (nodeOf i))) wg (featOf i)

/-- Every node combined and sent through the closing network. -/
def headLayer {C D O : ℕ} (bias : (⟨1, ![C]⟩ : Shape).Idx → EReal) (w1 : (⟨2, ![C, D]⟩ : Shape).Idx → EReal)
    (b1 : (⟨1, ![D]⟩ : Shape).Idx → EReal) (w2 : (⟨2, ![D, O]⟩ : Shape).Idx → EReal) (b2 : (⟨1, ![O]⟩ : Shape).Idx → EReal)
    (A H : (⟨2, ![n, C]⟩ : Shape).Idx → EReal) (S : Fin n → EReal) : (⟨2, ![n, O]⟩ : Shape).Idx → EReal :=
  fun i => headRow w1 (vec b1) w2 (vec b2) (combineRow (vec bias) (rowOf A (nodeOf i)) (rowOf H (nodeOf i)) (S (nodeOf i))) (featOf i)

end Layers

/-! ## The whole network -/

section Net
variable {n e : ℕ}

/-- The sources' words: row 0 of the edge array. -/
def srcOf (ei : (⟨2, ![2, e]⟩ : Shape).Idx → BitVec 32) : Fin e → BitVec 32 := fun k => ei (ix2 (0 : Fin 2) k)
/-- The targets' words: row 1 of the edge array. -/
def dstOf (ei : (⟨2, ![2, e]⟩ : Shape).Idx → BitVec 32) : Fin e → BitVec 32 := fun k => ei (ix2 (1 : Fin 2) k)

/-- The first projected rows. -/
def hwA {A B C : ℕ} (x : (⟨2, ![n, A]⟩ : Shape).Idx → EReal) (we1 : (⟨2, ![A, B]⟩ : Shape).Idx → EReal)
    (be1 : (⟨1, ![B]⟩ : Shape).Idx → EReal) (we2 : (⟨2, ![B, C]⟩ : Shape).Idx → EReal) (be2 : (⟨1, ![C]⟩ : Shape).Idx → EReal)
    (wg1 : (⟨2, ![C, C]⟩ : Shape).Idx → EReal) : (⟨2, ![n, C]⟩ : Shape).Idx → EReal :=
  embedLayer x we1 be1 we2 be2 wg1

/-- The second projected rows: the first graph layer's output through the second projection. -/
def hwB {A B C : ℕ} (hn : 0 < n) (nW : BitVec 32) (ei : (⟨2, ![2, e]⟩ : Shape).Idx → BitVec 32)
    (x : (⟨2, ![n, A]⟩ : Shape).Idx → EReal) (we1 : (⟨2, ![A, B]⟩ : Shape).Idx → EReal)
    (be1 : (⟨1, ![B]⟩ : Shape).Idx → EReal) (we2 : (⟨2, ![B, C]⟩ : Shape).Idx → EReal) (be2 : (⟨1, ![C]⟩ : Shape).Idx → EReal)
    (wg1 : (⟨2, ![C, C]⟩ : Shape).Idx → EReal) (bg1 : (⟨1, ![C]⟩ : Shape).Idx → EReal)
    (wg2 : (⟨2, ![C, C]⟩ : Shape).Idx → EReal) : (⟨2, ![n, C]⟩ : Shape).Idx → EReal :=
  midLayer bg1 wg2 (agg hn nW (srcOf ei) (dstOf ei) (hwA x we1 be1 we2 be2 wg1)) (hwA x we1 be1 we2 be2 wg1) (selfW (dstOf ei))

/-- The network's output `[n, O]`. -/
def net {A B C O : ℕ} (hn : 0 < n) (nW : BitVec 32) (x : (⟨2, ![n, A]⟩ : Shape).Idx → EReal)
    (ei : (⟨2, ![2, e]⟩ : Shape).Idx → BitVec 32)
    (we1 : (⟨2, ![A, B]⟩ : Shape).Idx → EReal) (be1 : (⟨1, ![B]⟩ : Shape).Idx → EReal)
    (we2 : (⟨2, ![B, C]⟩ : Shape).Idx → EReal) (be2 : (⟨1, ![C]⟩ : Shape).Idx → EReal)
    (wg1 : (⟨2, ![C, C]⟩ : Shape).Idx → EReal) (bg1 : (⟨1, ![C]⟩ : Shape).Idx → EReal)
    (wg2 : (⟨2, ![C, C]⟩ : Shape).Idx → EReal) (bg2 : (⟨1, ![C]⟩ : Shape).Idx → EReal)
    (wp1 : (⟨2, ![C, C]⟩ : Shape).Idx → EReal) (bp1 : (⟨1, ![C]⟩ : Shape).Idx → EReal)
    (wp2 : (⟨2, ![C, O]⟩ : Shape).Idx → EReal) (bp2 : (⟨1, ![O]⟩ : Shape).Idx → EReal) : (⟨2, ![n, O]⟩ : Shape).Idx → EReal :=
  headLayer bg2 wp1 bp1 wp2 bp2
    (agg hn nW (srcOf ei) (dstOf ei) (hwB hn nW ei x we1 be1 we2 be2 wg1 bg1 wg2))
    (hwB hn nW ei x we1 be1 we2 be2 wg1 bg1 wg2) (selfW (dstOf ei))

end Net

end Cert.GcnSpec

end
-- ==== Proof.LibRowGatherScatter.lean ====
/-
  Rows of a table gathered and scatter-added along an edge list, read at one entry.

  A table [N, C] indexed by a column [E, 1] of integer row numbers:
  * the gather of whole rows (x[idx]): entry (e, q) of the result is the table at row idx[e] — read as a
    signed integer and clamped into [0, N-1] — and column q;
  * the accumulating scatter of whole rows at the extended reals (segment_sum): entry (n, q) of the result
    is the operand's plus the sum, over the edges e whose row number read as a signed integer is exactly n,
    of the update at (e, q); an edge whose number is outside [0, N) adds nothing.
  In both the column is carried through untouched, so the operations act on each column of the table by itself,
  whatever the number C of columns: this is what lets one wide table stand for two narrow ones side by side.
-/
import Idealize.ShloMosaic.Lib.ValueIdx
import Idealize.ShloMosaic.PureOps.Ideal.Laws

noncomputable section

open scoped BigOperators

namespace Idealize.ShloMosaic.RowOps

open Idealize.ShloMosaic Idealize.ShloMosaic.ValueIdx

/-! ## The gather of whole rows -/

section Gather
variable {α : Type}

/-- The dimension numbers of x[idx] for a table [N, C] and row numbers [E, 1]: the row axis is collapsed and
    addressed by the one component of the start index, the column axis is the offset axis, slices are 1 × C. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row edge e reads: its row number as a signed integer, clamped into [0, N-1]. -/
def gatherRow {N E w : Nat} (hN : 0 < N) (idx : IVec ⟨2, ![E, 1]⟩ w) (e : Fin E) : Fin N :=
  ⟨min (idx (ix2 e (0 : Fin 1))).toInt.toNat (N - 1), by omega⟩

/-- THE GATHER AT (e, q): the table at edge e's row and the same column q. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q) = x (ix2 (gatherRow hN idx e) q) := by
  unfold Host.gather
  congr 1
  funext a
  refine Fin.ext ?_
  match a with
  | ⟨0, _⟩ =>
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
      + (rowGatherDims N E C wf).offCoord (ix2 e q) 1 = q.val
    rw [GatherDims.batchCoord_eq_zero _ _ _ List.not_mem_nil]
    have hs : (rowGatherDims N E C wf).start (ix2 e q) idx 1 = 0 := by
      unfold GatherDims.start
      rw [dif_neg (show ¬ (1 : Fin 2) ∈ ([0] : List (Fin 2)) by decide)]
    have ho : (rowGatherDims N E C wf).offCoord (ix2 e q) 1 = q.val := by
      unfold GatherDims.offCoord
      rw [dif_pos ((GatherDims.mem_sKept (rowGatherDims N E C wf) 1).mpr ⟨(by decide : (1 : Fin 2) ∉ ([0] : List (Fin 2))), List.not_mem_nil⟩)]
      rfl
    rw [hs, ho]; omega

end Gather

/-! ## The accumulating scatter of whole rows, at the extended reals -/

section Scatter

/-- The dimension numbers of segment_sum of rows [E, C] into a table [N, C] at row numbers [E, 1]: the row
    axis is inserted and addressed by the one component of the scatter index, the column axis is the window axis. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem start_row (idx : IVec ⟨2, ![E, 1]⟩ w) (e : Fin E) (q' : Fin C) :
    (rowScatterDims N E C wf).start (ix2 e q') idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e q') ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem start_col (idx : IVec ⟨2, ![E, 1]⟩ w) (e : Fin E) (q' : Fin C) :
    (rowScatterDims N E C wf).start (ix2 e q') idx 1 = 0 := by
  unfold ScatterDims.start
  rw [dif_neg (show ¬ (1 : Fin 2) ∈ ([0] : List (Fin 2)) by decide)]

theorem window_row (e : Fin E) (q' : Fin C) : (rowScatterDims N E C wf).window (ix2 e q') 0 = 0 := by
  unfold ScatterDims.window
  rw [dif_neg (show ¬ (0 : Fin 2) ∈ (rowScatterDims N E C wf).sKept by simp [ScatterDims.sKept, Shape.kept, List.mem_filter, List.mem_finRange])]

theorem window_col (e : Fin E) (q' : Fin C) : (rowScatterDims N E C wf).window (ix2 e q') 1 = q'.val := by
  unfold ScatterDims.window
  rw [dif_pos (show (1 : Fin 2) ∈ (rowScatterDims N E C wf).sKept by simp [ScatterDims.sKept, Shape.kept, List.mem_filter, List.mem_finRange])]
  rfl

/-- WHERE AN UPDATE LANDS: the update at (e, q') lands on (n, q) exactly when edge e's row number, read as a
    signed integer, is n, and the columns agree. -/
theorem resultIdx?_rows (idx : IVec ⟨2, ![E, 1]⟩ w) (e : Fin E) (q' : Fin C) (n : Fin N) (q : Fin C) :
    (rowScatterDims N E C wf).resultIdx? (ix2 e q') idx = some (ix2 n q)
      ↔ (idx (ix2 e (0 : Fin 1))).toInt = (n.val : ℤ) ∧ q' = q := by
  have h0 := start_row wf idx e q'
  have h1 := start_col wf idx e q'
  have w0 := window_row wf e q'
  have w1 := window_col wf e q'
  unfold ScatterDims.resultIdx?
  split
  · rename_i h
    rw [Option.some.injEq]
    constructor
    · intro hf
      have e0 := congrArg (fun f => (f 0).val) hf
      have e1 := congrArg (fun f => (f 1).val) hf
      have b0 := h 0
      rw [h0, w0] at b0
      have e0' : ((rowScatterDims N E C wf).start (ix2 e q') idx 0 + ((rowScatterDims N E C wf).window (ix2 e q') 0 : ℤ)).toNat = n.val := e0
      have e1' : ((rowScatterDims N E C wf).start (ix2 e q') idx 1 + ((rowScatterDims N E C wf).window (ix2 e q') 1 : ℤ)).toNat = q.val := e1
      rw [h0, w0] at e0'
      rw [h1, w1] at e1'
      refine ⟨by omega, Fin.ext (by omega)⟩
    · rintro ⟨hr, rfl⟩
      funext a; refine Fin.ext ?_
      match a with
      | ⟨0, _⟩ =>
        show ((rowScatterDims N E C wf).start (ix2 e q') idx 0 + ((rowScatterDims N E C wf).window (ix2 e q') 0 : ℤ)).toNat = n.val
        rw [h0, w0]; omega
      | ⟨1, _⟩ =>
        show ((rowScatterDims N E C wf).start (ix2 e q') idx 1 + ((rowScatterDims N E C wf).window (ix2 e q') 1 : ℤ)).toNat = q'.val
        rw [h1, w1]; omega
  · rename_i h
    constructor
    · intro hf; exact absurd hf (by simp)
    · rintro ⟨hr, rfl⟩
      exfalso; apply h
      intro a
      match a with
      | ⟨0, _⟩ =>
        show 0 ≤ (rowScatterDims N E C wf).start (ix2 e q') idx 0 + ((rowScatterDims N E C wf).window (ix2 e q') 0 : ℤ)
          ∧ (rowScatterDims N E C wf).start (ix2 e q') idx 0 + ((rowScatterDims N E C wf).window (ix2 e q') 0 : ℤ) < (N : ℤ)
        rw [h0, w0]; have := n.isLt; omega
      | ⟨1, _⟩ =>
        show 0 ≤ (rowScatterDims N E C wf).start (ix2 e q') idx 1 + ((rowScatterDims N E C wf).window (ix2 e q') 1 : ℤ)
          ∧ (rowScatterDims N E C wf).start (ix2 e q') idx 1 + ((rowScatterDims N E C wf).window (ix2 e q') 1 : ℤ) < (C : ℤ)
        rw [h1, w1]; have := q'.isLt; omega

/-- THE ACCUMULATING SCATTER AT (n, q), over the extended reals: the operand's entry plus the sum, over the edges
    whose row number is n, of the update's entry in the same column. -/
theorem scatterAdd_rows_apply {φ : FTy} (x : (⟨2, ![N, C]⟩ : Shape).Idx → EReal) (idx : IVec ⟨2, ![E, 1]⟩ w)
    (upd : (⟨2, ![E, C]⟩ : Shape).Idx → EReal) (n : Fin N) (q : Fin C) :
    Host.scatterAdd (F := Ideal) (φ := φ) (rowScatterDims N E C wf) x idx upd (ix2 n q)
      = x (ix2 n q) + ∑ e ∈ Finset.univ.filter (fun e : Fin E => (idx (ix2 e (0 : Fin 1))).toInt = (n.val : ℤ)), upd (ix2 e q) := by
  show x (ix2 n q) + ∑ j ∈ Finset.univ.filter (fun j => (rowScatterDims N E C wf).resultIdx? j idx = some (ix2 n q)), upd j = _
  congr 1
  rw [Finset.sum_filter, sum_idx2, Finset.sum_filter]
  refine Finset.sum_congr rfl fun e _ => ?_
  simp only [resultIdx?_rows wf idx e _ n q]
  by_cases he : (idx (ix2 e (0 : Fin 1))).toInt = (n.val : ℤ)
  · simp only [he, true_and, if_true]
    rw [Finset.sum_ite_eq' Finset.univ q (fun b => upd (ix2 e b))]
    simp
  · simp only [he, false_and, if_false]
    exact Finset.sum_const_zero

end Scatter

end Idealize.ShloMosaic.RowOps

end
-- ==== Proof.LibSelfLoopSplit.lean ====
/-
  Self-loops handled analytically: a graph whose edge list is extended by one loop per node, against the bare edge list
  plus one extra term per node — over the extended reals.

  A graph convolution with symmetric normalisation adds a loop at every node before it counts degrees and before it
  sums messages. Spelt with arrays, the loops are n extra entries appended to the e real edges: entry e + i of the
  extended list has source i and target i. Every sum "over the extended edges whose target is node c" therefore splits
  into the same sum over the real edges plus exactly ONE more term, the loop at c (`sum_filter_split`, `sum_filter_self`):
  * the degree (a sum of ones) is the real edges' count plus one (`degree_split`), so it is positive, its inverse
    square root needs no guard against zero, and that root is a nonnegative finite number (`rsqrt_of_pos`);
  * a layer's sum of messages, each weighed by the factors of its two ends, is the sum over the real edges of the
    messages weighed at the source only, plus the node's own weighed row, all times the node's own factor
    (`layer_split`) — the target's factor is the same in every term summed at c and moves out of the sum, which on the
    extended reals is sound for a nonnegative finite factor whatever the terms are.
  Also here: the accumulating scatter of single entries into a vector, read at a node (`scatterAdd_entries_apply`).
-/
import Idealize.ShloMosaic.PureOps.Ideal
import Idealize.ShloMosaic.PureOps.Ideal.Laws
import Idealize.ShloMosaic.Lib.ValueIdx
import proofs.«127179_j13134009991452_2_alg».proof.Proof.LibSegmentScale
import proofs.«127179_j13134009991452_2_alg».proof.Proof.LibRowGatherScatter

noncomputable section

open scoped BigOperators

namespace Cert.SelfLoops

open Idealize.ShloMosaic Idealize.ShloMosaic.ValueIdx Idealize.ShloMosaic.RowOps

/-! ## Sums over a rank-1 index set -/

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-! ## The accumulating scatter of single entries into a vector -/

section EntryScatter

/-- The dimension numbers of a segment sum of a vector [E] into a vector [N] at positions [E, 1]: the one operand
    axis is inserted and addressed by the one component of the scatter index; there is no window axis. -/
abbrev entryScatterDims (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : ℕ} (wf : ScatterDims.WF ⟨1, ![N]⟩ ⟨2, ![E, 1]⟩ ⟨1, ![E]⟩ [] [0] [0] 1)

theorem start_entry (idx : IVec ⟨2, ![E, 1]⟩ w) (k : Fin E) :
    (entryScatterDims N E wf).start (ix1 k) idx 0 = (idx (ix2 k (0 : Fin 1))).toInt := by
  unfold ScatterDims.start
  rw [dif_pos (show (0 : Fin 1) ∈ (entryScatterDims N E wf).scatterDimsToOperandDims from List.mem_singleton.mpr rfl)]
  have hsi : (entryScatterDims N E wf).siIdx (ix1 k) ⟨List.idxOf (0 : Fin 1) (entryScatterDims N E wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

theorem window_entry (k : Fin E) : (entryScatterDims N E wf).window (ix1 k) 0 = 0 := by
  unfold ScatterDims.window
  rw [dif_neg (show ¬ (0 : Fin 1) ∈ (entryScatterDims N E wf).sKept by simp [ScatterDims.sKept, Shape.kept, List.mem_filter, List.mem_finRange])]

/-- WHERE AN UPDATE LANDS: edge k's entry lands on node c exactly when k's position word, read signed, is c. -/
theorem resultIdx?_entries (idx : IVec ⟨2, ![E, 1]⟩ w) (k : Fin E) (c : Fin N) :
    (entryScatterDims N E wf).resultIdx? (ix1 k) idx = some (ix1 c) ↔ (idx (ix2 k (0 : Fin 1))).toInt = (c.val : ℤ) := by
  have h0 := start_entry wf idx k
  have w0 := window_entry wf k
  unfold ScatterDims.resultIdx?
  split
  · rename_i h
    rw [Option.some.injEq]
    constructor
    · intro hf
      have e0 := congrArg (fun f => (f 0).val) hf
      have b0 := h 0
      rw [h0, w0] at b0
      have e0' : ((entryScatterDims N E wf).start (ix1 k) idx 0 + ((entryScatterDims N E wf).window (ix1 k) 0 : ℤ)).toNat = c.val := e0
      rw [h0, w0] at e0'
      omega
    · intro hr
      funext a; refine Fin.ext ?_
      match a with
      | ⟨0, _⟩ =>
        show ((entryScatterDims N E wf).start (ix1 k) idx 0 + ((entryScatterDims N E wf).window (ix1 k) 0 : ℤ)).toNat = c.val
        rw [h0, w0]; omega
  · rename_i h
    constructor
    · intro hf; exact absurd hf (by simp)
    · intro hr
      exfalso; apply h
      intro a
      match a with
      | ⟨0, _⟩ =>
        show 0 ≤ (entryScatterDims N E wf).start (ix1 k) idx 0 + ((entryScatterDims N E wf).window (ix1 k) 0 : ℤ)
          ∧ (entryScatterDims N E wf).start (ix1 k) idx 0 + ((entryScatterDims N E wf).window (ix1 k) 0 : ℤ) < (N : ℤ)
        rw [h0, w0]; have := c.isLt; omega

/-- THE ACCUMULATING SCATTER OF ENTRIES AT NODE c, over the extended reals: the operand's entry plus the sum, over the
    edges whose position is c, of the update's entry. -/
theorem scatterAdd_entries_apply {φ : FTy} (x : (⟨1, ![N]⟩ : Shape).Idx → EReal) (idx : IVec ⟨2, ![E, 1]⟩ w)
    (upd : (⟨1, ![E]⟩ : Shape).Idx → EReal) (c : Fin N) :
    Host.scatterAdd (F := Ideal) (φ := φ) (entryScatterDims N E wf) x idx upd (ix1 c)
      = x (ix1 c) + ∑ k ∈ Finset.univ.filter (fun k : Fin E => (idx (ix2 k (0 : Fin 1))).toInt = (c.val : ℤ)), upd (ix1 k) := by
  show x (ix1 c) + ∑ j ∈ Finset.univ.filter (fun j => (entryScatterDims N E wf).resultIdx? j idx = some (ix1 c)), upd j = _
  congr 1
  rw [Finset.sum_filter, sum_idx1, Finset.sum_filter]
  refine Finset.sum_congr rfl fun k _ => ?_
  simp only [resultIdx?_entries wf idx k c]

end EntryScatter

/-! ## An edge list extended by one loop per node -/

section Split
variable {e n en : ℕ}

/-- Where real edge k sits in the extended list. -/
def realEdge (h : en = e + n) (k : Fin e) : Fin en := ⟨k.val, by omega⟩
/-- Where node i's loop sits in the extended list. -/
def loopEdge (h : en = e + n) (i : Fin n) : Fin en := ⟨e + i.val, by omega⟩

/-- A sum over the extended list is the sum over the real edges plus the sum over the loops. -/
theorem sum_split (h : en = e + n) (g : Fin en → EReal) :
    ∑ k, g k = ∑ k : Fin e, g (realEdge h k) + ∑ i : Fin n, g (loopEdge h i) := by
  subst h
  rw [Fin.sum_univ_add]
  rfl

/-- The same for the entries that satisfy a condition. -/
theorem sum_filter_split (h : en = e + n) (P : Fin en → Prop) [DecidablePred P] (g : Fin en → EReal) :
    ∑ k ∈ Finset.univ.filter P, g k
      = ∑ k ∈ Finset.univ.filter (fun k : Fin e => P (realEdge h k)), g (realEdge h k)
        + ∑ i ∈ Finset.univ.filter (fun i : Fin n => P (loopEdge h i)), g (loopEdge h i) := by
  simp only [Finset.sum_filter]
  exact sum_split h _

/-- Among the loops, the one whose target is node c is the loop at c, and it is the only one. -/
theorem sum_filter_self (W : Fin n → ℤ) (hW : ∀ i, W i = (i.val : ℤ)) (c : Fin n) (g : Fin n → EReal) :
    ∑ i ∈ Finset.univ.filter (fun i => W i = (c.val : ℤ)), g i = g c := by
  have hset : Finset.univ.filter (fun i : Fin n => W i = (c.val : ℤ)) = {c} := by
    ext i
    simp only [Finset.mem_filter, Finset.mem_univ, true_and, Finset.mem_singleton, hW]
    constructor
    · intro hi; exact Fin.ext (by exact_mod_cast hi)
    · rintro rfl; rfl
  rw [hset, Finset.sum_singleton]

end Split

/-! ## The degree: the real edges' count plus one -/

section Degree
variable {e n en : ℕ}

/-- The extended list's count at node c is the real edges' count plus the loop's one: every update entry is the same
    number `o`, the loops' targets are the nodes themselves. -/
theorem degree_split (h : en = e + n)
    (ws : ScatterDims.WF ⟨1, ![n]⟩ ⟨2, ![e, 1]⟩ ⟨1, ![e]⟩ [] [0] [0] 1)
    (ws' : ScatterDims.WF ⟨1, ![n]⟩ ⟨2, ![en, 1]⟩ ⟨1, ![en]⟩ [] [0] [0] 1)
    (Z Z' O : (⟨1, ![n]⟩ : Shape).Idx → EReal) (U : (⟨1, ![e]⟩ : Shape).Idx → EReal) (U' : (⟨1, ![en]⟩ : Shape).Idx → EReal)
    (tgt : IVec ⟨2, ![e, 1]⟩ 32) (tgt' : IVec ⟨2, ![en, 1]⟩ 32) (o : EReal)
    (hZ : ∀ i, Z' i = Z i) (hU : ∀ k, U k = o) (hU' : ∀ k, U' k = o) (hO : ∀ i, O i = o)
    (hreal : ∀ k : Fin e, tgt' (ix2 (realEdge h k) (0 : Fin 1)) = tgt (ix2 k (0 : Fin 1)))
    (hloop : ∀ i : Fin n, (tgt' (ix2 (loopEdge h i) (0 : Fin 1))).toInt = (i.val : ℤ)) (c : Fin n) :
    Host.scatterAdd (F := Ideal) (φ := .f32) (entryScatterDims n en ws') Z' tgt' U' (ix1 c)
      = Host.scatterAdd (F := Ideal) (φ := .f32) (entryScatterDims n e ws) Z tgt U (ix1 c) + O (ix1 c) := by
  rw [scatterAdd_entries_apply, scatterAdd_entries_apply, hZ, hO, add_assoc]
  congr 1
  rw [sum_filter_split h]
  congr 1
  · simp only [hreal]
    exact Finset.sum_congr rfl fun k _ => by rw [hU', hU]
  · rw [sum_filter_self (fun i => (tgt' (ix2 (loopEdge h i) (0 : Fin 1))).toInt) hloop c (fun i => U' (ix1 (loopEdge h i))), hU']

/-- A zero plus a sum of copies of a nonnegative number, plus a positive number, is positive. -/
theorem count_pos {ι : Type*} (s : Finset ι) (z o : EReal) (u : ι → EReal) (hz : z = 0) (hu : ∀ k, u k = o) (ho : 0 < o) :
    0 < (z + ∑ k ∈ s, u k) + o := by
  have h1 : (0 : EReal) ≤ z + ∑ k ∈ s, u k := by
    rw [hz, zero_add]
    exact Finset.sum_nonneg fun k _ => by rw [hu]; exact ho.le
  exact lt_of_lt_of_le ho (le_add_of_nonneg_left h1)

end Degree

/-! ## The inverse square root of a positive number needs no guard, and is a nonnegative finite number -/

/-- The pattern of the float 1.0 denotes a positive number. -/
theorem one_pattern_pos : (0 : EReal) < Ideal.ofBits .f32 0x3F800000#32 := by
  have h1 : Ideal.ofBits .f32 0x3F800000#32 = 1 := by
    simp [Ideal.ofBits, Ideal.ieee, -EReal.coe_mul]; norm_num
  rw [h1]; exact zero_lt_one

/-- Where the argument is positive the guard "if 0 < v then 1/√v else 0" answers 1/√v. -/
theorem guarded_eq_of_pos (v : EReal) (hv : 0 < v) :
    Scalar.select (Ideal.cmp .ogt v 0) (Ideal.rsqrt v) 0 = Ideal.rsqrt v := by
  unfold Scalar.select Ideal.cmp
  have hb : BitVec.ofBool (decide ((0 : EReal) < v)) = 1 := by rw [decide_eq_true hv]; rfl
  rw [if_pos hb]

/-- 1/√v of a positive v is a nonnegative finite number. -/
theorem rsqrt_of_pos (v : EReal) (hv : 0 < v) : (0 : EReal) ≤ Ideal.rsqrt v ∧ Ideal.rsqrt v ≠ (⊤ : EReal) := by
  have := Cert.SegmentScale.guardedRsqrt_nonneg_ne_top v
  rwa [guarded_eq_of_pos v hv] at this

/-! ## One layer: both ends' factors edge by edge over the extended list, against the source's factor edge by edge
     over the real edges, the node's own row, and the node's factor once on the whole -/

section Layer
variable {e n en f : ℕ}

/-- THE LAYER IDENTITY at node c, feature q. `Hm` the projected rows, `D` a nonnegative finite factor per node.
    Right: over the real edges, the message of edge k is the source's row times the source's factor; the sum at c,
    plus c's own row times c's factor, is scaled by c's factor. Left: over the extended list, the message of entry k is
    the source's row times the product of the factors of its two ends. The loops' ends are the node itself; an entry
    summed at c has c as its target. -/
theorem layer_split (h : en = e + n)
    (ws : ScatterDims.WF ⟨2, ![n, f]⟩ ⟨2, ![e, 1]⟩ ⟨2, ![e, f]⟩ [1] [0] [0] 1)
    (ws' : ScatterDims.WF ⟨2, ![n, f]⟩ ⟨2, ![en, 1]⟩ ⟨2, ![en, f]⟩ [1] [0] [0] 1)
    (Z Z' : (⟨2, ![n, f]⟩ : Shape).Idx → EReal) (hZ : ∀ p, Z p = 0) (hZ' : ∀ p, Z' p = 0)
    (tgt : IVec ⟨2, ![e, 1]⟩ 32) (tgt' : IVec ⟨2, ![en, 1]⟩ 32)
    (hreal : ∀ k : Fin e, tgt' (ix2 (realEdge h k) (0 : Fin 1)) = tgt (ix2 k (0 : Fin 1)))
    (hloop : ∀ i : Fin n, (tgt' (ix2 (loopEdge h i) (0 : Fin 1))).toInt = (i.val : ℤ))
    (Hm : (⟨2, ![n, f]⟩ : Shape).Idx → EReal) (D : Fin n → EReal) (hD : ∀ i, (0 : EReal) ≤ D i ∧ D i ≠ (⊤ : EReal))
    (sN : Fin e → Fin n) (sN' tN' : Fin en → Fin n)
    (hs : ∀ k, sN' (realEdge h k) = sN k) (hsl : ∀ i, sN' (loopEdge h i) = i)
    (ht : ∀ (k : Fin en) (c : Fin n), (tgt' (ix2 k (0 : Fin 1))).toInt = (c.val : ℤ) → tN' k = c)
    (M : (⟨2, ![e, f]⟩ : Shape).Idx → EReal) (hM : ∀ k q, M (ix2 k q) = Hm (ix2 (sN k) q) * D (sN k))
    (M' : (⟨2, ![en, f]⟩ : Shape).Idx → EReal)
    (hM' : ∀ k q, M' (ix2 k q) = Hm (ix2 (sN' k) q) * (D (sN' k) * D (tN' k)))
    (c : Fin n) (q : Fin f) :
    Host.scatterAdd (F := Ideal) (φ := .f32) (rowScatterDims n en f ws') Z' tgt' M' (ix2 c q)
      = (Host.scatterAdd (F := Ideal) (φ := .f32) (rowScatterDims n e f ws) Z tgt M (ix2 c q) + Hm (ix2 c q) * D c) * D c := by
  rw [scatterAdd_rows_apply, scatterAdd_rows_apply, hZ, hZ', zero_add, zero_add,
    EReal.right_distrib_of_nonneg_of_ne_top (hD c).1 (hD c).2,
    Cert.SegmentScale.sum_mul_of_nonneg_ne_top _ _ (hD c).1 (hD c).2, sum_filter_split h]
  congr 1
  · simp only [hreal]
    refine Finset.sum_congr rfl fun k hk => ?_
    have hk' : (tgt (ix2 k (0 : Fin 1))).toInt = (c.val : ℤ) := (Finset.mem_filter.mp hk).2
    rw [hM', hM, hs, ht (realEdge h k) c (by rw [hreal]; exact hk'), mul_assoc]
  · rw [sum_filter_self (fun i => (tgt' (ix2 (loopEdge h i) (0 : Fin 1))).toInt) hloop c (fun i => M' (ix2 (loopEdge h i) q)),
      hM', hsl, ht (loopEdge h c) c (hloop c), mul_assoc]

end Layer

end Cert.SelfLoops

end
-- ==== Proof.LibExtendedEdges.lean ====
/-
  The extended edge list as arrays of words, and one layer of the reference's form.

  The reference appends the node numbers 0 … n−1 to the e source words and to the e target words (a concatenation with an
  iota), reads a word below zero from the end (a select on "word < 0" that adds n), and gathers with clamping. Read at
  an entry:
  * the concatenation at a real edge is that edge's word, at node i's loop it is the word of the number i, whose signed
    value is i (`concat_real`, `concat_loop`, `toInt_ofNat_of_lt`);
  * the select leaves a word alone whose signed value is not negative (`select_slt_zero_of_nonneg`) — so a loop's
    words, and the target word of any entry that the scatter keeps, are read as they are;
  * a vector viewed as a column [m, 1] reads the vector's entry (`column_apply`).
  With these, one layer of the reference — rows gathered at the sources, each scaled by the factors gathered at its two
  ends, summed at the targets over the extended list — is the bare edge list's sum of rows scaled at the source, plus
  the node's own scaled row, times the node's factor (`reference_layer`: the layer identity of the loops' split, with
  the gathers read at an entry).
-/
import Idealize.ShloMosaic.PureOps.Ideal
import Idealize.ShloMosaic.Lib.ValueIdx
import Idealize.ShloMosaic.Lib.Pipeline.Value
import proofs.«127179_j13134009991452_2_alg».proof.Proof.LibSegmentScale
import proofs.«127179_j13134009991452_2_alg».proof.Proof.LibRowGatherScatter
import proofs.«127179_j13134009991452_2_alg».proof.Proof.LibSelfLoopSplit

noncomputable section

open scoped BigOperators

namespace Cert.ExtendedEdges

open Idealize.ShloMosaic Idealize.ShloMosaic.ValueIdx Idealize.ShloMosaic.RowOps Cert.SegmentScale Cert.SelfLoops

/-! ## Words -/

/-- The 32-bit word of a number below 2³¹ has that number as its signed value. -/
theorem toInt_ofNat_of_lt (k : ℕ) (hk : k < 2 ^ 31) : (BitVec.ofNat 32 k).toInt = (k : ℤ) := by
  unfold BitVec.toInt
  have hm : k % 2 ^ 32 = k := Nat.mod_eq_of_lt (by omega)
  rw [BitVec.toNat_ofNat, hm, if_pos (by omega)]

/-- A select on "word < 0" answers the word itself when the word's signed value is not negative. -/
theorem select_slt_zero_of_nonneg (w a : BitVec 32) (h : 0 ≤ w.toInt) :
    Scalar.select (IntOp.cmpi .slt w 0#32) a w = w := by
  have hs : w.slt 0#32 = false := by
    rw [BitVec.slt]
    simpa using h
  unfold Scalar.select IntOp.cmpi
  simp only [hs]
  rfl

/-! ## Arrays of words read at an entry -/

section Reads
variable {α : Type}

/-- A vector [m] viewed as a column [m, 1]: entry (k, 0) is the vector's entry k. -/
theorem column_apply {m : ℕ} (v : (⟨1, ![m]⟩ : Shape).Idx → α) (h : (⟨1, ![m]⟩ : Shape).BroadcastsInDim ⟨2, ![m, 1]⟩ ![0]) (k : Fin m) :
    broadcastInDim ⟨2, ![m, 1]⟩ ![0] h v (ix2 k (0 : Fin 1)) = v (ix1 k) :=
  broadcastInDim_apply ![0] h v (ix2 k (0 : Fin 1)) (ix1 k) (fun a => by
    match a with
    | ⟨0, _⟩ =>
      show k.val = if m = 1 then 0 else k.val
      split
      · have := k.isLt; omega
      · rfl)

variable {e n en : ℕ}

/-- The concatenation of [e] and [n] at a real edge's place is the first array's entry. -/
theorem concat_real (hen : en = e + n) (x : (⟨1, ![e]⟩ : Shape).Idx → α) (y : (⟨1, ![n]⟩ : Shape).Idx → α)
    (h : Shape.Concatenates [(⟨1, ![e]⟩ : Shape), ⟨1, ![n]⟩] ⟨1, ![en]⟩ 0) (k : Fin e) :
    concatenate ⟨1, ![en]⟩ 0 [⟨⟨1, ![e]⟩, x⟩, ⟨⟨1, ![n]⟩, y⟩] h (ix1 (realEdge hen k)) = x (ix1 k) :=
  concatenate_pair_apply_left 0 x y h (ix1 (realEdge hen k)) rfl (ix1 k) (fun b => by
    match b with
    | ⟨0, _⟩ => rfl)

/-- The concatenation of [e] and [n] at node i's loop is the second array's entry i. -/
theorem concat_loop (hen : en = e + n) (x : (⟨1, ![e]⟩ : Shape).Idx → α) (y : (⟨1, ![n]⟩ : Shape).Idx → α)
    (h : Shape.Concatenates [(⟨1, ![e]⟩ : Shape), ⟨1, ![n]⟩] ⟨1, ![en]⟩ 0) (i : Fin n) :
    concatenate ⟨1, ![en]⟩ 0 [⟨⟨1, ![e]⟩, x⟩, ⟨⟨1, ![n]⟩, y⟩] h (ix1 (loopEdge hen i)) = y (ix1 i) :=
  concatenate_pair_apply_right 0 x y h (ix1 (loopEdge hen i)) rfl rfl (ix1 i)
    (fun b hne => by
      match b with
      | ⟨0, _⟩ => exact absurd rfl hne)
    (by show i.val + e = e + i.val; omega)

end Reads

/-! ## One layer in the reference's form -/

section Layer
variable {e n en f : ℕ}

/-- THE REFERENCE'S LAYER at node c, feature q, against the bare edge list's. `Hm` the projected rows, `Dv` the
    nonnegative finite factor per node (a vector). `tgt`, `src` the bare list's target and source columns; over the
    extended list `tgt'` the raw target column, `srcA` / `srcB` two copies of the source column as the gathers read it,
    `tgtN'` the target column as the factor's gather reads it (equal to the raw one wherever that is not negative). -/
theorem reference_layer (hen : en = e + n) (hn : 0 < n)
    (ws : ScatterDims.WF ⟨2, ![n, f]⟩ ⟨2, ![e, 1]⟩ ⟨2, ![e, f]⟩ [1] [0] [0] 1)
    (ws' : ScatterDims.WF ⟨2, ![n, f]⟩ ⟨2, ![en, 1]⟩ ⟨2, ![en, f]⟩ [1] [0] [0] 1)
    (wg : GatherDims.WF ⟨2, ![n, f]⟩ ⟨2, ![e, 1]⟩ ⟨2, ![e, f]⟩ [1] [0] [] [0] [] 1 ![1, f])
    (wg' : GatherDims.WF ⟨2, ![n, f]⟩ ⟨2, ![en, 1]⟩ ⟨2, ![en, f]⟩ [1] [0] [] [0] [] 1 ![1, f])
    (we' : GatherDims.WF ⟨1, ![n]⟩ ⟨2, ![en, 1]⟩ ⟨1, ![en]⟩ [] [0] [] [0] [] 1 ![1])
    (Z Z' : (⟨2, ![n, f]⟩ : Shape).Idx → EReal) (hZ : ∀ p, Z p = 0) (hZ' : ∀ p, Z' p = 0)
    (Hm : (⟨2, ![n, f]⟩ : Shape).Idx → EReal) (Dv : (⟨1, ![n]⟩ : Shape).Idx → EReal)
    (hD : ∀ i : Fin n, (0 : EReal) ≤ Dv (ix1 i) ∧ Dv (ix1 i) ≠ (⊤ : EReal))
    (tgt src : IVec ⟨2, ![e, 1]⟩ 32) (tgt' srcA srcB tgtN' : IVec ⟨2, ![en, 1]⟩ 32)
    (hreal : ∀ k : Fin e, tgt' (ix2 (realEdge hen k) (0 : Fin 1)) = tgt (ix2 k (0 : Fin 1)))
    (hloop : ∀ i : Fin n, (tgt' (ix2 (loopEdge hen i) (0 : Fin 1))).toInt = (i.val : ℤ))
    (hsA : ∀ k : Fin e, srcA (ix2 (realEdge hen k) (0 : Fin 1)) = src (ix2 k (0 : Fin 1)))
    (hsAl : ∀ i : Fin n, (srcA (ix2 (loopEdge hen i) (0 : Fin 1))).toInt = (i.val : ℤ))
    (hsB : ∀ k : Fin en, srcB (ix2 k (0 : Fin 1)) = srcA (ix2 k (0 : Fin 1)))
    (htN : ∀ k : Fin en, 0 ≤ (tgt' (ix2 k (0 : Fin 1))).toInt → tgtN' (ix2 k (0 : Fin 1)) = tgt' (ix2 k (0 : Fin 1)))
    (M' : (⟨2, ![en, f]⟩ : Shape).Idx → EReal)
    (hM' : ∀ (k : Fin en) (q : Fin f), M' (ix2 k q)
      = Host.gather (rowGatherDims n en f wg') Hm srcA (ix2 k q)
        * (Host.gather (entryGather we') Dv srcB (ix1 k) * Host.gather (entryGather we') Dv tgtN' (ix1 k)))
    (c : Fin n) (q : Fin f) :
    Host.scatterAdd (F := Ideal) (φ := .f32) (rowScatterDims n en f ws') Z' tgt' M' (ix2 c q)
      = (Host.scatterAdd (F := Ideal) (φ := .f32) (rowScatterDims n e f ws) Z tgt
            (Host.gather (rowGatherDims n e f wg) (fun p => Hm p * Dv (ix1 (p 0))) src) (ix2 c q)
          + Hm (ix2 c q) * Dv (ix1 c)) * Dv (ix1 c) := by
  refine layer_split hen ws ws' Z Z' hZ hZ' tgt tgt' hreal hloop Hm (fun i => Dv (ix1 i)) hD
    (fun k => gatherRow hn src k) (fun k => gatherRow hn srcA k) (fun k => clampNode hn (tgtN' (ix2 k (0 : Fin 1))))
    ?_ ?_ ?_ _ ?_ M' ?_ c q
  · intro k
    refine Fin.ext ?_
    show min (srcA (ix2 (realEdge hen k) (0 : Fin 1))).toInt.toNat (n - 1) = min (src (ix2 k (0 : Fin 1))).toInt.toNat (n - 1)
    rw [hsA k]
  · intro i
    exact clampNode_of_toInt hn _ i (hsAl i)
  · intro k c' hk
    rw [htN k (by rw [hk]; exact Int.natCast_nonneg _)]
    exact clampNode_of_toInt hn _ c' hk
  · intro k q'
    rw [gather_rows_apply hn wg]
    rfl
  · intro k q'
    rw [hM' k q', gather_rows_apply hn wg', entryGather_apply hn we', entryGather_apply hn we', hsB k]
    rfl

end Layer

end Cert.ExtendedEdges

end
-- ==== Proof.RefNetA.lean ====
/-
  The reference's graph stages over the edge list EXTENDED by one loop per node, against the specification's sums over
  the bare edge list — stated for arbitrary operands that read as the reference's do at a real edge's place and at a
  loop's place.

  The reference appends the node numbers to the source words and to the target words, so entry `e + i` of the
  extended list is node `i`'s loop. Every accumulating scatter "at the extended targets" therefore splits at node `c`
  into the sum over the real edges whose target word is `c` plus exactly one more term, the loop at `c`:
  * a scatter of ones is the specification's degree `(0 + ∑ 1) + 1` (`degree_ext`); it is positive, so the guard
    "if 0 < deg then 1/√deg else 0" answers the inverse root (`guarded_dinv`);
  * an entry gathered at a real edge's wrapped word is the entry of the node the specification reads for that word,
    and at a loop's word it is node `i`'s own entry (`entry_at_real`, `entry_at_loop`; the same for whole rows);
  * a scatter of weighted rows is the specification's aggregate plus the node's own row times its self-loop weight
    (`layer_ext`) — only the regrouping `z + (a + b) = (z + a) + b` is used, no distributivity and no finiteness.
-/
import Idealize.ShloMosaic.PureOps.Ideal
import Idealize.ShloMosaic.PureOps.Ideal.Laws
import Idealize.ShloMosaic.Lib.ValueIdx
import proofs.«127179_j13134009991452_2_alg».proof.Proof.GcnSpec
import proofs.«127179_j13134009991452_2_alg».proof.Proof.LibSegmentScale
import proofs.«127179_j13134009991452_2_alg».proof.Proof.LibRowGatherScatter
import proofs.«127179_j13134009991452_2_alg».proof.Proof.LibSelfLoopSplit
import proofs.«127179_j13134009991452_2_alg».proof.Proof.LibExtendedEdges

noncomputable section

open scoped BigOperators

namespace Cert.RefNet

open Idealize.ShloMosaic Idealize.ShloMosaic.ValueIdx Idealize.ShloMosaic.RowOps
open Cert.SegmentScale Cert.SelfLoops Cert.ExtendedEdges Cert.GcnSpec

section Generic
variable {e n en : ℕ}

/-! ## Words -/

/-- A word whose signed value is not negative is read as it is. -/
theorem wrap_of_nonneg (nW w : BitVec 32) (h : 0 ≤ w.toInt) : wrap nW w = w :=
  select_slt_zero_of_nonneg w _ h

/-- A word whose signed value is node `i`'s number names node `i`, wrapped or not. -/
theorem nodeAt_of_toInt (hn : 0 < n) (nW w : BitVec 32) (i : Fin n) (h : w.toInt = (i.val : ℤ)) :
    nodeAt hn nW w = i := by
  unfold nodeAt
  rw [wrap_of_nonneg nW w (by rw [h]; exact Int.natCast_nonneg _)]
  exact clampNode_of_toInt hn w i h

/-! ## The degree -/

/-- THE DEGREE: ones scattered at the extended targets into a constant, read at node `c`. -/
theorem degree_ext (hen : en = e + n)
    (ws' : ScatterDims.WF ⟨1, ![n]⟩ ⟨2, ![en, 1]⟩ ⟨1, ![en]⟩ [] [0] [0] 1)
    (Z : (⟨1, ![n]⟩ : Shape).Idx → EReal) (tgt' : IVec ⟨2, ![en, 1]⟩ 32) (U' : (⟨1, ![en]⟩ : Shape).Idx → EReal)
    (dst : Fin e → BitVec 32)
    (hZ : ∀ i, Z i = zeroW) (hU' : ∀ k, U' k = oneW)
    (hreal : ∀ k : Fin e, tgt' (ix2 (realEdge hen k) (0 : Fin 1)) = dst k)
    (hloop : ∀ i : Fin n, (tgt' (ix2 (loopEdge hen i) (0 : Fin 1))).toInt = (i.val : ℤ)) (c : Fin n) :
    Host.scatterAdd (F := Ideal) (φ := .f32) (entryScatterDims n en ws') Z tgt' U' (ix1 c) = deg dst c := by
  rw [scatterAdd_entries_apply, hZ, sum_filter_split hen, ← add_assoc]
  unfold deg hits
  congr 1
  · congr 1
    simp only [hreal, hU']
  · rw [sum_filter_self (fun i => (tgt' (ix2 (loopEdge hen i) (0 : Fin 1))).toInt) hloop c
      (fun i => U' (ix1 (loopEdge hen i))), hU']

/-- The degree is positive: it counts the node's own loop. -/
theorem deg_pos (dst : Fin e → BitVec 32) (c : Fin n) : 0 < deg dst c := by
  unfold deg
  exact count_pos _ zeroW oneW (fun _ => oneW) Ideal.ofBits_zero_f32 (fun _ => rfl) one_pattern_pos

/-- So the guard against a zero degree answers the inverse root. -/
theorem guarded_dinv (dst : Fin e → BitVec 32) (c : Fin n) (v z z' : EReal) (hv : v = deg dst c) (hz : z = 0)
    (hz' : z' = 0) : Scalar.select (Ideal.cmp .ogt v z) (Ideal.rsqrt v) z' = dinv dst c := by
  subst hv hz hz'
  exact guarded_eq_of_pos _ (deg_pos dst c)

/-! ## Gathers at a real edge's place and at a loop's place -/

/-- An entry gathered at a real edge's wrapped word: the entry of the node read for that word. -/
theorem entry_at_real {α : Type} (hen : en = e + n) (hn : 0 < n)
    (we' : GatherDims.WF ⟨1, ![n]⟩ ⟨2, ![en, 1]⟩ ⟨1, ![en]⟩ [] [0] [] [0] [] 1 ![1])
    (Dv : (⟨1, ![n]⟩ : Shape).Idx → α) (idx : IVec ⟨2, ![en, 1]⟩ 32) (nW : BitVec 32) (wd : Fin e → BitVec 32)
    (h : ∀ k : Fin e, idx (ix2 (realEdge hen k) (0 : Fin 1)) = wrap nW (wd k)) (k : Fin e) :
    Host.gather (entryGather we') Dv idx (ix1 (realEdge hen k)) = Dv (ix1 (nodeAt hn nW (wd k))) := by
  rw [entryGather_apply hn we']
  show Dv (ix1 (clampNode hn (idx (ix2 (realEdge hen k) (0 : Fin 1))))) = _
  rw [h k]
  rfl

/-- An entry gathered at node `i`'s loop: node `i`'s own entry. -/
theorem entry_at_loop {α : Type} (hen : en = e + n) (hn : 0 < n)
    (we' : GatherDims.WF ⟨1, ![n]⟩ ⟨2, ![en, 1]⟩ ⟨1, ![en]⟩ [] [0] [] [0] [] 1 ![1])
    (Dv : (⟨1, ![n]⟩ : Shape).Idx → α) (idx : IVec ⟨2, ![en, 1]⟩ 32)
    (h : ∀ i : Fin n, (idx (ix2 (loopEdge hen i) (0 : Fin 1))).toInt = (i.val : ℤ)) (i : Fin n) :
    Host.gather (entryGather we') Dv idx (ix1 (loopEdge hen i)) = Dv (ix1 i) := by
  rw [entryGather_apply hn we']
  show Dv (ix1 (clampNode hn (idx (ix2 (loopEdge hen i) (0 : Fin 1))))) = _
  rw [clampNode_of_toInt hn _ i (h i)]

/-- A row gathered at a real edge's wrapped word: the row of the node read for that word. -/
theorem row_at_real {α : Type} {f : ℕ} (hen : en = e + n) (hn : 0 < n)
    (wg' : GatherDims.WF ⟨2, ![n, f]⟩ ⟨2, ![en, 1]⟩ ⟨2, ![en, f]⟩ [1] [0] [] [0] [] 1 ![1, f])
    (Hm : (⟨2, ![n, f]⟩ : Shape).Idx → α) (idx : IVec ⟨2, ![en, 1]⟩ 32) (nW : BitVec 32) (wd : Fin e → BitVec 32)
    (h : ∀ k : Fin e, idx (ix2 (realEdge hen k) (0 : Fin 1)) = wrap nW (wd k)) (k : Fin e) (q : Fin f) :
    Host.gather (rowGatherDims n en f wg') Hm idx (ix2 (realEdge hen k) q) = Hm (ix2 (nodeAt hn nW (wd k)) q) := by
  rw [gather_rows_apply hn wg']
  show Hm (ix2 (clampNode hn (idx (ix2 (realEdge hen k) (0 : Fin 1)))) q) = _
  rw [h k]
  rfl

/-- A row gathered at node `i`'s loop: node `i`'s own row. -/
theorem row_at_loop {α : Type} {f : ℕ} (hen : en = e + n) (hn : 0 < n)
    (wg' : GatherDims.WF ⟨2, ![n, f]⟩ ⟨2, ![en, 1]⟩ ⟨2, ![en, f]⟩ [1] [0] [] [0] [] 1 ![1, f])
    (Hm : (⟨2, ![n, f]⟩ : Shape).Idx → α) (idx : IVec ⟨2, ![en, 1]⟩ 32)
    (h : ∀ i : Fin n, (idx (ix2 (loopEdge hen i) (0 : Fin 1))).toInt = (i.val : ℤ)) (i : Fin n) (q : Fin f) :
    Host.gather (rowGatherDims n en f wg') Hm idx (ix2 (loopEdge hen i) q) = Hm (ix2 i q) := by
  rw [gather_rows_apply hn wg']
  show Hm (ix2 (clampNode hn (idx (ix2 (loopEdge hen i) (0 : Fin 1)))) q) = _
  rw [clampNode_of_toInt hn _ i (h i)]

/-! ## One layer -/

/-- THE LAYER IDENTITY at node `c`, feature `q`, for any table `Hm`: weighted rows scattered at the extended targets
    into a zero table are the aggregate over the real edges plus the node's own row times its self-loop weight. -/
theorem layer_ext {f : ℕ} (hen : en = e + n) (hn : 0 < n) (nW : BitVec 32)
    (ws' : ScatterDims.WF ⟨2, ![n, f]⟩ ⟨2, ![en, 1]⟩ ⟨2, ![en, f]⟩ [1] [0] [0] 1)
    (Z' : (⟨2, ![n, f]⟩ : Shape).Idx → EReal) (tgt' : IVec ⟨2, ![en, 1]⟩ 32)
    (M' : (⟨2, ![en, f]⟩ : Shape).Idx → EReal) (src dst : Fin e → BitVec 32)
    (Hm : (⟨2, ![n, f]⟩ : Shape).Idx → EReal)
    (hZ' : ∀ p, Z' p = zeroW)
    (hreal : ∀ k : Fin e, tgt' (ix2 (realEdge hen k) (0 : Fin 1)) = dst k)
    (hloop : ∀ i : Fin n, (tgt' (ix2 (loopEdge hen i) (0 : Fin 1))).toInt = (i.val : ℤ))
    (hMr : ∀ (k : Fin e) (q : Fin f),
      M' (ix2 (realEdge hen k) q) = Hm (ix2 (nodeAt hn nW (src k)) q) * edgeW hn nW src dst k)
    (hMl : ∀ (i : Fin n) (q : Fin f), M' (ix2 (loopEdge hen i) q) = Hm (ix2 i q) * selfW dst i)
    (c : Fin n) (q : Fin f) :
    Host.scatterAdd (F := Ideal) (φ := .f32) (rowScatterDims n en f ws') Z' tgt' M' (ix2 c q)
      = agg hn nW src dst Hm (ix2 c q) + Hm (ix2 c q) * selfW dst c := by
  rw [scatterAdd_rows_apply, hZ', sum_filter_split hen, ← add_assoc]
  unfold agg hits
  congr 1
  · congr 1
    simp only [hreal, hMr, nodeOf_ix2, featOf_ix2]
    rfl
  · rw [sum_filter_self (fun i => (tgt' (ix2 (loopEdge hen i) (0 : Fin 1))).toInt) hloop c
      (fun i => M' (ix2 (loopEdge hen i) q)), hMl]

end Generic

end Cert.RefNet

end
-- ==== Proof.RefNetB.lean ====
/-
  The reference's graph stages read at an index: the edge words, the degree, its inverse root and the edge weights.

  `x1` is the array of edge words `[2, 1600000]`. The reference slices out its two rows, appends the node numbers
  0 … 99999 to each (one loop per node), and from the extended target list computes the degree (a scatter of ones),
  the guarded inverse root, and for every entry of the extended list the product of the inverse roots gathered at its
  two wrapped words. Read at a node, a real edge's place and a loop's place these are the specification's `deg`,
  `dinv`, `edgeW` and `selfW`.
-/
import proofs.«127179_j13134009991452_2_alg».proof.Proof.RefReadPatched
import proofs.«127179_j13134009991452_2_alg».proof.Proof.RefNetA

noncomputable section

open scoped BigOperators

namespace Cert.RefNet

open Cert.ReferenceIdeal Cert.ReferenceIdeal.Gen Cert.ReferenceIdeal.ReadP
open Idealize.ShloMosaic Idealize.ShloMosaic.TcCoe Idealize.SL.Sem Idealize.ShloMosaic.StableHlo
open Idealize.ShloMosaic.ValueIdx Idealize.ShloMosaic.RowOps
open Cert.SegmentScale Cert.SelfLoops Cert.ExtendedEdges Cert.GcnSpec

/-- The extended list has the real edges first, then one loop per node. -/
theorem hEN : (1700000 : ℕ) = 1600000 + 100000 := by norm_num
theorem hN : 0 < (100000 : ℕ) := by norm_num

/-- The edge words as the reference's arguments carry them. -/
abbrev EdgeWords : Type := (⟨S2x1600000, .i32⟩ : BufTy).Contents (Elt Ideal)

/-! ## (a) The two rows of the edge array -/

theorem v1_at (x1 : EdgeWords) (k : Fin 1600000) :
    val_main_v1 (F := Ideal) x1 (ix1 k) = srcOf (e := 1600000) x1 k := by
  rw [val_main_v1_apply, val_main_v0_apply]
  unfold srcOf
  congr 1
  funext a
  match a with
  | ⟨0, _⟩ => rfl
  | ⟨1, _⟩ => exact Fin.ext (Nat.mod_eq_of_lt k.isLt)

theorem v3_at (x1 : EdgeWords) (k : Fin 1600000) :
    val_main_v3 (F := Ideal) x1 (ix1 k) = dstOf (e := 1600000) x1 k := by
  rw [val_main_v3_apply, val_main_v2_apply]
  unfold dstOf
  congr 1
  funext a
  match a with
  | ⟨0, _⟩ => rfl
  | ⟨1, _⟩ => exact Fin.ext (Nat.mod_eq_of_lt k.isLt)

/-! ## The extended lists at a real edge's place and at a loop's place -/

/-- The word of node `i`'s number has `i` as its signed value. -/
theorem iota_toInt (i : Fin 100000) : (val_main_v15 (F := Ideal) (ix1 i)).toInt = (i.val : ℤ) := by
  rw [val_main_v15_apply]
  exact toInt_ofNat_of_lt i.val (by have := i.isLt; omega)

theorem v16_real (x1 : EdgeWords) (k : Fin 1600000) :
    val_main_v16 (F := Ideal) x1 (ix1 (realEdge hEN k)) = srcOf (e := 1600000) x1 k := by
  unfold val_main_v16
  rw [concat_real hEN, v1_at]

theorem v16_loop (x1 : EdgeWords) (i : Fin 100000) :
    (val_main_v16 (F := Ideal) x1 (ix1 (loopEdge hEN i))).toInt = (i.val : ℤ) := by
  unfold val_main_v16
  rw [concat_loop hEN, iota_toInt]

theorem v17_real (x1 : EdgeWords) (k : Fin 1600000) :
    val_main_v17 (F := Ideal) x1 (ix1 (realEdge hEN k)) = dstOf (e := 1600000) x1 k := by
  unfold val_main_v17
  rw [concat_real hEN, v3_at]

theorem v17_loop (x1 : EdgeWords) (i : Fin 100000) :
    (val_main_v17 (F := Ideal) x1 (ix1 (loopEdge hEN i))).toInt = (i.val : ℤ) := by
  unfold val_main_v17
  rw [concat_loop hEN, iota_toInt]

/-- The raw target column (the scatters' positions) at a real edge's place and at a loop's place. -/
theorem v20_real (x1 : EdgeWords) (k : Fin 1600000) :
    val_main_v20 (F := Ideal) x1 (ix2 (realEdge hEN k) (0 : Fin 1)) = dstOf (e := 1600000) x1 k := by
  unfold val_main_v20
  rw [column_apply, v17_real]

theorem v20_loop (x1 : EdgeWords) (i : Fin 100000) :
    (val_main_v20 (F := Ideal) x1 (ix2 (loopEdge hEN i) (0 : Fin 1))).toInt = (i.val : ℤ) := by
  unfold val_main_v20
  rw [column_apply, v17_loop]

/-! ## (c) The degree -/

theorem v21_at (x1 : EdgeWords) (c : Fin 100000) :
    val_main_v21 (F := Ideal) x1 (ix1 c) = deg (dstOf (e := 1600000) x1) c := by
  unfold val_main_v21
  refine degree_ext hEN Facts₀.scatter_S100000_S1700000x1_S1700000_n_0_0_1_wf
    (val_main_v19 (F := Ideal)) (val_main_v20 (F := Ideal) x1) (val_main_v18 (F := Ideal)) (dstOf (e := 1600000) x1)
    ?_ ?_ (v20_real x1) (v20_loop x1) c
  · intro i; rw [val_main_v19_apply]; rfl
  · intro k; rw [val_main_v18_apply]; rfl

/-! ## (d) The inverse root of the degree -/

theorem v25_at (x1 : EdgeWords) (c : Fin 100000) :
    val_main_v25 (F := Ideal) x1 (ix1 c) = dinv (dstOf (e := 1600000) x1) c := by
  have h22 : val_main_v22 (F := Ideal) (ix1 c) = (0 : EReal) := by
    rw [val_main_v22_apply]; exact Ideal.ofBits_zero_f32
  have hw : val_main_call0_v1 (F := Ideal) (ix1 c) = (0 : EReal) := by
    rw [val_main_call0_v1_apply]; exact Ideal.ofBits_zero_f32
  rw [val_main_v25_apply, val_main_v23_apply, val_main_v24_apply, Ideal.cmpf_def, Ideal.hostUnary_rsqrt_def]
  exact guarded_dinv (dstOf (e := 1600000) x1) c (val_main_v21 (F := Ideal) x1 (ix1 c)) (val_main_v22 (F := Ideal) (ix1 c))
    (val_main_call0_v1 (F := Ideal) (ix1 c)) (v21_at x1 c) h22 hw

/-! ## (e) The weights of the extended list's entries -/

/-- The wrapped source words at a real edge's place and at a loop's place. -/
theorem v30_real (x1 : EdgeWords) (k : Fin 1600000) :
    val_main_v30 (F := Ideal) x1 (ix1 (realEdge hEN k)) = wrap 100000#32 (srcOf (e := 1600000) x1 k) := by
  rw [val_main_v30_apply, val_main_v27_apply, val_main_v29_apply, val_main_v26_apply, val_main_v28_apply, v16_real]
  rfl

theorem v30_loop (x1 : EdgeWords) (i : Fin 100000) :
    (val_main_v30 (F := Ideal) x1 (ix1 (loopEdge hEN i))).toInt = (i.val : ℤ) := by
  rw [val_main_v30_apply, val_main_v27_apply, val_main_v26_apply, val_main_c_apply,
    select_slt_zero_of_nonneg _ _ (by rw [v16_loop]; exact Int.natCast_nonneg _), v16_loop]

theorem v31_real (x1 : EdgeWords) (k : Fin 1600000) :
    val_main_v31 (F := Ideal) x1 (ix2 (realEdge hEN k) (0 : Fin 1)) = wrap 100000#32 (srcOf (e := 1600000) x1 k) := by
  unfold val_main_v31
  rw [column_apply, v30_real]

theorem v31_loop (x1 : EdgeWords) (i : Fin 100000) :
    (val_main_v31 (F := Ideal) x1 (ix2 (loopEdge hEN i) (0 : Fin 1))).toInt = (i.val : ℤ) := by
  unfold val_main_v31
  rw [column_apply, v30_loop]

/-- The wrapped target words at a real edge's place and at a loop's place. -/
theorem v37_real (x1 : EdgeWords) (k : Fin 1600000) :
    val_main_v37 (F := Ideal) x1 (ix1 (realEdge hEN k)) = wrap 100000#32 (dstOf (e := 1600000) x1 k) := by
  rw [val_main_v37_apply, val_main_v34_apply, val_main_v36_apply, val_main_v33_apply, val_main_v35_apply, v17_real]
  rfl

theorem v37_loop (x1 : EdgeWords) (i : Fin 100000) :
    (val_main_v37 (F := Ideal) x1 (ix1 (loopEdge hEN i))).toInt = (i.val : ℤ) := by
  rw [val_main_v37_apply, val_main_v34_apply, val_main_v33_apply, val_main_c_4_apply,
    select_slt_zero_of_nonneg _ _ (by rw [v17_loop]; exact Int.natCast_nonneg _), v17_loop]

theorem v38_real (x1 : EdgeWords) (k : Fin 1600000) :
    val_main_v38 (F := Ideal) x1 (ix2 (realEdge hEN k) (0 : Fin 1)) = wrap 100000#32 (dstOf (e := 1600000) x1 k) := by
  unfold val_main_v38
  rw [column_apply, v37_real]

theorem v38_loop (x1 : EdgeWords) (i : Fin 100000) :
    (val_main_v38 (F := Ideal) x1 (ix2 (loopEdge hEN i) (0 : Fin 1))).toInt = (i.val : ℤ) := by
  unfold val_main_v38
  rw [column_apply, v37_loop]

/-- The inverse roots gathered at the two ends of an entry. -/
theorem v32_real (x1 : EdgeWords) (k : Fin 1600000) :
    val_main_v32 (F := Ideal) x1 (ix1 (realEdge hEN k))
      = dinv (dstOf (e := 1600000) x1) (nodeAt hN 100000#32 (srcOf (e := 1600000) x1 k)) := by
  unfold val_main_v32
  exact (entry_at_real hEN hN Facts₀.gather_S100000_S1700000x1_S1700000_n_0_n_n_0_1_1_wf (val_main_v25 (F := Ideal) x1)
    (val_main_v31 (F := Ideal) x1) 100000#32 (srcOf (e := 1600000) x1) (v31_real x1) k).trans (v25_at x1 _)

theorem v32_loop (x1 : EdgeWords) (i : Fin 100000) :
    val_main_v32 (F := Ideal) x1 (ix1 (loopEdge hEN i)) = dinv (dstOf (e := 1600000) x1) i := by
  unfold val_main_v32
  exact (entry_at_loop hEN hN Facts₀.gather_S100000_S1700000x1_S1700000_n_0_n_n_0_1_1_wf (val_main_v25 (F := Ideal) x1)
    (val_main_v31 (F := Ideal) x1) (v31_loop x1) i).trans (v25_at x1 _)

theorem v39_real (x1 : EdgeWords) (k : Fin 1600000) :
    val_main_v39 (F := Ideal) x1 (ix1 (realEdge hEN k))
      = dinv (dstOf (e := 1600000) x1) (nodeAt hN 100000#32 (dstOf (e := 1600000) x1 k)) := by
  unfold val_main_v39
  exact (entry_at_real hEN hN Facts₀.gather_S100000_S1700000x1_S1700000_n_0_n_n_0_1_1_wf (val_main_v25 (F := Ideal) x1)
    (val_main_v38 (F := Ideal) x1) 100000#32 (dstOf (e := 1600000) x1) (v38_real x1) k).trans (v25_at x1 _)

theorem v39_loop (x1 : EdgeWords) (i : Fin 100000) :
    val_main_v39 (F := Ideal) x1 (ix1 (loopEdge hEN i)) = dinv (dstOf (e := 1600000) x1) i := by
  unfold val_main_v39
  exact (entry_at_loop hEN hN Facts₀.gather_S100000_S1700000x1_S1700000_n_0_n_n_0_1_1_wf (val_main_v25 (F := Ideal) x1)
    (val_main_v38 (F := Ideal) x1) (v38_loop x1) i).trans (v25_at x1 _)

/-- THE WEIGHTS: a real edge's entry carries the specification's edge weight, node `i`'s loop its self-loop weight. -/
theorem v40_real (x1 : EdgeWords) (k : Fin 1600000) :
    val_main_v40 (F := Ideal) x1 (ix1 (realEdge hEN k))
      = edgeW hN 100000#32 (srcOf (e := 1600000) x1) (dstOf (e := 1600000) x1) k := by
  rw [val_main_v40_apply, Ideal.mulf_def, v32_real, v39_real]
  rfl

theorem v40_loop (x1 : EdgeWords) (i : Fin 100000) :
    val_main_v40 (F := Ideal) x1 (ix1 (loopEdge hEN i)) = selfW (dstOf (e := 1600000) x1) i := by
  rw [val_main_v40_apply, Ideal.mulf_def, v32_loop, v39_loop]
  rfl

/-- The weight column broadcast along the features. -/
theorem v49_at (x1 : EdgeWords) (r : Fin 1700000) (q : Fin 32) :
    val_main_v49 (F := Ideal) x1 (ix2 r q) = val_main_v40 (F := Ideal) x1 (ix1 r) := by
  rw [val_main_v49_apply, val_main_v48_apply]
  congr 1
  funext a
  match a with
  | ⟨0, _⟩ => rfl

end Cert.RefNet

end
-- ==== Proof.RefNetC.lean ====
/-
  The reference's two aggregation layers read at an index.

  Each layer gathers the rows of a table at the wrapped extended sources, multiplies every gathered row by the entry's
  weight (the weight column broadcast along the features), and scatters the products at the extended raw targets into a
  zero table. At node `c`, feature `q` the result is the specification's aggregate over the real edges plus the
  node's own row times its self-loop weight — for ANY table, so the one statement serves both layers: the second layer
  recomputes the extended lists, the degree and the weights from the same edge words, and those copies are the first
  layer's by definition.
-/
import proofs.«127179_j13134009991452_2_alg».proof.Proof.RefNetB

noncomputable section

open scoped BigOperators

namespace Cert.RefNet

open Cert.ReferenceIdeal Cert.ReferenceIdeal.Gen Cert.ReferenceIdeal.ReadP
open Idealize.ShloMosaic Idealize.ShloMosaic.TcCoe Idealize.SL.Sem Idealize.ShloMosaic.StableHlo
open Idealize.ShloMosaic.ValueIdx Idealize.ShloMosaic.RowOps
open Cert.SegmentScale Cert.SelfLoops Cert.ExtendedEdges Cert.GcnSpec Cert.RowLayers

/-- A table of one row of 32 features per node. -/
abbrev Table : Type := (⟨S100000x32, .f32⟩ : BufTy).Contents (Elt Ideal)

/-- THE REFERENCE'S LAYER for a table `Hm`, at node `c`, feature `q`. -/
theorem layer_at (Hm : Table) (x1 : EdgeWords) (c : Fin 100000) (q : Fin 32) :
    Host.scatterAdd (F := Ideal) (φ := .f32) scatter_S100000x32_S1700000x1_S1700000x32_1_0_0_1 (val_main_v51 (F := Ideal))
        (val_main_v52 (F := Ideal) x1)
        (mulf (F := Ideal) (φ := .f32) (Host.gather gather_S100000x32_S1700000x1_S1700000x32_1_0_n_n_0_1_132 Hm (val_main_v31 (F := Ideal) x1))
          (val_main_v49 (F := Ideal) x1)) (ix2 c q)
      = agg hN 100000#32 (srcOf (e := 1600000) x1) (dstOf (e := 1600000) x1) Hm (ix2 c q)
        + Hm (ix2 c q) * selfW (dstOf (e := 1600000) x1) c := by
  refine layer_ext hEN hN 100000#32 Facts₀.scatter_S100000x32_S1700000x1_S1700000x32_1_0_0_1_wf
    (val_main_v51 (F := Ideal)) (val_main_v52 (F := Ideal) x1) _ (srcOf (e := 1600000) x1) (dstOf (e := 1600000) x1) Hm
    ?_ ?_ ?_ ?_ ?_ c q
  · intro p; rw [val_main_v51_apply]; rfl
  · intro k; unfold val_main_v52; rw [column_apply, v17_real]
  · intro i; unfold val_main_v52; rw [column_apply, v17_loop]
  · intro k q'
    rw [mulf_apply, v49_at, v40_real]
    congr 1
    exact row_at_real hEN hN Facts₀.gather_S100000x32_S1700000x1_S1700000x32_1_0_n_n_0_1_132_wf Hm
      (val_main_v31 (F := Ideal) x1) 100000#32 (srcOf (e := 1600000) x1) (v31_real x1) k q'
  · intro i q'
    rw [mulf_apply, v49_at, v40_loop]
    congr 1
    exact row_at_loop hEN hN Facts₀.gather_S100000x32_S1700000x1_S1700000x32_1_0_n_n_0_1_132_wf Hm
      (val_main_v31 (F := Ideal) x1) (v31_loop x1) i q'

/-- The first layer aggregates the first projected rows. -/
theorem v53_at (x0 : (⟨S100000x6, .f32⟩ : BufTy).Contents (Elt Ideal)) (x1 : (⟨S2x1600000, .i32⟩ : BufTy).Contents (Elt Ideal)) (x2 : (⟨S6x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x32, .f32⟩ : BufTy).Contents (Elt Ideal)) (c : Fin 100000) (q : Fin 32) :
    val_main_v53 (F := Ideal) x0 x1 x2 x3 x4 x5 x6 (ix2 c q)
      = agg hN 100000#32 (srcOf (e := 1600000) x1) (dstOf (e := 1600000) x1) (val_main_v14 (F := Ideal) x0 x2 x3 x4 x5 x6) (ix2 c q)
        + val_main_v14 (F := Ideal) x0 x2 x3 x4 x5 x6 (ix2 c q) * selfW (dstOf (e := 1600000) x1) c := by
  unfold val_main_v53 val_main_v50 val_main_v47
  exact layer_at (val_main_v14 (F := Ideal) x0 x2 x3 x4 x5 x6) x1 c q

/-- The second layer aggregates the second projected rows, along the same extended lists with the same weights. -/
theorem v97_at (x0 : (⟨S100000x6, .f32⟩ : BufTy).Contents (Elt Ideal)) (x1 : (⟨S2x1600000, .i32⟩ : BufTy).Contents (Elt Ideal)) (x2 : (⟨S6x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S32x32, .f32⟩ : BufTy).Contents (Elt Ideal)) (c : Fin 100000) (q : Fin 32) :
    val_main_v97 (F := Ideal) x0 x1 x2 x3 x4 x5 x6 x7 x8 (ix2 c q)
      = agg hN 100000#32 (srcOf (e := 1600000) x1) (dstOf (e := 1600000) x1) (val_main_v58 (F := Ideal) x0 x1 x2 x3 x4 x5 x6 x7 x8) (ix2 c q)
        + val_main_v58 (F := Ideal) x0 x1 x2 x3 x4 x5 x6 x7 x8 (ix2 c q) * selfW (dstOf (e := 1600000) x1) c := by
  unfold val_main_v97 val_main_v94 val_main_v91
  exact layer_at (val_main_v58 (F := Ideal) x0 x1 x2 x3 x4 x5 x6 x7 x8) x1 c q

end Cert.RefNet

end
-- ==== Proof.RefNetD.lean ====
/-
  The reference's node-wise stages read on a row, and the whole reference as the specification's network.

  Every dense stage of the reference is a product "rows times columns" plus a bias vector broadcast down the rows, so on
  row `p` it is a dense layer of the input's row; tanh acts entry by entry. Hence the first projected rows are the
  specification's embedding of each node's features (`v14_eq`). After each aggregation the reference adds a bias row
  and rectifies: with the layer identity this is, on row `p`, the specification's combination of the aggregated row,
  the node's own row times its self-loop weight, and the bias (`combine_row`). The second projection of the first
  combination gives the second projected rows (`v58_eq`), and the closing two dense tanh layers of the second
  combination give the network's output (`result_eq`).
-/
import proofs.«127179_j13134009991452_2_alg».proof.Proof.RefNetC

noncomputable section

open scoped BigOperators

namespace Cert.RefNet

open Cert.ReferenceIdeal Cert.ReferenceIdeal.Gen Cert.ReferenceIdeal.ReadP
open Idealize.ShloMosaic Idealize.ShloMosaic.TcCoe Idealize.SL.Sem Idealize.ShloMosaic.StableHlo
open Idealize.ShloMosaic.ValueIdx Idealize.ShloMosaic.RowOps
open Cert.SegmentScale Cert.SelfLoops Cert.ExtendedEdges Cert.GcnSpec Cert.RowLayers

/-! ## The four products are "rows times columns" -/

theorem rtc_6_64 : RowsTimesCols (a := 100000) (K := 6) (b := 64) dot_S100000x6_S6x64_S100000x64_1_0_0_1_n_n where
  rank := rfl
  size := rfl
  lhs0 := fun _ _ => rfl
  lhs1 := fun j q => DotDims.lhsIdx_val_of_single _ rfl j q
  rhs0 := fun j q => DotDims.rhsIdx_val_of_single _ rfl j q
  rhs1 := fun _ _ => rfl

theorem rtc_64_32 : RowsTimesCols (a := 100000) (K := 64) (b := 32) dot_S100000x64_S64x32_S100000x32_1_0_0_1_n_n where
  rank := rfl
  size := rfl
  lhs0 := fun _ _ => rfl
  lhs1 := fun j q => DotDims.lhsIdx_val_of_single _ rfl j q
  rhs0 := fun j q => DotDims.rhsIdx_val_of_single _ rfl j q
  rhs1 := fun _ _ => rfl

theorem rtc_32_32 : RowsTimesCols (a := 100000) (K := 32) (b := 32) dot_S100000x32_S32x32_S100000x32_1_0_0_1_n_n where
  rank := rfl
  size := rfl
  lhs0 := fun _ _ => rfl
  lhs1 := fun j q => DotDims.lhsIdx_val_of_single _ rfl j q
  rhs0 := fun j q => DotDims.rhsIdx_val_of_single _ rfl j q
  rhs1 := fun _ _ => rfl

theorem rtc_32_1 : RowsTimesCols (a := 100000) (K := 32) (b := 1) dot_S100000x32_S32x1_S100000x1_1_0_0_1_n_n where
  rank := rfl
  size := rfl
  lhs0 := fun _ _ => rfl
  lhs1 := fun j q => DotDims.lhsIdx_val_of_single _ rfl j q
  rhs0 := fun j q => DotDims.rhsIdx_val_of_single _ rfl j q
  rhs1 := fun _ _ => rfl

/-! ## (b) The first projected rows -/

theorem v14_row (x0 : (⟨S100000x6, .f32⟩ : BufTy).Contents (Elt Ideal)) (x2 : (⟨S6x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x32, .f32⟩ : BufTy).Contents (Elt Ideal)) (p : Fin 100000) :
    rowOf (val_main_v14 (F := Ideal) x0 x2 x3 x4 x5 x6) p = embedRow x2 (vec x3) x4 (vec x5) x6 (rowOf x0 p) := by
  unfold val_main_v14 val_main_v13 val_main_v12 val_main_v11 val_main_v10 val_main_v9 val_main_v8 val_main_v7
    val_main_v6 val_main_v5 val_main_v4
  rw [rowOf_dotGeneral rtc_32_32, rowOf_hostTanh, rowOf_dense_host rtc_64_32, rowOf_hostTanh,
    rowOf_dense_host rtc_6_64]
  rfl

theorem v14_eq (x0 : (⟨S100000x6, .f32⟩ : BufTy).Contents (Elt Ideal)) (x2 : (⟨S6x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x32, .f32⟩ : BufTy).Contents (Elt Ideal)) :
    val_main_v14 (F := Ideal) x0 x2 x3 x4 x5 x6 = hwA (n := 100000) x0 x2 x3 x4 x5 x6 := by
  funext i
  have h := congrFun (v14_row x0 x2 x3 x4 x5 x6 (nodeOf i)) (featOf i)
  rw [rowOf_apply, ← eq_ix2_node_feat i] at h
  exact h

/-! ## (g), (i) The combination after an aggregation -/

/-- An aggregated table `V` that reads, on row `p`, as `A + H · s`, plus a bias row, rectified: on row `p` the
    specification's combination. -/
theorem combine_row (V A H : Table) (bias : (⟨S32, .f32⟩ : BufTy).Contents (Elt Ideal)) (s : EReal) (p : Fin 100000)
    (hV : ∀ q : Fin 32, V (ix2 p q) = A (ix2 p q) + H (ix2 p q) * s) :
    rowOf (maximumf (F := Ideal) (φ := .f32)
        (addf V (broadcastInDim S100000x32 ![0, 1] Facts₀.bcast_S1x32_S100000x32_0_1
          (broadcastInDim S1x32 ![1] Facts₀.bcast_S32_S1x32_1 bias)))
        (broadcastInDim S100000x32 ![] Facts₀.bcast_S_S100000x32 (constant (F := Ideal) S_ .f32 0x00000000#32))) p
      = combineRow (vec bias) (rowOf A p) (rowOf H p) s := by
  rw [rowOf_maximumf_const, rowOf_addf, rowOf_broadcastInDim_vec]
  unfold combineRow
  congr 1
  funext j
  rw [rowOf_apply, hV]
  rfl

theorem v57_row (x0 : (⟨S100000x6, .f32⟩ : BufTy).Contents (Elt Ideal)) (x1 : (⟨S2x1600000, .i32⟩ : BufTy).Contents (Elt Ideal)) (x2 : (⟨S6x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (p : Fin 100000) :
    rowOf (val_main_v57 (F := Ideal) x0 x1 x2 x3 x4 x5 x6 x7) p
      = combineRow (vec x7) (rowOf (agg hN 100000#32 (srcOf (e := 1600000) x1) (dstOf (e := 1600000) x1) (val_main_v14 (F := Ideal) x0 x2 x3 x4 x5 x6)) p) (rowOf (val_main_v14 (F := Ideal) x0 x2 x3 x4 x5 x6) p) (selfW (dstOf (e := 1600000) x1) p) := by
  unfold val_main_v57 val_main_v56 val_main_v55 val_main_v54 val_main_call1_v0 val_main_call1_cst
  exact combine_row (val_main_v53 (F := Ideal) x0 x1 x2 x3 x4 x5 x6) (agg hN 100000#32 (srcOf (e := 1600000) x1) (dstOf (e := 1600000) x1) (val_main_v14 (F := Ideal) x0 x2 x3 x4 x5 x6)) (val_main_v14 (F := Ideal) x0 x2 x3 x4 x5 x6) x7
    (selfW (dstOf (e := 1600000) x1) p) p (fun q => v53_at x0 x1 x2 x3 x4 x5 x6 p q)

theorem v58_row (x0 : (⟨S100000x6, .f32⟩ : BufTy).Contents (Elt Ideal)) (x1 : (⟨S2x1600000, .i32⟩ : BufTy).Contents (Elt Ideal)) (x2 : (⟨S6x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S32x32, .f32⟩ : BufTy).Contents (Elt Ideal)) (p : Fin 100000) :
    rowOf (val_main_v58 (F := Ideal) x0 x1 x2 x3 x4 x5 x6 x7 x8) p
      = proj (combineRow (vec x7) (rowOf (agg hN 100000#32 (srcOf (e := 1600000) x1) (dstOf (e := 1600000) x1) (val_main_v14 (F := Ideal) x0 x2 x3 x4 x5 x6)) p) (rowOf (val_main_v14 (F := Ideal) x0 x2 x3 x4 x5 x6) p) (selfW (dstOf (e := 1600000) x1) p)) x8 := by
  unfold val_main_v58
  rw [rowOf_dotGeneral rtc_32_32, v57_row]
  rfl

/-- The second projected rows. -/
theorem v58_eq (x0 : (⟨S100000x6, .f32⟩ : BufTy).Contents (Elt Ideal)) (x1 : (⟨S2x1600000, .i32⟩ : BufTy).Contents (Elt Ideal)) (x2 : (⟨S6x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S32x32, .f32⟩ : BufTy).Contents (Elt Ideal)) :
    val_main_v58 (F := Ideal) x0 x1 x2 x3 x4 x5 x6 x7 x8 = hwB (n := 100000) (e := 1600000) hN 100000#32 x1 x0 x2 x3 x4 x5 x6 x7 x8 := by
  funext i
  have h := congrFun (v58_row x0 x1 x2 x3 x4 x5 x6 x7 x8 (nodeOf i)) (featOf i)
  rw [rowOf_apply, ← eq_ix2_node_feat i, v14_eq] at h
  exact h

theorem v101_row (x0 : (⟨S100000x6, .f32⟩ : BufTy).Contents (Elt Ideal)) (x1 : (⟨S2x1600000, .i32⟩ : BufTy).Contents (Elt Ideal)) (x2 : (⟨S6x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S32x32, .f32⟩ : BufTy).Contents (Elt Ideal)) (x9 : (⟨S32, .f32⟩ : BufTy).Contents (Elt Ideal)) (p : Fin 100000) :
    rowOf (val_main_v101 (F := Ideal) x0 x1 x2 x3 x4 x5 x6 x7 x8 x9) p
      = combineRow (vec x9) (rowOf (agg hN 100000#32 (srcOf (e := 1600000) x1) (dstOf (e := 1600000) x1) (val_main_v58 (F := Ideal) x0 x1 x2 x3 x4 x5 x6 x7 x8)) p) (rowOf (val_main_v58 (F := Ideal) x0 x1 x2 x3 x4 x5 x6 x7 x8) p) (selfW (dstOf (e := 1600000) x1) p) := by
  unfold val_main_v101 val_main_v100 val_main_v99 val_main_v98 val_main_call3_v0 val_main_call3_cst
  exact combine_row (val_main_v97 (F := Ideal) x0 x1 x2 x3 x4 x5 x6 x7 x8) (agg hN 100000#32 (srcOf (e := 1600000) x1) (dstOf (e := 1600000) x1) (val_main_v58 (F := Ideal) x0 x1 x2 x3 x4 x5 x6 x7 x8)) (val_main_v58 (F := Ideal) x0 x1 x2 x3 x4 x5 x6 x7 x8) x9
    (selfW (dstOf (e := 1600000) x1) p) p (fun q => v97_at x0 x1 x2 x3 x4 x5 x6 x7 x8 p q)

/-! ## (i) The closing network -/

theorem v111_row (x0 : (⟨S100000x6, .f32⟩ : BufTy).Contents (Elt Ideal)) (x1 : (⟨S2x1600000, .i32⟩ : BufTy).Contents (Elt Ideal)) (x2 : (⟨S6x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S32x32, .f32⟩ : BufTy).Contents (Elt Ideal)) (x9 : (⟨S32, .f32⟩ : BufTy).Contents (Elt Ideal)) (x10 : (⟨S32x32, .f32⟩ : BufTy).Contents (Elt Ideal)) (x11 : (⟨S32, .f32⟩ : BufTy).Contents (Elt Ideal)) (x12 : (⟨S32x1, .f32⟩ : BufTy).Contents (Elt Ideal)) (x13 : (⟨S1, .f32⟩ : BufTy).Contents (Elt Ideal)) (p : Fin 100000) :
    rowOf (val_main_v111 (F := Ideal) x0 x1 x2 x3 x4 x5 x6 x7 x8 x9 x10 x11 x12 x13) p
      = headRow x10 (vec x11) x12 (vec x13)
          (combineRow (vec x9) (rowOf (agg hN 100000#32 (srcOf (e := 1600000) x1) (dstOf (e := 1600000) x1) (val_main_v58 (F := Ideal) x0 x1 x2 x3 x4 x5 x6 x7 x8)) p) (rowOf (val_main_v58 (F := Ideal) x0 x1 x2 x3 x4 x5 x6 x7 x8) p) (selfW (dstOf (e := 1600000) x1) p)) := by
  unfold val_main_v111 val_main_v110 val_main_v109 val_main_v108 val_main_v107 val_main_v106 val_main_v105
    val_main_v104 val_main_v103 val_main_v102
  rw [rowOf_hostTanh, rowOf_dense_host rtc_32_1, rowOf_hostTanh, rowOf_dense_host rtc_32_32, v101_row]
  rfl

/-- THE REFERENCE IS THE SPECIFICATION'S NETWORK. -/
theorem result_eq (x0 : (⟨S100000x6, .f32⟩ : BufTy).Contents (Elt Ideal)) (x1 : (⟨S2x1600000, .i32⟩ : BufTy).Contents (Elt Ideal)) (x2 : (⟨S6x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S32x32, .f32⟩ : BufTy).Contents (Elt Ideal)) (x9 : (⟨S32, .f32⟩ : BufTy).Contents (Elt Ideal)) (x10 : (⟨S32x32, .f32⟩ : BufTy).Contents (Elt Ideal)) (x11 : (⟨S32, .f32⟩ : BufTy).Contents (Elt Ideal)) (x12 : (⟨S32x1, .f32⟩ : BufTy).Contents (Elt Ideal)) (x13 : (⟨S1, .f32⟩ : BufTy).Contents (Elt Ideal)) :
    Cert.ReferenceIdeal.ReadP.val_main_v111 (F := Ideal) x0 x1 x2 x3 x4 x5 x6 x7 x8 x9 x10 x11 x12 x13
      = Cert.GcnSpec.net (n := 100000) (e := 1600000) (by decide) 100000#32 x0 x1 x2 x3 x4 x5 x6 x7 x8 x9 x10 x11 x12 x13 := by
  funext i
  have h := congrFun (v111_row x0 x1 x2 x3 x4 x5 x6 x7 x8 x9 x10 x11 x12 x13 (nodeOf i)) (featOf i)
  rw [rowOf_apply, ← eq_ix2_node_feat i, v58_eq] at h
  exact h

end Cert.RefNet

end
-- ==== Proof.RefNet.lean ====
/-
  The idealized reference program computes the specification's network: the module that ends in `Cert.RefNet.result_eq`.
  The graph stages over the extended edge list are in RefNetA (for arbitrary operands) and RefNetB (read at an index),
  the two aggregation layers in RefNetC, the node-wise stages and the closing statement in RefNetD.
-/
import proofs.«127179_j13134009991452_2_alg».proof.Proof.RefNetD
-- ==== Proof.Assembly.lean ====
/-
  The certificate's five claims, from the three runs and one fact about the kernel's result.

  Both idealized programs are read over the extended reals. The kernel's run ends with its result buffer at the
  contents the run's last boundary gives it; the reference's run ends with its result at the value of its last
  operation, which is the specification's network of the reference's arguments. GIVEN that the kernel's last contents
  are the same network of the kernel's arguments (`KernelResult`), the two runs end with equal results from memories
  that agree on the arguments — the algebraic claim. The three frame claims keep, of each run, only that it
  terminates without fault with the argument arrays unchanged; the idealization claim states no rewrite and is
  trivially true.
-/
import proofs.«127179_j13134009991452_2_alg».proof.Defs
import proofs.«127179_j13134009991452_2_alg».proof.Proof.Gen.Kernel
import proofs.«127179_j13134009991452_2_alg».proof.Proof.Gen.Kernel.Frame
import proofs.«127179_j13134009991452_2_alg».proof.Proof.Gen.KernelIdeal
import proofs.«127179_j13134009991452_2_alg».proof.Proof.Gen.KernelIdeal.Frame
import proofs.«127179_j13134009991452_2_alg».proof.Proof.Gen.ReferenceIdeal
import proofs.«127179_j13134009991452_2_alg».proof.Proof.Gen.Pre_finite_inputs
import proofs.«127179_j13134009991452_2_alg».proof.Proof.KRun
import proofs.«127179_j13134009991452_2_alg».proof.Proof.RefRunPatched
import proofs.«127179_j13134009991452_2_alg».proof.Proof.RefReadPatched
import proofs.«127179_j13134009991452_2_alg».proof.Proof.RefNet

noncomputable section

namespace Cert.Assembly

open Idealize.ShloMosaic Idealize.SL.Sem

/-- THE KERNEL FACT: on every device, the contents the kernel's run leaves in its result buffer are the
    specification's network of the fourteen argument arrays of the initial memory. -/
def KernelResult : Prop :=
  ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
    (Cert.KernelIdeal.Gen.W6 (F := Ideal) m ρ c (Proc.devRef .tc Cert.KernelIdeal.main_v58) : Cert.KernelIdeal.S100000x1.Idx → EReal)
      = Cert.GcnSpec.net (n := 100000) (e := 1600000) (by decide) 100000#32
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the result named, the result
    forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both idealized programs run and end with the same result, the
    specification's network of the kernel memory's arguments: the kernel by the kernel fact, the reference because its
    last operation's value is that network of ITS arguments, which are the kernel's. -/
theorem algebraic (hK : KernelResult) : Cert.algebraic_KernelIdeal_ReferenceIdeal := by
  intro m ρ m' ρ' _ hagree
  refine ⟨fun c => Cert.GcnSpec.net (n := 100000) (e := 1600000) (by decide) 100000#32
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13)), ?_, ?_⟩
  · exact (θ_run _ _ _).mono (fun r h c => ⟨(h c).1.trans (hK m ρ c), (h c).2⟩) (Cert.KernelIdeal.KRun.run_named m ρ)
  · refine (θ_run Cert.ReferenceIdeal.defs _ _).mono (fun _ h c => ⟨?_, (h c).2⟩) (Cert.ReferenceIdeal.ValueP.run (F := Ideal) m' ρ')
    rw [(h c).1, Cert.ReferenceIdeal.ReadP.val_main_v111_eq, Cert.RefNet.result_eq,
      (hagree c).1,
      (hagree c).2.1,
      (hagree c).2.2.1,
      (hagree c).2.2.2.1,
      (hagree c).2.2.2.2.1,
      (hagree c).2.2.2.2.2.1,
      (hagree c).2.2.2.2.2.2.1,
      (hagree c).2.2.2.2.2.2.2.1,
      (hagree c).2.2.2.2.2.2.2.2.1,
      (hagree c).2.2.2.2.2.2.2.2.2.1,
      (hagree c).2.2.2.2.2.2.2.2.2.2.1,
      (hagree c).2.2.2.2.2.2.2.2.2.2.2.1,
      (hagree c).2.2.2.2.2.2.2.2.2.2.2.2.1,
      (hagree c).2.2.2.2.2.2.2.2.2.2.2.2.2]

/-- THE CLAIM, given the kernel fact. -/
theorem claim_of (hK : KernelResult) : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic hK⟩

end Cert.Assembly

end
-- ==== Proof.GraphRead.lean ====
/-
  The graph quantities in the host's spelling, read at an index, are the specification's.

  Over the extended reals, for `n` nodes and `e` edges: a scatter of ones into zeros at the target column plus a vector of
  ones is the degree with the self-loop counted; its host inverse square root is `dinv`; the product of two entry gathers of
  that vector at the wrapped source and target columns is the edge weight; its square is the self-loop weight; the row gather
  at the wrapped source column times the weight broadcast along the row is the message; and the accumulating row scatter of
  the messages into zeros at the target column is the aggregation. Every hypothesis is an index-level reading of an
  operand, so the lemmas do not depend on how a program spells its broadcasts and reshapes.
-/
import Idealize.ShloMosaic.PureOps.Ideal
import Idealize.ShloMosaic.PureOps.Ideal.Laws
import Idealize.ShloMosaic.Lib.ValueIdx
import proofs.«127179_j13134009991452_2_alg».proof.Proof.LibSegmentScale
import proofs.«127179_j13134009991452_2_alg».proof.Proof.LibRowGatherScatter
import proofs.«127179_j13134009991452_2_alg».proof.Proof.LibSelfLoopSplit
import proofs.«127179_j13134009991452_2_alg».proof.Proof.GcnSpec

noncomputable section

open scoped BigOperators

namespace Cert.GraphRead

open Idealize.ShloMosaic Idealize.ShloMosaic.ValueIdx Idealize.ShloMosaic.RowOps Cert.SegmentScale Cert.SelfLoops Cert.GcnSpec

variable {n e : ℕ}

/-- A word vector wrapped as the programs spell it — "if the word is negative take the word plus the node count" — is
    `wrap` of the word, entry by entry. -/
theorem wrap_read {s : Shape} (v zv nv : IVec s 32) (nW : BitVec 32) (hz : ∀ k, zv k = 0#32) (hnv : ∀ k, nv k = nW) (k : s.Idx) :
    select (cmpi .slt v zv) (addi v nv) v k = wrap nW (v k) := by
  show Scalar.select (IntOp.cmpi .slt (v k) (zv k)) (IntOp.addi (v k) (nv k)) (v k) = _
  rw [hz, hnv]; rfl

/-- The degree: ones scattered into zeros at the targets, plus a vector of ones. -/
theorem deg_read (ws : ScatterDims.WF ⟨1, ![n]⟩ ⟨2, ![e, 1]⟩ ⟨1, ![e]⟩ [] [0] [0] 1)
    (Z O : (⟨1, ![n]⟩ : Shape).Idx → EReal) (U : (⟨1, ![e]⟩ : Shape).Idx → EReal) (tgt : IVec ⟨2, ![e, 1]⟩ 32)
    (dst : Fin e → BitVec 32) (hZ : ∀ i, Z i = zeroW) (hU : ∀ k, U k = oneW) (hO : ∀ i, O i = oneW)
    (ht : ∀ k : Fin e, tgt (ix2 k (0 : Fin 1)) = dst k) (c : Fin n) :
    addf (F := Ideal) (φ := .f32) (Host.scatterAdd (F := Ideal) (φ := .f32) (entryScatterDims n e ws) Z tgt U) O (ix1 c)
      = deg dst c := by
  show Host.scatterAdd (F := Ideal) (φ := .f32) (entryScatterDims n e ws) Z tgt U (ix1 c) + O (ix1 c) = _
  rw [scatterAdd_entries_apply, hZ, hO]
  unfold deg hits
  congr 2
  refine Finset.sum_congr ?_ (fun k _ => hU _)
  ext k
  simp only [Finset.mem_filter, Finset.mem_univ, true_and, ht]

/-- The host's inverse square root of the degree vector is `dinv`. -/
theorem dinv_read (Dg : (⟨1, ![n]⟩ : Shape).Idx → EReal) (dst : Fin e → BitVec 32) (c : Fin n) (h : Dg (ix1 c) = deg dst c) :
    Host.rsqrt (F := Ideal) (φ := .f32) Dg (ix1 c) = dinv dst c := by
  show Ideal.rsqrt (Dg (ix1 c)) = _
  rw [h]; rfl

/-- The product of the vector with itself is the self-loop weight. -/
theorem selfW_read (D : (⟨1, ![n]⟩ : Shape).Idx → EReal) (dst : Fin e → BitVec 32) (hD : ∀ c : Fin n, D (ix1 c) = dinv dst c)
    (c : Fin n) : mulf (F := Ideal) (φ := .f32) D D (ix1 c) = selfW dst c := by
  show D (ix1 c) * D (ix1 c) = _
  rw [hD]; rfl

/-- Two entry gathers of `dinv`, at the wrapped sources and at the wrapped targets, multiplied: the edge weight. -/
theorem edgeW_read (hn : 0 < n) (we : GatherDims.WF ⟨1, ![n]⟩ ⟨2, ![e, 1]⟩ ⟨1, ![e]⟩ [] [0] [] [0] [] 1 ![1])
    (D : (⟨1, ![n]⟩ : Shape).Idx → EReal) (sI tI : IVec ⟨2, ![e, 1]⟩ 32) (nW : BitVec 32) (src dst : Fin e → BitVec 32)
    (hD : ∀ c : Fin n, D (ix1 c) = dinv dst c) (hs : ∀ k : Fin e, sI (ix2 k (0 : Fin 1)) = wrap nW (src k))
    (ht : ∀ k : Fin e, tI (ix2 k (0 : Fin 1)) = wrap nW (dst k)) (k : Fin e) :
    mulf (F := Ideal) (φ := .f32) (Host.gather (entryGather we) D sI) (Host.gather (entryGather we) D tI) (ix1 k)
      = edgeW hn nW src dst k := by
  show Host.gather (entryGather we) D sI (ix1 k) * Host.gather (entryGather we) D tI (ix1 k) = _
  rw [entryGather_apply hn, entryGather_apply hn, hD, hD]
  show dinv dst (clampNode hn (sI (ix2 k (0 : Fin 1)))) * dinv dst (clampNode hn (tI (ix2 k (0 : Fin 1)))) = _
  rw [hs, ht]; rfl

/-- The rows gathered at the wrapped sources, each times its edge's weight: the message of edge `k` at feature `q`. -/
theorem msg_read {f : ℕ} (hn : 0 < n) (wg : GatherDims.WF ⟨2, ![n, f]⟩ ⟨2, ![e, 1]⟩ ⟨2, ![e, f]⟩ [1] [0] [] [0] [] 1 ![1, f])
    (Hm : (⟨2, ![n, f]⟩ : Shape).Idx → EReal) (sI : IVec ⟨2, ![e, 1]⟩ 32) (Wt : (⟨2, ![e, f]⟩ : Shape).Idx → EReal)
    (nW : BitVec 32) (src dst : Fin e → BitVec 32) (hs : ∀ k : Fin e, sI (ix2 k (0 : Fin 1)) = wrap nW (src k))
    (hW : ∀ (k : Fin e) (q : Fin f), Wt (ix2 k q) = edgeW hn nW src dst k) (k : Fin e) (q : Fin f) :
    mulf (F := Ideal) (φ := .f32) (Host.gather (rowsGather wg) Hm sI) Wt (ix2 k q)
      = Hm (ix2 (nodeAt hn nW (src k)) q) * edgeW hn nW src dst k := by
  show Host.gather (rowsGather wg) Hm sI (ix2 k q) * Wt (ix2 k q) = _
  rw [rowsGather_apply hn, hW]
  show Hm (ix2 (clampNode hn (sI (ix2 k (0 : Fin 1)))) q) * _ = _
  rw [hs]; rfl

/-- The messages scattered into zeros at the targets: the aggregation. -/
theorem agg_read {f : ℕ} (hn : 0 < n) (ws : ScatterDims.WF ⟨2, ![n, f]⟩ ⟨2, ![e, 1]⟩ ⟨2, ![e, f]⟩ [1] [0] [0] 1)
    (Z : (⟨2, ![n, f]⟩ : Shape).Idx → EReal) (tgt : IVec ⟨2, ![e, 1]⟩ 32) (M : (⟨2, ![e, f]⟩ : Shape).Idx → EReal)
    (nW : BitVec 32) (src dst : Fin e → BitVec 32) (Hm : (⟨2, ![n, f]⟩ : Shape).Idx → EReal)
    (hZ : ∀ p, Z p = zeroW) (ht : ∀ k : Fin e, tgt (ix2 k (0 : Fin 1)) = dst k)
    (hM : ∀ (k : Fin e) (q : Fin f), M (ix2 k q) = Hm (ix2 (nodeAt hn nW (src k)) q) * edgeW hn nW src dst k)
    (c : Fin n) (q : Fin f) :
    Host.scatterAdd (F := Ideal) (φ := .f32) (rowScatterDims n e f ws) Z tgt M (ix2 c q) = agg hn nW src dst Hm (ix2 c q) := by
  rw [scatterAdd_rows_apply, hZ]
  unfold agg hits
  rw [nodeOf_ix2, featOf_ix2]
  congr 1
  refine Finset.sum_congr ?_ (fun k _ => hM k q)
  ext k
  simp only [Finset.mem_filter, Finset.mem_univ, true_and, ht]

end Cert.GraphRead

end
-- ==== Proof.KHost.lean ====
/-
  The idealized kernel's first stretch of host operations, read at an index.

  Before the first pallas_call the host slices the edge array into its source and target rows, counts the targets into a
  degree (plus one for the self-loop), takes the inverse square root, gathers it at both ends of every edge and multiplies
  (the edge weights), and squares it into a column (the self-loop weights). At the first boundary `Gen.W1` those buffers
  hold, entry by entry, the specification's `srcOf`, `dstOf`, `edgeW` and `selfW` of the launch contents of the edge array.
-/
import proofs.«127179_j13134009991452_2_alg».proof.Proof.Gen.KernelIdeal.Frame
import proofs.«127179_j13134009991452_2_alg».proof.Proof.GcnSpec
import proofs.«127179_j13134009991452_2_alg».proof.Proof.GraphRead
import proofs.«127179_j13134009991452_2_alg».proof.Proof.LibExtendedEdges
import Idealize.ShloMosaic.Lib.StableHlo.Run
import Idealize.ShloMosaic.Lib.Pipeline.Value
import Idealize.ShloMosaic.PureOps.Ideal

set_option maxRecDepth 16384

noncomputable section

namespace Cert.KernelIdeal.KHost

open Cert.KernelIdeal Cert.KernelIdeal.Gen Cert.GcnSpec Cert.GraphRead Cert.ExtendedEdges
open Idealize.ShloMosaic Idealize.ShloMosaic.TcCoe Idealize.ShloMosaic.Tactic Idealize.SL.Sem Idealize.ShloMosaic.StableHlo
open Idealize.ShloMosaic.ValueIdx

/-! ## A row of the edge array, sliced out and flattened -/

section EdgeRows
variable {α : Type} {e : ℕ}

/-- Row 0 of a `[2, e]` array sliced out as `[1, e]` and flattened to `[e]`: entry `k` is the array at `(0, k)`. -/
theorem row0_apply (ei : (⟨2, ![2, e]⟩ : Shape).Idx → α) (hs : (⟨2, ![2, e]⟩ : Shape).Slices ![0, 0] ⟨2, ![1, e]⟩)
    (hc : (⟨2, ![1, e]⟩ : Shape).ShapeCasts ⟨1, ![e]⟩) (k : Fin e) :
    shapeCast ⟨1, ![e]⟩ (extractStridedSlice ⟨2, ![1, e]⟩ ![0, 0] ei hs) hc (ix1 k) = ei (ix2 (0 : Fin 2) k) := by
  rw [shapeCast_apply _ hc (ix1 k) (ix2 (0 : Fin 1) k)
    (by rewrite [Shape.rowMajor_val_two, Shape.rowMajor_val_one]; show 0 * e + k.val = k.val; omega)]
  exact extractStridedSlice_apply ![0, 0] ei hs _ (ix2 (0 : Fin 2) k) (fun a => match a with
    | ⟨0, _⟩ => by show 0 = 0 + 0; omega
    | ⟨1, _⟩ => by show k.val = 0 + k.val; omega)

/-- Row 1 likewise: entry `k` is the array at `(1, k)`. -/
theorem row1_apply (ei : (⟨2, ![2, e]⟩ : Shape).Idx → α) (hs : (⟨2, ![2, e]⟩ : Shape).Slices ![1, 0] ⟨2, ![1, e]⟩)
    (hc : (⟨2, ![1, e]⟩ : Shape).ShapeCasts ⟨1, ![e]⟩) (k : Fin e) :
    shapeCast ⟨1, ![e]⟩ (extractStridedSlice ⟨2, ![1, e]⟩ ![1, 0] ei hs) hc (ix1 k) = ei (ix2 (1 : Fin 2) k) := by
  rw [shapeCast_apply _ hc (ix1 k) (ix2 (0 : Fin 1) k)
    (by rewrite [Shape.rowMajor_val_two, Shape.rowMajor_val_one]; show 0 * e + k.val = k.val; omega)]
  exact extractStridedSlice_apply ![1, 0] ei hs _ (ix2 (1 : Fin 2) k) (fun a => match a with
    | ⟨0, _⟩ => by show 1 = 1 + 0; omega
    | ⟨1, _⟩ => by show k.val = 0 + k.val; omega)

end EdgeRows

/-! ## The first boundary -/

variable (m : (ℓ : Loc nD τ sig) → Buf (Elt Ideal) ℓ) (ρ : Dev nD → PrngReg) (c : Dev nD)

/-- The node count is positive. -/
theorem hN : 0 < 100000 := by decide

/-- The launch contents of the edge array on core `c`. -/
abbrev edges : (⟨2, ![2, 1600000]⟩ : Shape).Idx → BitVec 32 := m ((c : Thread nD τ).loc main_arg1)

/-- The source words after the first stretch. -/
theorem src_at (k : Fin 1600000) :
    (W1 (F := Ideal) m ρ c (Proc.devRef .tc main_v1) : S1600000.Idx → BitVec 32) (ix1 k) = srcOf (edges m c) k := by
  show StableHlo.after hostOps0 (W0 m ρ c) (Proc.devRef .tc main_v1) (ix1 k) = _
  after_results
  exact row0_apply (edges m c) slices_S2x1600000_S1x1600000_0_0 shapeCasts_S1x1600000_S1600000 k

/-- The target words after the first stretch. -/
theorem dst_at (k : Fin 1600000) :
    (W1 (F := Ideal) m ρ c (Proc.devRef .tc main_v3) : S1600000.Idx → BitVec 32) (ix1 k) = dstOf (edges m c) k := by
  show StableHlo.after hostOps0 (W0 m ρ c) (Proc.devRef .tc main_v3) (ix1 k) = _
  after_results
  exact row1_apply (edges m c) slices_S2x1600000_S1x1600000_1_0 shapeCasts_S1x1600000_S1600000 k

/-- A rank-0 constant broadcast over an array is, at every index, the constant's value (stated for any pattern `w`). -/
theorem splat_apply {s t : Shape} {φ : FTy} (w : BitVec φ.bits) (dims : Fin s.rank → Fin t.rank)
    (h : s.BroadcastsInDim t dims) (i : t.Idx) :
    broadcastInDim t dims h (constant (F := Ideal) s φ w) i = Ideal.ofBits φ w := rfl

/-- The same for a constant word. -/
theorem splatI_apply {s t : Shape} {w : ℕ} (b : BitVec w) (dims : Fin s.rank → Fin t.rank)
    (h : s.BroadcastsInDim t dims) (i : t.Idx) :
    broadcastInDim t dims h (constantI s w b) i = b := rfl

/-- The target words as the host flattens them out of the edge array. -/
abbrev dstVec : S1600000.Idx → BitVec 32 :=
  shapeCast S1600000 (extractStridedSlice S1x1600000 ![1, 0] (edges m c) slices_S2x1600000_S1x1600000_1_0) shapeCasts_S1x1600000_S1600000

/-- The source words as the host flattens them out of the edge array. -/
abbrev srcVec : S1600000.Idx → BitVec 32 :=
  shapeCast S1600000 (extractStridedSlice S1x1600000 ![0, 0] (edges m c) slices_S2x1600000_S1x1600000_0_0) shapeCasts_S1x1600000_S1600000

theorem dstVec_at (k : Fin 1600000) : dstVec m c (ix1 k) = dstOf (edges m c) k :=
  row1_apply (edges m c) slices_S2x1600000_S1x1600000_1_0 shapeCasts_S1x1600000_S1600000 k

theorem srcVec_at (k : Fin 1600000) : srcVec m c (ix1 k) = srcOf (edges m c) k :=
  row0_apply (edges m c) slices_S2x1600000_S1x1600000_0_0 shapeCasts_S1x1600000_S1600000 k

/-- The host's inverse root of the degree, as a term of the flattened target words. -/
abbrev dinvVec : S100000.Idx → EReal :=
  Host.rsqrt (F := Ideal) (φ := .f32)
    (addf (F := Ideal) (φ := .f32)
      (Host.scatterAdd (F := Ideal) (φ := .f32) scatter_S100000_S1600000x1_S1600000_n_0_0_1
        (broadcastInDim S100000 ![] bcast_S_S100000 (constant (F := Ideal) S_ .f32 0x00000000#32))
        (broadcastInDim S1600000x1 ![0] bcast_S1600000_S1600000x1_0 (dstVec m c))
        (broadcastInDim S1600000 ![] bcast_S_S1600000 (constant (F := Ideal) S_ .f32 0x3F800000#32)))
      (broadcastInDim S100000 ![] bcast_S_S100000 (constant (F := Ideal) S_ .f32 0x3F800000#32)))

/-- It is the specification's `dinv` of the target words, node by node. -/
theorem dinvVec_at (p : Fin 100000) : dinvVec m c (ix1 p) = dinv (dstOf (edges m c)) p := by
  refine dinv_read _ _ p ?_
  refine deg_read _ _ _ _ _ (dstOf (edges m c)) (fun i => splat_apply _ _ _ i) (fun i => splat_apply _ _ _ i)
    (fun i => splat_apply _ _ _ i) (fun k => ?_) p
  rw [column_apply]
  exact dstVec_at m c k

/-- A flattened word vector wrapped as the host spells it, viewed as a column: entry `(k, 0)` is the wrapped word. -/
theorem wrapCol_at (v : S1600000.Idx → BitVec 32) (k : Fin 1600000) :
    broadcastInDim S1600000x1 ![0] bcast_S1600000_S1600000x1_0
      (select (cmpi .slt v (broadcastInDim S1600000 ![] bcast_S_S1600000 (constantI S_ 32 0#32)))
        (addi v (broadcastInDim S1600000 ![] bcast_S_S1600000 (constantI S_ 32 100000#32))) v) (ix2 k (0 : Fin 1))
      = wrap 100000#32 (v (ix1 k)) := by
  rw [column_apply]
  exact wrap_read v _ _ 100000#32 (fun i => splatI_apply _ _ _ i) (fun i => splatI_apply _ _ _ i) (ix1 k)

set_option maxHeartbeats 4000000 in
/-- The edge weights after the first stretch. -/
theorem norm_at (k : Fin 1600000) :
    (W1 (F := Ideal) m ρ c (Proc.devRef .tc main_v25) : S1600000.Idx → EReal) (ix1 k)
      = edgeW hN 100000#32 (srcOf (edges m c)) (dstOf (edges m c)) k := by
  show StableHlo.after hostOps0 (W0 m ρ c) (Proc.devRef .tc main_v25) (ix1 k) = _
  after_results
  refine edgeW_read hN _ (dinvVec m c) _ _ 100000#32 (srcOf (edges m c)) (dstOf (edges m c)) (dinvVec_at m c) (fun k' => ?_) (fun k' => ?_) k
  · exact (wrapCol_at (srcVec m c) k').trans (congrArg (wrap 100000#32) (srcVec_at m c k'))
  · exact (wrapCol_at (dstVec m c) k').trans (congrArg (wrap 100000#32) (dstVec_at m c k'))

set_option maxHeartbeats 4000000 in
/-- The self-loop weights after the first stretch, as a column. -/
theorem self_at (p : Fin 100000) :
    (W1 (F := Ideal) m ρ c (Proc.devRef .tc main_v27) : S100000x1.Idx → EReal) (ix2 p (0 : Fin 1))
      = selfW (dstOf (edges m c)) p := by
  show StableHlo.after hostOps0 (W0 m ρ c) (Proc.devRef .tc main_v27) (ix2 p (0 : Fin 1)) = _
  after_results
  refine (column_apply (mulf (F := Ideal) (φ := .f32) (dinvVec m c) (dinvVec m c)) bcast_S100000_S100000x1_0 p).trans ?_
  exact selfW_read (dinvVec m c) (dstOf (edges m c)) (dinvVec_at m c) p

end Cert.KernelIdeal.KHost

end
-- ==== Proof.KStretch.lean ====
/-
  The idealized kernel's second and third stretches of host operations, read at an index.

  Between two pallas_calls the host gathers the projected rows at the wrapped source words, multiplies each edge's row by
  the edge's weight (broadcast along the row) and scatter-adds the rows into zeros at the target words. Both stretches
  are the same term of four buffers — the projected rows, the source words, the target words and the edge weights — so
  it is read once, over variables: at `(p, q)` it is the specification's aggregation `agg`.
-/
import proofs.«127179_j13134009991452_2_alg».proof.Proof.KHost

set_option maxRecDepth 16384

noncomputable section

namespace Cert.KernelIdeal.KHost

open Cert.KernelIdeal Cert.KernelIdeal.Gen Cert.GcnSpec Cert.GraphRead Cert.ExtendedEdges Cert.SegmentScale
open Idealize.ShloMosaic Idealize.ShloMosaic.TcCoe Idealize.ShloMosaic.Tactic Idealize.SL.Sem Idealize.ShloMosaic.StableHlo
open Idealize.ShloMosaic.ValueIdx Idealize.ShloMosaic.RowOps

/-- A vector `[e]` viewed as a column `[e, 1]` and broadcast along `f` columns: entry `(k, q)` is the vector's entry `k`. -/
theorem colSplat_apply {α : Type} {e f : ℕ} (v : (⟨1, ![e]⟩ : Shape).Idx → α)
    (h1 : (⟨1, ![e]⟩ : Shape).BroadcastsInDim ⟨2, ![e, 1]⟩ ![0])
    (h2 : (⟨2, ![e, 1]⟩ : Shape).BroadcastsInDim ⟨2, ![e, f]⟩ ![0, 1]) (k : Fin e) (q : Fin f) :
    broadcastInDim ⟨2, ![e, f]⟩ ![0, 1] h2 (broadcastInDim ⟨2, ![e, 1]⟩ ![0] h1 v) (ix2 k q) = v (ix1 k) := by
  rw [broadcastInDim_apply ![0, 1] h2 _ (ix2 k q) (ix2 k (0 : Fin 1)) (fun a => match a with
    | ⟨0, _⟩ => by
        show k.val = if e = 1 then 0 else k.val
        have := k.isLt
        split <;> omega
    | ⟨1, _⟩ => by
        show 0 = if (1 : ℕ) = 1 then 0 else q.val
        rfl)]
  exact column_apply v h1 k

/-- The message rows with the format change the device's storage of the rows asks for: at the extended reals a change
    of float format is the identity, so this is `msg_read`. -/
theorem msg_ext_read {n e f : ℕ} (hn : 0 < n)
    (wg : GatherDims.WF ⟨2, ![n, f]⟩ ⟨2, ![e, 1]⟩ ⟨2, ![e, f]⟩ [1] [0] [] [0] [] 1 ![1, f])
    (Hm : FVec Ideal ⟨2, ![n, f]⟩ .bf16) (sI : IVec ⟨2, ![e, 1]⟩ 32) (Wt : FVec Ideal ⟨2, ![e, f]⟩ .f32)
    (hlt : FTy.bf16.bits < FTy.f32.bits)
    (nW : BitVec 32) (src dst : Fin e → BitVec 32) (hs : ∀ k : Fin e, sI (ix2 k (0 : Fin 1)) = wrap nW (src k))
    (hW : ∀ (k : Fin e) (q : Fin f), Wt (ix2 k q) = edgeW hn nW src dst k) (k : Fin e) (q : Fin f) :
    mulf (F := Ideal) (φ := .f32) (extf .f32 (Host.gather (rowsGather wg) Hm sI) hlt) Wt (ix2 k q)
      = (Hm (ix2 (nodeAt hn nW (src k)) q) : EReal) * edgeW hn nW src dst k :=
  msg_read hn wg Hm sI Wt nW src dst hs hW k q

variable (Hm : FVec Ideal S100000x32 .bf16) (sv dv : S1600000.Idx → BitVec 32) (nv : S1600000.Idx → EReal)
  (srcW dstW : Fin 1600000 → BitVec 32)

/-- THE STRETCH'S TERM at `(p, q)`: the aggregation of the rows `Hm`, when the three edge buffers hold the source words,
    the target words and the edge weights. -/
theorem aggTerm_at (hs : ∀ k : Fin 1600000, sv (ix1 k) = srcW k) (hd : ∀ k : Fin 1600000, dv (ix1 k) = dstW k)
    (hw : ∀ k : Fin 1600000, nv (ix1 k) = edgeW hN 100000#32 srcW dstW k) (p : Fin 100000) (q : Fin 32) :
    Host.scatterAdd (F := Ideal) (φ := .f32) scatter_S100000x32_S1600000x1_S1600000x32_1_0_0_1
        (broadcastInDim S100000x32 ![] bcast_S_S100000x32 (constant (F := Ideal) S_ .f32 0x00000000#32))
        (broadcastInDim S1600000x1 ![0] bcast_S1600000_S1600000x1_0 dv)
        (mulf (F := Ideal) (φ := .f32)
          (extf .f32 (Host.gather gather_S100000x32_S1600000x1_S1600000x32_1_0_n_n_0_1_132 Hm
            (broadcastInDim S1600000x1 ![0] bcast_S1600000_S1600000x1_0
              (select (cmpi .slt sv (broadcastInDim S1600000 ![] bcast_S_S1600000 (constantI S_ 32 0#32)))
                (addi sv (broadcastInDim S1600000 ![] bcast_S_S1600000 (constantI S_ 32 100000#32))) sv))) bitsLt_bf16_f32)
          (broadcastInDim S1600000x32 ![0, 1] bcast_S1600000x1_S1600000x32_0_1
            (broadcastInDim S1600000x1 ![0] bcast_S1600000_S1600000x1_0 nv)))
        (ix2 p q)
      = agg hN 100000#32 srcW dstW (fun i => (Hm i : EReal)) (ix2 p q) := by
  refine agg_read hN _ _ _ _ 100000#32 srcW dstW (fun i => (Hm i : EReal)) (fun i => splat_apply _ _ _ i) (fun k => ?_) (fun k q' => ?_) p q
  · exact (column_apply dv bcast_S1600000_S1600000x1_0 k).trans (hd k)
  · refine msg_ext_read hN _ Hm _ _ bitsLt_bf16_f32 100000#32 srcW dstW (fun k' => ?_) (fun k' q'' => ?_) k q'
    · exact (wrapCol_at sv k').trans (congrArg (wrap 100000#32) (hs k'))
    · exact (colSplat_apply nv bcast_S1600000_S1600000x1_0 bcast_S1600000x1_S1600000x32_0_1 k' q'').trans (hw k')

end Cert.KernelIdeal.KHost

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.Bodies.lean ====
/-
  The three kernel bodies, read on a row.

  Each body loads its whole input blocks, computes one value from them, and stores it over its whole output block, so
  what the body leaves in the output block is that value as a function of the input blocks. This file reads the three
  values on one row `p` of the block, over the extended reals, where a change of float format does nothing:

  * the embedding body leaves, on row `p`, the row of features through two dense tanh layers and the first projection
    (`embedRow`);
  * the middle body leaves the combination of the aggregated row, the node's own row times its self-loop weight and the
    bias, rectified (`combineRow`), through the next projection (`proj`);
  * the closing body leaves the same combination through two dense tanh layers (`headRow`).

  The steps are: the block's one store at offset zero leaves its payload and the loads at offset zero read the blocks
  (so the output block IS the payload of the input blocks); every matrix product of the payloads contracts the left
  operand's columns against the right operand's rows; a product into a zero accumulator plus a bias row is a dense
  layer on each row; a column of per-row scalars broadcast along the lanes multiplies each row by its own scalar.
-/
import proofs.«127179_j13134009991452_2_alg».proof.Proof.Gen.KernelIdeal.Frame
import proofs.«127179_j13134009991452_2_alg».proof.Proof.GcnSpec
import proofs.«127179_j13134009991452_2_alg».proof.Proof.LibRowLayers
import proofs.«127179_j13134009991452_2_alg».proof.Proof.LibRowExtras
import proofs.«127179_j13134009991452_2_alg».proof.Proof.LibColumnBroadcast

noncomputable section

namespace Cert.KernelIdeal.Bodies

open Idealize.ShloMosaic Idealize.ShloMosaic.ValueIdx
open Cert.GcnSpec Cert.RowLayers
open Cert.KernelIdeal Cert.KernelIdeal.Gen

/-! ## The four products of the bodies are "rows times columns" -/

theorem rtc_6_64 : RowsTimesCols (a := 5000) (K := 6) (b := 64) dot_S5000x6_S6x64_S5000x64_1_0_0_1_n_n where
  rank := rfl
  size := rfl
  lhs0 := fun _ _ => rfl
  lhs1 := fun j q => DotDims.lhsIdx_val_of_single _ rfl j q
  rhs0 := fun j q => DotDims.rhsIdx_val_of_single _ rfl j q
  rhs1 := fun _ _ => rfl

theorem rtc_64_32 : RowsTimesCols (a := 5000) (K := 64) (b := 32) dot_S5000x64_S64x32_S5000x32_1_0_0_1_n_n where
  rank := rfl
  size := rfl
  lhs0 := fun _ _ => rfl
  lhs1 := fun j q => DotDims.lhsIdx_val_of_single _ rfl j q
  rhs0 := fun j q => DotDims.rhsIdx_val_of_single _ rfl j q
  rhs1 := fun _ _ => rfl

theorem rtc_32_32 : RowsTimesCols (a := 5000) (K := 32) (b := 32) dot_S5000x32_S32x32_S5000x32_1_0_0_1_n_n where
  rank := rfl
  size := rfl
  lhs0 := fun _ _ => rfl
  lhs1 := fun j q => DotDims.lhsIdx_val_of_single _ rfl j q
  rhs0 := fun j q => DotDims.rhsIdx_val_of_single _ rfl j q
  rhs1 := fun _ _ => rfl

theorem rtc_32_1 : RowsTimesCols (a := 5000) (K := 32) (b := 1) dot_S5000x32_S32x1_S5000x1_1_0_0_1_n_n where
  rank := rfl
  size := rfl
  lhs0 := fun _ _ => rfl
  lhs1 := fun j q => DotDims.lhsIdx_val_of_single _ rfl j q
  rhs0 := fun j q => DotDims.rhsIdx_val_of_single _ rfl j q
  rhs1 := fun _ _ => rfl

/-! ## Whole-block accesses: the offsets are all zero -/

theorem hz2 : (![0, 0] : Fin 2 → Nat) = fun _ => 0 := funext fun a => by fin_cases a <;> rfl
theorem hz1 : (![0] : Fin 1 → Nat) = fun _ => 0 := funext fun a => by fin_cases a <;> rfl

/-! ## The layers as the bodies print them, read on a row -/

section Layers
variable {a K b : ℕ} {d : DotDims ⟨2, ![a, K]⟩ ⟨2, ![K, b]⟩ ⟨2, ![a, b]⟩}

/-- A dense tanh layer as the device prints it: both operands narrowed (nothing, over the extended reals), a product
    into a zero accumulator, a bias vector given a unit leading axis and broadcast down the rows, tanh. On row `p` it
    is `tanhRow (dense …)` of the input's row. -/
theorem rowOf_tanh_dense (H : RowsTimesCols d) (h : FVec Ideal ⟨2, ![a, K]⟩ .f32) (w : FVec Ideal ⟨2, ![K, b]⟩ .f32)
    (bias : FVec Ideal ⟨1, ![b]⟩ .f32) (hlt : FTy.bits .bf16 < FTy.bits .f32)
    (hS : (⟨1, ![b]⟩ : Shape).ShapeCasts ⟨2, ![1, b]⟩) (hB : (⟨2, ![1, b]⟩ : Shape).Broadcasts ⟨2, ![a, b]⟩) (p : Fin a) :
    rowOf (tanh (addf (matmul d none (truncf .bf16 h hlt) (truncf .bf16 w hlt) (constant (F := Ideal) ⟨2, ![a, b]⟩ .f32 0x00000000#32))
        (broadcastTo ⟨2, ![a, b]⟩ (shapeCast ⟨2, ![1, b]⟩ bias hS) hB))) p
      = tanhRow (dense (rowOf h p) w (vec bias)) := by
  rw [rowOf_tanh, rowOf_dense_device H, rowOf_shapeCast_lead]
  rfl

/-- A projection as the device prints it: both operands narrowed, a product into a zero accumulator, the result
    narrowed. On row `p` it is `proj` of the input's row. -/
theorem rowOf_proj_device (H : RowsTimesCols d) (h : FVec Ideal ⟨2, ![a, K]⟩ .f32) (w : FVec Ideal ⟨2, ![K, b]⟩ .f32)
    (hlt : FTy.bits .bf16 < FTy.bits .f32) (p : Fin a) :
    rowOf (truncf .bf16 (matmul d none (truncf .bf16 h hlt) (truncf .bf16 w hlt) (constant (F := Ideal) ⟨2, ![a, b]⟩ .f32 0x00000000#32)) hlt
        : FVec Ideal ⟨2, ![a, b]⟩ .bf16) p
      = proj (rowOf h p) w := by
  rw [rowOf_truncf, rowOf_matmul_zero H]
  rfl

end Layers

/-- The combination as the device prints it: the aggregated block, plus the node's own block widened and multiplied by
    the self-loop column broadcast along the lanes, plus the bias broadcast down the rows, maximum with a splat zero. On
    row `p` it is `combineRow` of the two rows and the column's entry. -/
theorem rowOf_combine_device {a b : ℕ} (aggr : FVec Ideal ⟨2, ![a, b]⟩ .f32) (own : FVec Ideal ⟨2, ![a, b]⟩ .bf16)
    (s : FVec Ideal ⟨2, ![a, 1]⟩ .f32) (bias : FVec Ideal ⟨1, ![b]⟩ .f32) (hlt : FTy.bits .bf16 < FTy.bits .f32)
    (hA : (⟨2, ![a, b]⟩ : Shape).ShapeCasts ⟨2, ![a, b]⟩) (hC : (⟨2, ![a, 1]⟩ : Shape).ShapeCasts ⟨2, ![a, 1]⟩)
    (hCB : (⟨2, ![a, 1]⟩ : Shape).Broadcasts ⟨2, ![a, b]⟩)
    (hS : (⟨1, ![b]⟩ : Shape).ShapeCasts ⟨2, ![1, b]⟩) (hB : (⟨2, ![1, b]⟩ : Shape).Broadcasts ⟨2, ![a, b]⟩) (p : Fin a) :
    rowOf (maximumf
        (addf (addf (shapeCast ⟨2, ![a, b]⟩ aggr hA)
            (mulf (extf .f32 (shapeCast ⟨2, ![a, b]⟩ own hA) hlt) (broadcastTo ⟨2, ![a, b]⟩ (shapeCast ⟨2, ![a, 1]⟩ s hC) hCB)))
          (broadcastTo ⟨2, ![a, b]⟩ (shapeCast ⟨2, ![1, b]⟩ bias hS) hB))
        (broadcast ⟨2, ![a, b]⟩ (Scalar.ofBits (F := Ideal) .f32 0x00000000#32))) p
      = combineRow (vec bias) (rowOf aggr p) (rowOf own p) (s (ix2 p (0 : Fin 1))) := by
  rw [rowOf_maximumf_splat, shapeCast_self, shapeCast_self, shapeCast_self]
  show relu zeroW _ = relu zeroW _
  congr 1
  funext j
  show (aggr (ix2 p j) + own (ix2 p j) * broadcastTo ⟨2, ![a, b]⟩ s hCB (ix2 p j))
      + rowOf (broadcastTo ⟨2, ![a, b]⟩ (shapeCast ⟨2, ![1, b]⟩ bias hS) hB) p j = _
  rw [Cert.ColumnBroadcast.broadcastTo_a1_ab_apply, rowOf_broadcastTo, rowOf_shapeCast_lead]
  rfl

/-! ## The three payloads on a row -/

theorem k0_row (x0 : Vec Ideal S5000x6 .f32) (x1 : Vec Ideal S6x64 .f32) (x2 : Vec Ideal S64 .f32) (x3 : Vec Ideal S64x32 .f32)
    (x4 : Vec Ideal S32 .f32) (x5 : Vec Ideal S32x32 .f32) (p : Fin 5000) :
    rowOf (k0_pay1 (F := Ideal) x0 x1 x2 x3 x4 x5) p = embedRow x1 (vec x2) x3 (vec x4) x5 (rowOf x0 p) :=
  (rowOf_proj_device rtc_32_32 _ x5 bitsLt_bf16_f32 p).trans
    (congrArg (fun r => proj r x5)
      ((rowOf_tanh_dense rtc_64_32 _ x3 x4 bitsLt_bf16_f32 shapeCasts_S32_S1x32 broadcasts_S1x32_S5000x32 p).trans
        (congrArg (fun r => tanhRow (dense r x3 (vec x4)))
          (rowOf_tanh_dense rtc_6_64 x0 x1 x2 bitsLt_bf16_f32 shapeCasts_S64_S1x64 broadcasts_S1x64_S5000x64 p))))

theorem embed_body (x0 : Vec Ideal S5000x6 .f32) (x1 : Vec Ideal S6x64 .f32) (x2 : Vec Ideal S64 .f32) (x3 : Vec Ideal S64x32 .f32) (x4 : Vec Ideal S32 .f32) (x5 : Vec Ideal S32x32 .f32) (p : Fin 5000) (q : Fin 32) :
    Gen.out0_6 (F := Ideal) x0 x1 x2 x3 x4 x5 (ix2 p q) = embedRow x1 (vec x2) x3 (vec x4) x5 (rowOf x0 p) q := by
  unfold Gen.out0_6
  rw [View.canon_unit_zero hz2]
  simp only [View.ld_unit_zero (S := S5000x6) hz2, View.ld_unit_zero (S := S6x64) hz2, View.ld_unit_zero (S := S64) hz1,
    View.ld_unit_zero (S := S64x32) hz2, View.ld_unit_zero (S := S32) hz1, View.ld_unit_zero (S := S32x32) hz2]
  exact congrFun (k0_row x0 x1 x2 x3 x4 x5 p) q

/-- The combination both graph-layer bodies open with, on a row. The payloads take the loads in their own order: the
    node's own block, the self-loop column, the aggregated block, the bias. -/
theorem combine_row (x0 : Vec Ideal S5000x32 .f32) (x1 : Vec Ideal S5000x32 .bf16) (x2 : Vec Ideal S5000x1 .f32) (x3 : Vec Ideal S32 .f32)
    (p : Fin 5000) :
    rowOf (maximumf
        (addf (addf (shapeCast S5000x32 x0 shapeCasts_S5000x32_S5000x32)
            (mulf (extf .f32 (shapeCast S5000x32 x1 shapeCasts_S5000x32_S5000x32) bitsLt_bf16_f32)
              (broadcastTo S5000x32 (shapeCast S5000x1 x2 shapeCasts_S5000x1_S5000x1) broadcasts_S5000x1_S5000x32)))
          (broadcastTo S5000x32 (shapeCast S1x32 x3 shapeCasts_S32_S1x32) broadcasts_S1x32_S5000x32))
        (broadcast S5000x32 (Scalar.ofBits (F := Ideal) .f32 0x00000000#32))) p
      = combineRow (vec x3) (rowOf x0 p) (rowOf x1 p) (x2 (ix2 p (0 : Fin 1))) :=
  rowOf_combine_device x0 x1 x2 x3 bitsLt_bf16_f32 shapeCasts_S5000x32_S5000x32 shapeCasts_S5000x1_S5000x1
    broadcasts_S5000x1_S5000x32 shapeCasts_S32_S1x32 broadcasts_S1x32_S5000x32 p

theorem k1_row (x0 : Vec Ideal S5000x32 .f32) (x1 : Vec Ideal S5000x32 .bf16) (x2 : Vec Ideal S5000x1 .f32) (x3 : Vec Ideal S32 .f32)
    (x4 : Vec Ideal S32x32 .f32) (p : Fin 5000) :
    rowOf (k1_pay1 (F := Ideal) x1 x2 x0 x3 x4) p
      = proj (combineRow (vec x3) (rowOf x0 p) (rowOf x1 p) (x2 (ix2 p (0 : Fin 1)))) x4 :=
  (rowOf_proj_device rtc_32_32 _ x4 bitsLt_bf16_f32 p).trans (congrArg (fun r => proj r x4) (combine_row x0 x1 x2 x3 p))

theorem mid_body (x0 : Vec Ideal S5000x32 .f32) (x1 : Vec Ideal S5000x32 .bf16) (x2 : Vec Ideal S5000x1 .f32) (x3 : Vec Ideal S32 .f32) (x4 : Vec Ideal S32x32 .f32) (p : Fin 5000) (q : Fin 32) :
    Gen.out1_5 (F := Ideal) x0 x1 x2 x3 x4 (ix2 p q) = proj (combineRow (vec x3) (rowOf x0 p) (rowOf x1 p) (x2 (ix2 p (0 : Fin 1)))) x4 q := by
  unfold Gen.out1_5
  rw [View.canon_unit_zero hz2]
  simp only [View.ld_unit_zero (S := S5000x32) hz2, View.ld_unit_zero (S := S5000x1) hz2, View.ld_unit_zero (S := S32) hz1,
    View.ld_unit_zero (S := S32x32) hz2]
  exact congrFun (k1_row x0 x1 x2 x3 x4 p) q

theorem k2_row (x0 : Vec Ideal S5000x32 .f32) (x1 : Vec Ideal S5000x32 .bf16) (x2 : Vec Ideal S5000x1 .f32) (x3 : Vec Ideal S32 .f32)
    (x4 : Vec Ideal S32x32 .f32) (x5 : Vec Ideal S32 .f32) (x6 : Vec Ideal S32x1 .f32) (x7 : Vec Ideal S1 .f32) (p : Fin 5000) :
    rowOf (k2_pay1 (F := Ideal) x1 x2 x0 x3 x4 x5 x6 x7) p
      = headRow x4 (vec x5) x6 (vec x7) (combineRow (vec x3) (rowOf x0 p) (rowOf x1 p) (x2 (ix2 p (0 : Fin 1)))) :=
  (rowOf_tanh_dense rtc_32_1 _ x6 x7 bitsLt_bf16_f32 shapeCasts_S1_S1x1 broadcasts_S1x1_S5000x1 p).trans
    (congrArg (fun r => tanhRow (dense r x6 (vec x7)))
      ((rowOf_tanh_dense rtc_32_32 _ x4 x5 bitsLt_bf16_f32 shapeCasts_S32_S1x32 broadcasts_S1x32_S5000x32 p).trans
        (congrArg (fun r => tanhRow (dense r x4 (vec x5))) (combine_row x0 x1 x2 x3 p))))

theorem head_body (x0 : Vec Ideal S5000x32 .f32) (x1 : Vec Ideal S5000x32 .bf16) (x2 : Vec Ideal S5000x1 .f32) (x3 : Vec Ideal S32 .f32) (x4 : Vec Ideal S32x32 .f32) (x5 : Vec Ideal S32 .f32) (x6 : Vec Ideal S32x1 .f32) (x7 : Vec Ideal S1 .f32) (p : Fin 5000) (u : Fin 1) :
    Gen.out2_8 (F := Ideal) x0 x1 x2 x3 x4 x5 x6 x7 (ix2 p u) = headRow x4 (vec x5) x6 (vec x7) (combineRow (vec x3) (rowOf x0 p) (rowOf x1 p) (x2 (ix2 p (0 : Fin 1)))) u := by
  unfold Gen.out2_8
  rw [View.canon_unit_zero hz2]
  simp only [View.ld_unit_zero (S := S5000x32) hz2, View.ld_unit_zero (S := S5000x1) hz2, View.ld_unit_zero (S := S32) hz1,
    View.ld_unit_zero (S := S32x32) hz2, View.ld_unit_zero (S := S32x1) hz2, View.ld_unit_zero (S := S1) hz1]
  exact congrFun (k2_row x0 x1 x2 x3 x4 x5 x6 x7 p) u

end Cert.KernelIdeal.Bodies

end
-- ==== Proof.Regions.lean ====
/-
  From blocks to the whole arrays, for the three regions of the kernel's run.

  Each region runs its body at 20 points. At point `t` the row-blocked windows hold rows `5000 t … 5000 t + 4999` of
  their arrays, the weight and bias windows hold their whole arrays, and the body's output block is written back to rows
  `5000 t …` of the output array. The bodies, read on a row, are the network's row functions; so what point `t` writes
  back is block `t` of ONE function of the arrays the region finds (`embedLayer`, `midLayer`, `headLayer`), the 20
  blocks cover the output array (row `r` is in the block of point `r / 5000`), and the output array after the region is
  that function of the arrays at the region's entry — whatever those entry contents are.
-/
import proofs.«127179_j13134009991452_2_alg».proof.Proof.Bodies
import proofs.«127179_j13134009991452_2_alg».proof.Proof.Gen.KernelIdeal.Frame
import proofs.«127179_j13134009991452_2_alg».proof.Proof.GcnSpec
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)
open Cert.GcnSpec Cert.RowLayers Cert.SegmentScale Cert.KernelIdeal.Bodies

variable (V : (c : Dev nD) → (b : Ref sig .tc) → Buf (Elt Ideal) ((c : Thread nD τ).loc b))

/-! ## Region 0: the embedding -/

/-- The printed index maps over the 20 points: the feature block moves with the output block along the rows, every other
    coordinate is 0, and the output's row-block index is the point's number. -/
theorem idx_facts0 : ∀ t : Fin cfg0.N, win0_0.index t (0 : Fin 2) = win0_6.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A point's number is below 20. -/
theorem lt0 (t : Fin cfg0.N) : t.val < 20 := lt_of_lt_of_eq t.isLt N_0

/-- The weight and bias windows are their whole arrays at every point. -/
theorem blk0_1 (c : Dev nD) (t : Fin cfg0.N) : iblk0 (F := Ideal) V c 1 t = (V c main_arg2 : S6x64.Idx → EReal) := by
  obtain ⟨e00, e01, e10, e11, e2, e30, e31, e4, e50, e51, e60, e61⟩ := idx_facts0 t
  funext y
  unfold iblk0
  rw [View.read_apply]
  show V c main_arg2 (((cfg0.win 1).blk t).view.emb y) = V c main_arg2 y
  congr 1
  funext a
  apply Fin.ext
  match a with
  | ⟨0, _⟩ => show win0_1.index t (0 : Fin 2) * 6 + 1 * (y 0).val = (y 0).val; omega
  | ⟨1, _⟩ => show win0_1.index t (1 : Fin 2) * 64 + 1 * (y 1).val = (y 1).val; omega

theorem blk0_2 (c : Dev nD) (t : Fin cfg0.N) : iblk0 (F := Ideal) V c 2 t = (V c main_arg3 : S64.Idx → EReal) := by
  obtain ⟨e00, e01, e10, e11, e2, e30, e31, e4, e50, e51, e60, e61⟩ := idx_facts0 t
  funext y
  unfold iblk0
  rw [View.read_apply]
  show V c main_arg3 (((cfg0.win 2).blk t).view.emb y) = V c main_arg3 y
  congr 1
  funext a
  apply Fin.ext
  match a with
  | ⟨0, _⟩ => show win0_2.index t (0 : Fin 1) * 64 + 1 * (y 0).val = (y 0).val; omega

theorem blk0_3 (c : Dev nD) (t : Fin cfg0.N) : iblk0 (F := Ideal) V c 3 t = (V c main_arg4 : S64x32.Idx → EReal) := by
  obtain ⟨e00, e01, e10, e11, e2, e30, e31, e4, e50, e51, e60, e61⟩ := idx_facts0 t
  funext y
  unfold iblk0
  rw [View.read_apply]
  show V c main_arg4 (((cfg0.win 3).blk t).view.emb y) = V c main_arg4 y
  congr 1
  funext a
  apply Fin.ext
  match a with
  | ⟨0, _⟩ => show win0_3.index t (0 : Fin 2) * 64 + 1 * (y 0).val = (y 0).val; omega
  | ⟨1, _⟩ => show win0_3.index t (1 : Fin 2) * 32 + 1 * (y 1).val = (y 1).val; omega

theorem blk0_4 (c : Dev nD) (t : Fin cfg0.N) : iblk0 (F := Ideal) V c 4 t = (V c main_arg5 : S32.Idx → EReal) := by
  obtain ⟨e00, e01, e10, e11, e2, e30, e31, e4, e50, e51, e60, e61⟩ := idx_facts0 t
  funext y
  unfold iblk0
  rw [View.read_apply]
  show V c main_arg5 (((cfg0.win 4).blk t).view.emb y) = V c main_arg5 y
  congr 1
  funext a
  apply Fin.ext
  match a with
  | ⟨0, _⟩ => show win0_4.index t (0 : Fin 1) * 32 + 1 * (y 0).val = (y 0).val; omega

theorem blk0_5 (c : Dev nD) (t : Fin cfg0.N) : iblk0 (F := Ideal) V c 5 t = (V c main_arg6 : S32x32.Idx → EReal) := by
  obtain ⟨e00, e01, e10, e11, e2, e30, e31, e4, e50, e51, e60, e61⟩ := idx_facts0 t
  funext y
  unfold iblk0
  rw [View.read_apply]
  show V c main_arg6 (((cfg0.win 5).blk t).view.emb y) = V c main_arg6 y
  congr 1
  funext a
  apply Fin.ext
  match a with
  | ⟨0, _⟩ => show win0_5.index t (0 : Fin 2) * 32 + 1 * (y 0).val = (y 0).val; omega
  | ⟨1, _⟩ => show win0_5.index t (1 : Fin 2) * 32 + 1 * (y 1).val = (y 1).val; omega

/-- The feature block at point `t` is rows `5000 t … 5000 t + 4999` of the feature array. -/
theorem blk0_0 (c : Dev nD) (t : Fin cfg0.N) (p : Fin 5000) (q : Fin 6) :
    iblk0 (F := Ideal) V c 0 t (ix2 p q)
      = (V c main_arg0 : S100000x6.Idx → EReal) (ix2 (⟨t.val * 5000 + p.val, by have := lt0 t; omega⟩ : Fin 100000) q) := by
  obtain ⟨e00, e01, e10, e11, e2, e30, e31, e4, e50, e51, e60, e61⟩ := idx_facts0 t
  unfold iblk0
  rw [View.read_apply]
  show V c main_arg0 (((cfg0.win 0).blk t).view.emb (ix2 p q)) = V c main_arg0 _
  congr 1
  funext a
  apply Fin.ext
  match a with
  | ⟨0, _⟩ => show win0_0.index t (0 : Fin 2) * 5000 + 1 * p.val = t.val * 5000 + p.val; omega
  | ⟨1, _⟩ => show win0_0.index t (1 : Fin 2) * 6 + 1 * q.val = q.val; omega

/-- One point of the embedding: when the feature block is rows `5000 k …` of the array `X`, the body's output block at
    `(p, q)` is the embedded array at `(5000 k + p, q)`. -/
theorem embed_point (X : S100000x6.Idx → EReal) (x0 : Vec Ideal S5000x6 .f32) (x1 : Vec Ideal S6x64 .f32) (x2 : Vec Ideal S64 .f32)
    (x3 : Vec Ideal S64x32 .f32) (x4 : Vec Ideal S32 .f32) (x5 : Vec Ideal S32x32 .f32) (k : ℕ) (hk : k < 20)
    (h0 : ∀ (p : Fin 5000) (q : Fin 6), x0 (ix2 p q) = X (ix2 (⟨k * 5000 + p.val, by omega⟩ : Fin 100000) q))
    (p : Fin 5000) (q : Fin 32) :
    out0_6 (F := Ideal) x0 x1 x2 x3 x4 x5 (ix2 p q)
      = embedLayer X x1 x2 x3 x4 x5 (ix2 (⟨k * 5000 + p.val, by omega⟩ : Fin 100000) q) := by
  rw [embed_body]
  exact congrArg (fun r => embedRow x1 (vec x2) x3 (vec x4) x5 r q) (funext fun j => h0 p j)

/-- What point `t` writes back is block `t` of the embedded array. -/
theorem flushed0_eq (c : Dev nD) (t : Fin cfg0.N) :
    (dat0 (F := Ideal) V c).flushed 6 t = ((cfg0.win 6).blk t).view.read (Elt Ideal)
      (embedLayer (V c main_arg0 : S100000x6.Idx → EReal) (V c main_arg2 : S6x64.Idx → EReal) (V c main_arg3 : S64.Idx → EReal)
        (V c main_arg4 : S64x32.Idx → EReal) (V c main_arg5 : S32.Idx → EReal) (V c main_arg6 : S32x32.Idx → EReal)) := by
  obtain ⟨e00, e01, e10, e11, e2, e30, e31, e4, e50, e51, e60, e61⟩ := idx_facts0 t
  have ht : t.val < 20 := lt0 t
  show (cfg0.win 6).cut (grid0.coords t) ((dat0 V c).after 6 t) = _
  rw [after0_6, blk0_1, blk0_2, blk0_3, blk0_4, blk0_5]
  funext j
  rw [View.read_apply]
  have hj0 : (j 0).val < 5000 := (j 0).isLt
  have hj1 : (j 1).val < 32 := (j 1).isLt
  have eL : (cfg0.win 6).xinj (grid0.coords t) j = ix2 (⟨(j 0).val, hj0⟩ : Fin 5000) (⟨(j 1).val, hj1⟩ : Fin 32) :=
    funext fun a => by match a with | ⟨0, _⟩ => rfl | ⟨1, _⟩ => rfl
  have eR : ((cfg0.win 6).blk t).view.emb j
      = ix2 (⟨t.val * 5000 + (j 0).val, by omega⟩ : Fin 100000) (⟨(j 1).val, hj1⟩ : Fin 32) :=
    funext fun a => Fin.ext (by
      match a with
      | ⟨0, _⟩ => show win0_6.index t (0 : Fin 2) * 5000 + 1 * (j 0).val = t.val * 5000 + (j 0).val; omega
      | ⟨1, _⟩ => show win0_6.index t (1 : Fin 2) * 32 + 1 * (j 1).val = (j 1).val; omega)
  show out0_6 (F := Ideal) _ _ _ _ _ _ ((cfg0.win 6).xinj (grid0.coords t) j) = embedLayer _ _ _ _ _ _ (((cfg0.win 6).blk t).view.emb j)
  rw [eL, eR]
  exact embed_point _ _ _ _ _ _ _ t.val ht (fun p q => blk0_0 V c t p q) _ _

/-- An index of the output array is in point `t`'s block iff each coordinate is in the block's range on its axis. -/
theorem mem_blk0 (t : Fin cfg0.N) (i : S100000x32.Idx) :
    i ∈ ((cfg0.win 6).blk t).view.set ↔ ∀ a : Fin 2, win0_6.index t a * S5000x32.size a ≤ (i a).val ∧ (i a).val < win0_6.index t a * S5000x32.size a + S5000x32.size a := by
  show i ∈ ((View.whole main_v28).slice (win0_6.rect t)).set ↔ _
  rw [View.set_slice_whole, Rect.mem_set_unit]
  exact Iff.rfl

/-- Every index of the output array is in the block of the point whose number is its row divided by 5000. -/
theorem cover0 (i : S100000x32.Idx) : ∃ t : Fin cfg0.N, (cfg0.win 6).flush t = true ∧ i ∈ ((cfg0.win 6).blk t).view.set := by
  have hi0 : (i 0).val < 100000 := (i 0).isLt
  have hi1 : (i 1).val < 32 := (i 1).isLt
  obtain ⟨t, htv⟩ : ∃ t : Fin cfg0.N, t.val = (i 0).val / 5000 :=
    ⟨⟨(i 0).val / 5000, lt_of_lt_of_eq (by omega : (i 0).val / 5000 < 20) N_0.symm⟩, rfl⟩
  obtain ⟨e00, e01, e10, e11, e2, e30, e31, e4, e50, e51, e60, e61⟩ := idx_facts0 t
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 32 ≤ (i 1).val ∧ (i 1).val < win0_6.index t (1 : Fin 2) * 32 + 32; omega

/-- THE ARRAY after region 0: the embedded array of the arrays the region finds. -/
theorem arr0 (c : Dev nD) : ((dat0 (F := Ideal) V c).arrAt 6 cfg0.N : S100000x32.Idx → EReal)
    = embedLayer (V c main_arg0 : S100000x6.Idx → EReal) (V c main_arg2 : S6x64.Idx → EReal) (V c main_arg3 : S64.Idx → EReal)
        (V c main_arg4 : S64x32.Idx → EReal) (V c main_arg5 : S32.Idx → EReal) (V c main_arg6 : S32x32.Idx → EReal) :=
  (dat0 V c).arrAt_eq_of_cover 6 _ (fun t _ => flushed0_eq V c t) cover0

/-! ## Region 1: the first graph layer's combination and the second projection -/

/-- The printed index maps over the 20 points: the three row-blocked inputs and the output are at row-block `t`, every
    other coordinate is 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A point's number is below 20. -/
theorem lt1 (t : Fin cfg1.N) : t.val < 20 := lt_of_lt_of_eq t.isLt N_1

/-- The aggregated block at point `t` is rows `5000 t …` of the aggregated array. -/
theorem blk1_0 (c : Dev nD) (t : Fin cfg1.N) (p : Fin 5000) (q : Fin 32) :
    iblk1 (F := Ideal) V c 0 t (ix2 p q)
      = (V c main_v42 : S100000x32.Idx → EReal) (ix2 (⟨t.val * 5000 + p.val, by have := lt1 t; omega⟩ : Fin 100000) q) := by
  obtain ⟨e00, e01, e10, e11, e20, e21, e3, e40, e41, e50, e51⟩ := idx_facts1 t
  unfold iblk1
  rw [View.read_apply]
  show V c main_v42 (((cfg1.win 0).blk t).view.emb (ix2 p q)) = V c main_v42 _
  congr 1
  funext a
  apply Fin.ext
  match a with
  | ⟨0, _⟩ => show win1_0.index t (0 : Fin 2) * 5000 + 1 * p.val = t.val * 5000 + p.val; omega
  | ⟨1, _⟩ => show win1_0.index t (1 : Fin 2) * 32 + 1 * q.val = q.val; omega

/-- The nodes' own block at point `t` is rows `5000 t …` of the projected array. -/
theorem blk1_1 (c : Dev nD) (t : Fin cfg1.N) (p : Fin 5000) (q : Fin 32) :
    iblk1 (F := Ideal) V c 1 t (ix2 p q)
      = (V c main_v28 : S100000x32.Idx → EReal) (ix2 (⟨t.val * 5000 + p.val, by have := lt1 t; omega⟩ : Fin 100000) q) := by
  obtain ⟨e00, e01, e10, e11, e20, e21, e3, e40, e41, e50, e51⟩ := idx_facts1 t
  unfold iblk1
  rw [View.read_apply]
  show V c main_v28 (((cfg1.win 1).blk t).view.emb (ix2 p q)) = V c main_v28 _
  congr 1
  funext a
  apply Fin.ext
  match a with
  | ⟨0, _⟩ => show win1_1.index t (0 : Fin 2) * 5000 + 1 * p.val = t.val * 5000 + p.val; omega
  | ⟨1, _⟩ => show win1_1.index t (1 : Fin 2) * 32 + 1 * q.val = q.val; omega

/-- The self-loop weights' block at point `t` is rows `5000 t …` of the column of weights. -/
theorem blk1_2 (c : Dev nD) (t : Fin cfg1.N) (p : Fin 5000) (q : Fin 1) :
    iblk1 (F := Ideal) V c 2 t (ix2 p q)
      = (V c main_v27 : S100000x1.Idx → EReal) (ix2 (⟨t.val * 5000 + p.val, by have := lt1 t; omega⟩ : Fin 100000) q) := by
  obtain ⟨e00, e01, e10, e11, e20, e21, e3, e40, e41, e50, e51⟩ := idx_facts1 t
  unfold iblk1
  rw [View.read_apply]
  show V c main_v27 (((cfg1.win 2).blk t).view.emb (ix2 p q)) = V c main_v27 _
  congr 1
  funext a
  apply Fin.ext
  match a with
  | ⟨0, _⟩ => show win1_2.index t (0 : Fin 2) * 5000 + 1 * p.val = t.val * 5000 + p.val; omega
  | ⟨1, _⟩ => show win1_2.index t (1 : Fin 2) * 1 + 1 * q.val = q.val; omega

/-- The bias and weight windows are their whole arrays at every point. -/
theorem blk1_3 (c : Dev nD) (t : Fin cfg1.N) : iblk1 (F := Ideal) V c 3 t = (V c main_arg7 : S32.Idx → EReal) := by
  obtain ⟨e00, e01, e10, e11, e20, e21, e3, e40, e41, e50, e51⟩ := idx_facts1 t
  funext y
  unfold iblk1
  rw [View.read_apply]
  show V c main_arg7 (((cfg1.win 3).blk t).view.emb y) = V c main_arg7 y
  congr 1
  funext a
  apply Fin.ext
  match a with
  | ⟨0, _⟩ => show win1_3.index t (0 : Fin 1) * 32 + 1 * (y 0).val = (y 0).val; omega

theorem blk1_4 (c : Dev nD) (t : Fin cfg1.N) : iblk1 (F := Ideal) V c 4 t = (V c main_arg8 : S32x32.Idx → EReal) := by
  obtain ⟨e00, e01, e10, e11, e20, e21, e3, e40, e41, e50, e51⟩ := idx_facts1 t
  funext y
  unfold iblk1
  rw [View.read_apply]
  show V c main_arg8 (((cfg1.win 4).blk t).view.emb y) = V c main_arg8 y
  congr 1
  funext a
  apply Fin.ext
  match a with
  | ⟨0, _⟩ => show win1_4.index t (0 : Fin 2) * 32 + 1 * (y 0).val = (y 0).val; omega
  | ⟨1, _⟩ => show win1_4.index t (1 : Fin 2) * 32 + 1 * (y 1).val = (y 1).val; omega

/-- One point of the layer: when the three row-blocked inputs are rows `5000 k …` of the arrays `A`, `H`, `S`, the body's
    output block at `(p, q)` is the layer's array at `(5000 k + p, q)`. -/
theorem mid_point (A H : S100000x32.Idx → EReal) (S : S100000x1.Idx → EReal)
    (x0 : Vec Ideal S5000x32 .f32) (x1 : Vec Ideal S5000x32 .bf16) (x2 : Vec Ideal S5000x1 .f32) (x3 : Vec Ideal S32 .f32)
    (x4 : Vec Ideal S32x32 .f32) (k : ℕ) (hk : k < 20)
    (h0 : ∀ (p : Fin 5000) (q : Fin 32), x0 (ix2 p q) = A (ix2 (⟨k * 5000 + p.val, by omega⟩ : Fin 100000) q))
    (h1 : ∀ (p : Fin 5000) (q : Fin 32), x1 (ix2 p q) = H (ix2 (⟨k * 5000 + p.val, by omega⟩ : Fin 100000) q))
    (h2 : ∀ (p : Fin 5000) (u : Fin 1), x2 (ix2 p u) = S (ix2 (⟨k * 5000 + p.val, by omega⟩ : Fin 100000) u))
    (p : Fin 5000) (q : Fin 32) :
    out1_5 (F := Ideal) x0 x1 x2 x3 x4 (ix2 p q)
      = midLayer x3 x4 A H (fun r => S (ix2 r (0 : Fin 1))) (ix2 (⟨k * 5000 + p.val, by omega⟩ : Fin 100000) q) := by
  rw [mid_body]
  have e0 : rowOf x0 p = rowOf A (⟨k * 5000 + p.val, by omega⟩ : Fin 100000) := funext fun j => h0 p j
  have e1 : rowOf x1 p = rowOf H (⟨k * 5000 + p.val, by omega⟩ : Fin 100000) := funext fun j => h1 p j
  rw [e0, e1, h2 p 0]
  rfl

/-- What point `t` writes back is block `t` of the layer's array. -/
theorem flushed1_eq (c : Dev nD) (t : Fin cfg1.N) :
    (dat1 (F := Ideal) V c).flushed 5 t = ((cfg1.win 5).blk t).view.read (Elt Ideal)
      (midLayer (V c main_arg7 : S32.Idx → EReal) (V c main_arg8 : S32x32.Idx → EReal) (V c main_v42 : S100000x32.Idx → EReal)
        (V c main_v28 : S100000x32.Idx → EReal) (fun p => (V c main_v27 : S100000x1.Idx → EReal) (ix2 p (0 : Fin 1)))) := by
  obtain ⟨e00, e01, e10, e11, e20, e21, e3, e40, e41, e50, e51⟩ := idx_facts1 t
  have ht : t.val < 20 := lt1 t
  show (cfg1.win 5).cut (grid1.coords t) ((dat1 V c).after 5 t) = _
  rw [after1_5, blk1_3, blk1_4]
  funext j
  rw [View.read_apply]
  have hj0 : (j 0).val < 5000 := (j 0).isLt
  have hj1 : (j 1).val < 32 := (j 1).isLt
  have eL : (cfg1.win 5).xinj (grid1.coords t) j = ix2 (⟨(j 0).val, hj0⟩ : Fin 5000) (⟨(j 1).val, hj1⟩ : Fin 32) :=
    funext fun a => by match a with | ⟨0, _⟩ => rfl | ⟨1, _⟩ => rfl
  have eR : ((cfg1.win 5).blk t).view.emb j
      = ix2 (⟨t.val * 5000 + (j 0).val, by omega⟩ : Fin 100000) (⟨(j 1).val, hj1⟩ : Fin 32) :=
    funext fun a => Fin.ext (by
      match a with
      | ⟨0, _⟩ => show win1_5.index t (0 : Fin 2) * 5000 + 1 * (j 0).val = t.val * 5000 + (j 0).val; omega
      | ⟨1, _⟩ => show win1_5.index t (1 : Fin 2) * 32 + 1 * (j 1).val = (j 1).val; omega)
  show out1_5 (F := Ideal) _ _ _ _ _ ((cfg1.win 5).xinj (grid1.coords t) j)
      = midLayer (V c main_arg7 : S32.Idx → EReal) (V c main_arg8 : S32x32.Idx → EReal) (V c main_v42 : S100000x32.Idx → EReal)
          (V c main_v28 : S100000x32.Idx → EReal) (fun p => (V c main_v27 : S100000x1.Idx → EReal) (ix2 p (0 : Fin 1)))
          (((cfg1.win 5).blk t).view.emb j)
  rw [eL, eR]
  exact mid_point _ _ _ _ _ _ _ _ t.val ht (fun p q => blk1_0 V c t p q) (fun p q => blk1_1 V c t p q) (fun p u => blk1_2 V c t p u) _ _

/-- An index of the output array is in point `t`'s block iff each coordinate is in the block's range on its axis. -/
theorem mem_blk1 (t : Fin cfg1.N) (i : S100000x32.Idx) :
    i ∈ ((cfg1.win 5).blk t).view.set ↔ ∀ a : Fin 2, win1_5.index t a * S5000x32.size a ≤ (i a).val ∧ (i a).val < win1_5.index t a * S5000x32.size a + S5000x32.size a := by
  show i ∈ ((View.whole main_v43).slice (win1_5.rect t)).set ↔ _
  rw [View.set_slice_whole, Rect.mem_set_unit]
  exact Iff.rfl

/-- Every index of the output array is in the block of the point whose number is its row divided by 5000. -/
theorem cover1 (i : S100000x32.Idx) : ∃ t : Fin cfg1.N, (cfg1.win 5).flush t = true ∧ i ∈ ((cfg1.win 5).blk t).view.set := by
  have hi0 : (i 0).val < 100000 := (i 0).isLt
  have hi1 : (i 1).val < 32 := (i 1).isLt
  obtain ⟨t, htv⟩ : ∃ t : Fin cfg1.N, t.val = (i 0).val / 5000 :=
    ⟨⟨(i 0).val / 5000, lt_of_lt_of_eq (by omega : (i 0).val / 5000 < 20) N_1.symm⟩, rfl⟩
  obtain ⟨e00, e01, e10, e11, e20, e21, e3, e40, e41, e50, e51⟩ := idx_facts1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 32 ≤ (i 1).val ∧ (i 1).val < win1_5.index t (1 : Fin 2) * 32 + 32; omega

/-- THE ARRAY after region 1: the layer's array of the arrays the region finds. -/
theorem arr1 (c : Dev nD) : ((dat1 (F := Ideal) V c).arrAt 5 cfg1.N : S100000x32.Idx → EReal)
    = midLayer (V c main_arg7 : S32.Idx → EReal) (V c main_arg8 : S32x32.Idx → EReal) (V c main_v42 : S100000x32.Idx → EReal)
        (V c main_v28 : S100000x32.Idx → EReal) (fun p => (V c main_v27 : S100000x1.Idx → EReal) (ix2 p (0 : Fin 1))) :=
  (dat1 V c).arrAt_eq_of_cover 5 _ (fun t _ => flushed1_eq V c t) cover1

/-! ## Region 2: the second graph layer's combination and the closing network -/

/-- The printed index maps over the 20 points: the three row-blocked inputs and the output are at row-block `t`, every
    other coordinate is 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = 0 ∧ win2_6.index t (1 : Fin 2) = 0
    ∧ win2_7.index t (0 : Fin 1) = 0
    ∧ win2_8.index t (0 : Fin 2) = t.val ∧ win2_8.index t (1 : Fin 2) = 0 :=
  (by decide +kernel : ∀ t : Fin grid2.N, _)

/-- A point's number is below 20. -/
theorem lt2 (t : Fin cfg2.N) : t.val < 20 := lt_of_lt_of_eq t.isLt N_2

/-- The aggregated block at point `t` is rows `5000 t …` of the aggregated array. -/
theorem blk2_0 (c : Dev nD) (t : Fin cfg2.N) (p : Fin 5000) (q : Fin 32) :
    iblk2 (F := Ideal) V c 0 t (ix2 p q)
      = (V c main_v57 : S100000x32.Idx → EReal) (ix2 (⟨t.val * 5000 + p.val, by have := lt2 t; omega⟩ : Fin 100000) q) := by
  obtain ⟨e00, e01, e10, e11, e20, e21, e3, e40, e41, e5, e60, e61, e7, e80, e81⟩ := idx_facts2 t
  unfold iblk2
  rw [View.read_apply]
  show V c main_v57 (((cfg2.win 0).blk t).view.emb (ix2 p q)) = V c main_v57 _
  congr 1
  funext a
  apply Fin.ext
  match a with
  | ⟨0, _⟩ => show win2_0.index t (0 : Fin 2) * 5000 + 1 * p.val = t.val * 5000 + p.val; omega
  | ⟨1, _⟩ => show win2_0.index t (1 : Fin 2) * 32 + 1 * q.val = q.val; omega

/-- The nodes' own block at point `t` is rows `5000 t …` of the projected array. -/
theorem blk2_1 (c : Dev nD) (t : Fin cfg2.N) (p : Fin 5000) (q : Fin 32) :
    iblk2 (F := Ideal) V c 1 t (ix2 p q)
      = (V c main_v43 : S100000x32.Idx → EReal) (ix2 (⟨t.val * 5000 + p.val, by have := lt2 t; omega⟩ : Fin 100000) q) := by
  obtain ⟨e00, e01, e10, e11, e20, e21, e3, e40, e41, e5, e60, e61, e7, e80, e81⟩ := idx_facts2 t
  unfold iblk2
  rw [View.read_apply]
  show V c main_v43 (((cfg2.win 1).blk t).view.emb (ix2 p q)) = V c main_v43 _
  congr 1
  funext a
  apply Fin.ext
  match a with
  | ⟨0, _⟩ => show win2_1.index t (0 : Fin 2) * 5000 + 1 * p.val = t.val * 5000 + p.val; omega
  | ⟨1, _⟩ => show win2_1.index t (1 : Fin 2) * 32 + 1 * q.val = q.val; omega

/-- The self-loop weights' block at point `t` is rows `5000 t …` of the column of weights. -/
theorem blk2_2 (c : Dev nD) (t : Fin cfg2.N) (p : Fin 5000) (q : Fin 1) :
    iblk2 (F := Ideal) V c 2 t (ix2 p q)
      = (V c main_v27 : S100000x1.Idx → EReal) (ix2 (⟨t.val * 5000 + p.val, by have := lt2 t; omega⟩ : Fin 100000) q) := by
  obtain ⟨e00, e01, e10, e11, e20, e21, e3, e40, e41, e5, e60, e61, e7, e80, e81⟩ := idx_facts2 t
  unfold iblk2
  rw [View.read_apply]
  show V c main_v27 (((cfg2.win 2).blk t).view.emb (ix2 p q)) = V c main_v27 _
  congr 1
  funext a
  apply Fin.ext
  match a with
  | ⟨0, _⟩ => show win2_2.index t (0 : Fin 2) * 5000 + 1 * p.val = t.val * 5000 + p.val; omega
  | ⟨1, _⟩ => show win2_2.index t (1 : Fin 2) * 1 + 1 * q.val = q.val; omega

/-- The bias and weight windows are their whole arrays at every point. -/
theorem blk2_3 (c : Dev nD) (t : Fin cfg2.N) : iblk2 (F := Ideal) V c 3 t = (V c main_arg9 : S32.Idx → EReal) := by
  obtain ⟨e00, e01, e10, e11, e20, e21, e3, e40, e41, e5, e60, e61, e7, e80, e81⟩ := idx_facts2 t
  funext y
  unfold iblk2
  rw [View.read_apply]
  show V c main_arg9 (((cfg2.win 3).blk t).view.emb y) = V c main_arg9 y
  congr 1
  funext a
  apply Fin.ext
  match a with
  | ⟨0, _⟩ => show win2_3.index t (0 : Fin 1) * 32 + 1 * (y 0).val = (y 0).val; omega

theorem blk2_4 (c : Dev nD) (t : Fin cfg2.N) : iblk2 (F := Ideal) V c 4 t = (V c main_arg10 : S32x32.Idx → EReal) := by
  obtain ⟨e00, e01, e10, e11, e20, e21, e3, e40, e41, e5, e60, e61, e7, e80, e81⟩ := idx_facts2 t
  funext y
  unfold iblk2
  rw [View.read_apply]
  show V c main_arg10 (((cfg2.win 4).blk t).view.emb y) = V c main_arg10 y
  congr 1
  funext a
  apply Fin.ext
  match a with
  | ⟨0, _⟩ => show win2_4.index t (0 : Fin 2) * 32 + 1 * (y 0).val = (y 0).val; omega
  | ⟨1, _⟩ => show win2_4.index t (1 : Fin 2) * 32 + 1 * (y 1).val = (y 1).val; omega

theorem blk2_5 (c : Dev nD) (t : Fin cfg2.N) : iblk2 (F := Ideal) V c 5 t = (V c main_arg11 : S32.Idx → EReal) := by
  obtain ⟨e00, e01, e10, e11, e20, e21, e3, e40, e41, e5, e60, e61, e7, e80, e81⟩ := idx_facts2 t
  funext y
  unfold iblk2
  rw [View.read_apply]
  show V c main_arg11 (((cfg2.win 5).blk t).view.emb y) = V c main_arg11 y
  congr 1
  funext a
  apply Fin.ext
  match a with
  | ⟨0, _⟩ => show win2_5.index t (0 : Fin 1) * 32 + 1 * (y 0).val = (y 0).val; omega

theorem blk2_6 (c : Dev nD) (t : Fin cfg2.N) : iblk2 (F := Ideal) V c 6 t = (V c main_arg12 : S32x1.Idx → EReal) := by
  obtain ⟨e00, e01, e10, e11, e20, e21, e3, e40, e41, e5, e60, e61, e7, e80, e81⟩ := idx_facts2 t
  funext y
  unfold iblk2
  rw [View.read_apply]
  show V c main_arg12 (((cfg2.win 6).blk t).view.emb y) = V c main_arg12 y
  congr 1
  funext a
  apply Fin.ext
  match a with
  | ⟨0, _⟩ => show win2_6.index t (0 : Fin 2) * 32 + 1 * (y 0).val = (y 0).val; omega
  | ⟨1, _⟩ => show win2_6.index t (1 : Fin 2) * 1 + 1 * (y 1).val = (y 1).val; omega

theorem blk2_7 (c : Dev nD) (t : Fin cfg2.N) : iblk2 (F := Ideal) V c 7 t = (V c main_arg13 : S1.Idx → EReal) := by
  obtain ⟨e00, e01, e10, e11, e20, e21, e3, e40, e41, e5, e60, e61, e7, e80, e81⟩ := idx_facts2 t
  funext y
  unfold iblk2
  rw [View.read_apply]
  show V c main_arg13 (((cfg2.win 7).blk t).view.emb y) = V c main_arg13 y
  congr 1
  funext a
  apply Fin.ext
  match a with
  | ⟨0, _⟩ => show win2_7.index t (0 : Fin 1) * 1 + 1 * (y 0).val = (y 0).val; omega

/-- One point of the layer: when the three row-blocked inputs are rows `5000 k …` of the arrays `A`, `H`, `S`, the body's
    output block at `(p, u)` is the network's output array at `(5000 k + p, u)`. -/
theorem head_point (A H : S100000x32.Idx → EReal) (S : S100000x1.Idx → EReal)
    (x0 : Vec Ideal S5000x32 .f32) (x1 : Vec Ideal S5000x32 .bf16) (x2 : Vec Ideal S5000x1 .f32) (x3 : Vec Ideal S32 .f32)
    (x4 : Vec Ideal S32x32 .f32) (x5 : Vec Ideal S32 .f32) (x6 : Vec Ideal S32x1 .f32) (x7 : Vec Ideal S1 .f32) (k : ℕ) (hk : k < 20)
    (h0 : ∀ (p : Fin 5000) (q : Fin 32), x0 (ix2 p q) = A (ix2 (⟨k * 5000 + p.val, by omega⟩ : Fin 100000) q))
    (h1 : ∀ (p : Fin 5000) (q : Fin 32), x1 (ix2 p q) = H (ix2 (⟨k * 5000 + p.val, by omega⟩ : Fin 100000) q))
    (h2 : ∀ (p : Fin 5000) (u : Fin 1), x2 (ix2 p u) = S (ix2 (⟨k * 5000 + p.val, by omega⟩ : Fin 100000) u))
    (p : Fin 5000) (u : Fin 1) :
    out2_8 (F := Ideal) x0 x1 x2 x3 x4 x5 x6 x7 (ix2 p u)
      = headLayer x3 x4 x5 x6 x7 A H (fun r => S (ix2 r (0 : Fin 1))) (ix2 (⟨k * 5000 + p.val, by omega⟩ : Fin 100000) u) := by
  rw [head_body]
  have e0 : rowOf x0 p = rowOf A (⟨k * 5000 + p.val, by omega⟩ : Fin 100000) := funext fun j => h0 p j
  have e1 : rowOf x1 p = rowOf H (⟨k * 5000 + p.val, by omega⟩ : Fin 100000) := funext fun j => h1 p j
  rw [e0, e1, h2 p 0]
  rfl

/-- What point `t` writes back is block `t` of the network's output array. -/
theorem flushed2_eq (c : Dev nD) (t : Fin cfg2.N) :
    (dat2 (F := Ideal) V c).flushed 8 t = ((cfg2.win 8).blk t).view.read (Elt Ideal)
      (headLayer (V c main_arg9 : S32.Idx → EReal) (V c main_arg10 : S32x32.Idx → EReal) (V c main_arg11 : S32.Idx → EReal)
        (V c main_arg12 : S32x1.Idx → EReal) (V c main_arg13 : S1.Idx → EReal) (V c main_v57 : S100000x32.Idx → EReal)
        (V c main_v43 : S100000x32.Idx → EReal) (fun p => (V c main_v27 : S100000x1.Idx → EReal) (ix2 p (0 : Fin 1)))) := by
  obtain ⟨e00, e01, e10, e11, e20, e21, e3, e40, e41, e5, e60, e61, e7, e80, e81⟩ := idx_facts2 t
  have ht : t.val < 20 := lt2 t
  show (cfg2.win 8).cut (grid2.coords t) ((dat2 V c).after 8 t) = _
  rw [after2_8, blk2_3, blk2_4, blk2_5, blk2_6, blk2_7]
  funext j
  rw [View.read_apply]
  have hj0 : (j 0).val < 5000 := (j 0).isLt
  have hj1 : (j 1).val < 1 := (j 1).isLt
  have eL : (cfg2.win 8).xinj (grid2.coords t) j = ix2 (⟨(j 0).val, hj0⟩ : Fin 5000) (⟨(j 1).val, hj1⟩ : Fin 1) :=
    funext fun a => by match a with | ⟨0, _⟩ => rfl | ⟨1, _⟩ => rfl
  have eR : ((cfg2.win 8).blk t).view.emb j
      = ix2 (⟨t.val * 5000 + (j 0).val, by omega⟩ : Fin 100000) (⟨(j 1).val, hj1⟩ : Fin 1) :=
    funext fun a => Fin.ext (by
      match a with
      | ⟨0, _⟩ => show win2_8.index t (0 : Fin 2) * 5000 + 1 * (j 0).val = t.val * 5000 + (j 0).val; omega
      | ⟨1, _⟩ => show win2_8.index t (1 : Fin 2) * 1 + 1 * (j 1).val = (j 1).val; omega)
  show out2_8 (F := Ideal) _ _ _ _ _ _ _ _ ((cfg2.win 8).xinj (grid2.coords t) j)
      = headLayer (V c main_arg9 : S32.Idx → EReal) (V c main_arg10 : S32x32.Idx → EReal) (V c main_arg11 : S32.Idx → EReal)
          (V c main_arg12 : S32x1.Idx → EReal) (V c main_arg13 : S1.Idx → EReal) (V c main_v57 : S100000x32.Idx → EReal)
          (V c main_v43 : S100000x32.Idx → EReal) (fun p => (V c main_v27 : S100000x1.Idx → EReal) (ix2 p (0 : Fin 1)))
          (((cfg2.win 8).blk t).view.emb j)
  rw [eL, eR]
  exact head_point _ _ _ _ _ _ _ _ _ _ _ t.val ht (fun p q => blk2_0 V c t p q) (fun p q => blk2_1 V c t p q) (fun p u => blk2_2 V c t p u) _ _

/-- An index of the output array is in point `t`'s block iff each coordinate is in the block's range on its axis. -/
theorem mem_blk2 (t : Fin cfg2.N) (i : S100000x1.Idx) :
    i ∈ ((cfg2.win 8).blk t).view.set ↔ ∀ a : Fin 2, win2_8.index t a * S5000x1.size a ≤ (i a).val ∧ (i a).val < win2_8.index t a * S5000x1.size a + S5000x1.size a := by
  show i ∈ ((View.whole main_v58).slice (win2_8.rect t)).set ↔ _
  rw [View.set_slice_whole, Rect.mem_set_unit]
  exact Iff.rfl

/-- Every index of the output array is in the block of the point whose number is its row divided by 5000. -/
theorem cover2 (i : S100000x1.Idx) : ∃ t : Fin cfg2.N, (cfg2.win 8).flush t = true ∧ i ∈ ((cfg2.win 8).blk t).view.set := by
  have hi0 : (i 0).val < 100000 := (i 0).isLt
  have hi1 : (i 1).val < 1 := (i 1).isLt
  obtain ⟨t, htv⟩ : ∃ t : Fin cfg2.N, t.val = (i 0).val / 5000 :=
    ⟨⟨(i 0).val / 5000, lt_of_lt_of_eq (by omega : (i 0).val / 5000 < 20) N_2.symm⟩, rfl⟩
  obtain ⟨e00, e01, e10, e11, e20, e21, e3, e40, e41, e5, e60, e61, e7, e80, e81⟩ := idx_facts2 t
  refine ⟨t, flush2_8 t, ?_⟩
  rw [mem_blk2]
  intro a
  match a with
  | ⟨0, _⟩ => show win2_8.index t (0 : Fin 2) * 5000 ≤ (i 0).val ∧ (i 0).val < win2_8.index t (0 : Fin 2) * 5000 + 5000; omega
  | ⟨1, _⟩ => show win2_8.index t (1 : Fin 2) * 1 ≤ (i 1).val ∧ (i 1).val < win2_8.index t (1 : Fin 2) * 1 + 1; omega

/-- THE ARRAY after region 2: the network's output array of the arrays the region finds. -/
theorem arr2 (c : Dev nD) : ((dat2 (F := Ideal) V c).arrAt 8 cfg2.N : S100000x1.Idx → EReal)
    = headLayer (V c main_arg9 : S32.Idx → EReal) (V c main_arg10 : S32x32.Idx → EReal) (V c main_arg11 : S32.Idx → EReal)
        (V c main_arg12 : S32x1.Idx → EReal) (V c main_arg13 : S1.Idx → EReal) (V c main_v57 : S100000x32.Idx → EReal)
        (V c main_v43 : S100000x32.Idx → EReal) (fun p => (V c main_v27 : S100000x1.Idx → EReal) (ix2 p (0 : Fin 1))) :=
  (dat2 V c).arrAt_eq_of_cover 8 _ (fun t _ => flushed2_eq V c t) cover2

end Cert.KernelIdeal.Regions

end
-- ==== Proof.KNet.lean ====
/-
  The idealized kernel's result is the specification's network of the launch contents of its arguments.

  The generated frame names every buffer's contents at the six segment boundaries of @main (`Gen.W1` … `Gen.W6`). Walking
  them in order: after the first stretch the edge buffers hold the source words, target words, edge weights and self-loop
  weights (KHost); the first call leaves the first projected rows `hwA` in its output array (its blocks cover the array);
  the second stretch turns them into their aggregation `agg`; the second call leaves the second projected rows `hwB`; the
  third stretch aggregates those; the third call leaves `net`. A buffer no operation of a stretch writes, and no window
  of a call names, keeps its contents across it.
-/
import proofs.«127179_j13134009991452_2_alg».proof.Proof.KHost
import proofs.«127179_j13134009991452_2_alg».proof.Proof.KStretch
import proofs.«127179_j13134009991452_2_alg».proof.Proof.Regions

set_option maxRecDepth 16384

noncomputable section

namespace Cert.KernelIdeal.KNet

open Cert.KernelIdeal Cert.KernelIdeal.Gen Cert.GcnSpec Cert.GraphRead Cert.ExtendedEdges Cert.SegmentScale
open Cert.KernelIdeal.KHost Cert.KernelIdeal.Regions
open Idealize.ShloMosaic Idealize.ShloMosaic.TcCoe Idealize.ShloMosaic.Tactic Idealize.SL.Sem Idealize.ShloMosaic.StableHlo
open Idealize.ShloMosaic.ValueIdx

variable (m : (ℓ : Loc nD τ sig) → Buf (Elt Ideal) ℓ) (ρ : Dev nD → PrngReg) (c : Dev nD)

/-- No operation of the stretch writes the buffer, so the stretch leaves it as it found it. -/
macro "host_untouched " ops:ident b:term : tactic => `(tactic|
  exact StableHlo.after_of_forall_not_mem (b := Proc.devRef .tc $b) _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The launch contents of the arguments, as arrays of extended reals -/

abbrev a0 : S100000x6.Idx → EReal := m ((c : Thread nD τ).loc main_arg0)
abbrev a2 : S6x64.Idx → EReal := m ((c : Thread nD τ).loc main_arg2)
abbrev a3 : S64.Idx → EReal := m ((c : Thread nD τ).loc main_arg3)
abbrev a4 : S64x32.Idx → EReal := m ((c : Thread nD τ).loc main_arg4)
abbrev a5 : S32.Idx → EReal := m ((c : Thread nD τ).loc main_arg5)
abbrev a6 : S32x32.Idx → EReal := m ((c : Thread nD τ).loc main_arg6)
abbrev a7 : S32.Idx → EReal := m ((c : Thread nD τ).loc main_arg7)
abbrev a8 : S32x32.Idx → EReal := m ((c : Thread nD τ).loc main_arg8)
abbrev a9 : S32.Idx → EReal := m ((c : Thread nD τ).loc main_arg9)
abbrev a10 : S32x32.Idx → EReal := m ((c : Thread nD τ).loc main_arg10)
abbrev a11 : S32.Idx → EReal := m ((c : Thread nD τ).loc main_arg11)
abbrev a12 : S32x1.Idx → EReal := m ((c : Thread nD τ).loc main_arg12)
abbrev a13 : S1.Idx → EReal := m ((c : Thread nD τ).loc main_arg13)

/-- The source words. -/
abbrev sW : Fin 1600000 → BitVec 32 := srcOf (edges m c)
/-- The target words. -/
abbrev dW : Fin 1600000 → BitVec 32 := dstOf (edges m c)
/-- The first projected rows. -/
abbrev hw1 : S100000x32.Idx → EReal := hwA (a0 m c) (a2 m c) (a3 m c) (a4 m c) (a5 m c) (a6 m c)
/-- The second projected rows. -/
abbrev hw2 : S100000x32.Idx → EReal :=
  hwB hN 100000#32 (edges m c) (a0 m c) (a2 m c) (a3 m c) (a4 m c) (a5 m c) (a6 m c) (a7 m c) (a8 m c)

/-! ## The arguments at the boundaries where a call reads them -/

theorem W1_arg0 : W1 (F := Ideal) m ρ c (Proc.devRef .tc main_arg0) = m ((c : Thread nD τ).loc main_arg0) := by
  show StableHlo.after hostOps0 (W0 m ρ c) (Proc.devRef .tc main_arg0) = W0 m ρ c (Proc.devRef .tc main_arg0)
  host_untouched hostOps0 main_arg0
theorem W1_arg2 : W1 (F := Ideal) m ρ c (Proc.devRef .tc main_arg2) = m ((c : Thread nD τ).loc main_arg2) := by
  show StableHlo.after hostOps0 (W0 m ρ c) (Proc.devRef .tc main_arg2) = W0 m ρ c (Proc.devRef .tc main_arg2)
  host_untouched hostOps0 main_arg2
theorem W1_arg3 : W1 (F := Ideal) m ρ c (Proc.devRef .tc main_arg3) = m ((c : Thread nD τ).loc main_arg3) := by
  show StableHlo.after hostOps0 (W0 m ρ c) (Proc.devRef .tc main_arg3) = W0 m ρ c (Proc.devRef .tc main_arg3)
  host_untouched hostOps0 main_arg3
theorem W1_arg4 : W1 (F := Ideal) m ρ c (Proc.devRef .tc main_arg4) = m ((c : Thread nD τ).loc main_arg4) := by
  show StableHlo.after hostOps0 (W0 m ρ c) (Proc.devRef .tc main_arg4) = W0 m ρ c (Proc.devRef .tc main_arg4)
  host_untouched hostOps0 main_arg4
theorem W1_arg5 : W1 (F := Ideal) m ρ c (Proc.devRef .tc main_arg5) = m ((c : Thread nD τ).loc main_arg5) := by
  show StableHlo.after hostOps0 (W0 m ρ c) (Proc.devRef .tc main_arg5) = W0 m ρ c (Proc.devRef .tc main_arg5)
  host_untouched hostOps0 main_arg5
theorem W1_arg6 : W1 (F := Ideal) m ρ c (Proc.devRef .tc main_arg6) = m ((c : Thread nD τ).loc main_arg6) := by
  show StableHlo.after hostOps0 (W0 m ρ c) (Proc.devRef .tc main_arg6) = W0 m ρ c (Proc.devRef .tc main_arg6)
  host_untouched hostOps0 main_arg6
theorem W3_arg7 : W3 (F := Ideal) m ρ c (Proc.devRef .tc main_arg7) = m ((c : Thread nD τ).loc main_arg7) :=
  calc W3 m ρ c (Proc.devRef .tc main_arg7)
    _ = W2 m ρ c (Proc.devRef .tc main_arg7) := by host_untouched hostOps1 main_arg7
    _ = W1 m ρ c (Proc.devRef .tc main_arg7) := W2_of_ne m ρ c main_arg7 (by decide)
    _ = W0 m ρ c (Proc.devRef .tc main_arg7) := by host_untouched hostOps0 main_arg7
    _ = m ((c : Thread nD τ).loc main_arg7) := rfl
theorem W3_arg8 : W3 (F := Ideal) m ρ c (Proc.devRef .tc main_arg8) = m ((c : Thread nD τ).loc main_arg8) :=
  calc W3 m ρ c (Proc.devRef .tc main_arg8)
    _ = W2 m ρ c (Proc.devRef .tc main_arg8) := by host_untouched hostOps1 main_arg8
    _ = W1 m ρ c (Proc.devRef .tc main_arg8) := W2_of_ne m ρ c main_arg8 (by decide)
    _ = W0 m ρ c (Proc.devRef .tc main_arg8) := by host_untouched hostOps0 main_arg8
    _ = m ((c : Thread nD τ).loc main_arg8) := rfl
theorem W5_arg9 : W5 (F := Ideal) m ρ c (Proc.devRef .tc main_arg9) = m ((c : Thread nD τ).loc main_arg9) :=
  (((W6_arr m ρ c 3).trans (((dat2 (V5 m ρ) c).arrAt_in 3 rfl _).trans (A_eq2 (V5 m ρ) c 3))).symm).trans (W6_main_arg9 m ρ c)
theorem W5_arg10 : W5 (F := Ideal) m ρ c (Proc.devRef .tc main_arg10) = m ((c : Thread nD τ).loc main_arg10) :=
  (((W6_arr m ρ c 4).trans (((dat2 (V5 m ρ) c).arrAt_in 4 rfl _).trans (A_eq2 (V5 m ρ) c 4))).symm).trans (W6_main_arg10 m ρ c)
theorem W5_arg11 : W5 (F := Ideal) m ρ c (Proc.devRef .tc main_arg11) = m ((c : Thread nD τ).loc main_arg11) :=
  (((W6_arr m ρ c 5).trans (((dat2 (V5 m ρ) c).arrAt_in 5 rfl _).trans (A_eq2 (V5 m ρ) c 5))).symm).trans (W6_main_arg11 m ρ c)
theorem W5_arg12 : W5 (F := Ideal) m ρ c (Proc.devRef .tc main_arg12) = m ((c : Thread nD τ).loc main_arg12) :=
  (((W6_arr m ρ c 6).trans (((dat2 (V5 m ρ) c).arrAt_in 6 rfl _).trans (A_eq2 (V5 m ρ) c 6))).symm).trans (W6_main_arg12 m ρ c)
theorem W5_arg13 : W5 (F := Ideal) m ρ c (Proc.devRef .tc main_arg13) = m ((c : Thread nD τ).loc main_arg13) :=
  (((W6_arr m ρ c 7).trans (((dat2 (V5 m ρ) c).arrAt_in 7 rfl _).trans (A_eq2 (V5 m ρ) c 7))).symm).trans (W6_main_arg13 m ρ c)

/-! ## The edge buffers and the self-loop column keep their first-boundary contents -/

theorem W2_v1 : (W2 (F := Ideal) m ρ c (Proc.devRef .tc main_v1) : S1600000.Idx → BitVec 32) = W1 m ρ c (Proc.devRef .tc main_v1) :=
  W2_of_ne m ρ c main_v1 (by decide)
theorem W2_v3 : (W2 (F := Ideal) m ρ c (Proc.devRef .tc main_v3) : S1600000.Idx → BitVec 32) = W1 m ρ c (Proc.devRef .tc main_v3) :=
  W2_of_ne m ρ c main_v3 (by decide)
theorem W2_v25 : (W2 (F := Ideal) m ρ c (Proc.devRef .tc main_v25) : S1600000.Idx → EReal) = W1 m ρ c (Proc.devRef .tc main_v25) :=
  W2_of_ne m ρ c main_v25 (by decide)
theorem W2_v27 : (W2 (F := Ideal) m ρ c (Proc.devRef .tc main_v27) : S100000x1.Idx → EReal) = W1 m ρ c (Proc.devRef .tc main_v27) :=
  W2_of_ne m ρ c main_v27 (by decide)
theorem W3_v28 : (W3 (F := Ideal) m ρ c (Proc.devRef .tc main_v28) : S100000x32.Idx → EReal) = W2 m ρ c (Proc.devRef .tc main_v28) := by
  host_untouched hostOps1 main_v28
theorem W3_v27 : (W3 (F := Ideal) m ρ c (Proc.devRef .tc main_v27) : S100000x1.Idx → EReal) = W1 m ρ c (Proc.devRef .tc main_v27) :=
  calc W3 m ρ c (Proc.devRef .tc main_v27)
    _ = W2 m ρ c (Proc.devRef .tc main_v27) := by host_untouched hostOps1 main_v27
    _ = W1 m ρ c (Proc.devRef .tc main_v27) := W2_of_ne m ρ c main_v27 (by decide)
theorem W4_v1 : (W4 (F := Ideal) m ρ c (Proc.devRef .tc main_v1) : S1600000.Idx → BitVec 32) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := by host_untouched hostOps1 main_v1
    _ = W1 m ρ c (Proc.devRef .tc main_v1) := W2_of_ne m ρ c main_v1 (by decide)
theorem W4_v3 : (W4 (F := Ideal) m ρ c (Proc.devRef .tc main_v3) : S1600000.Idx → BitVec 32) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by host_untouched hostOps1 main_v3
    _ = W1 m ρ c (Proc.devRef .tc main_v3) := W2_of_ne m ρ c main_v3 (by decide)
theorem W4_v25 : (W4 (F := Ideal) m ρ c (Proc.devRef .tc main_v25) : S1600000.Idx → EReal) = W1 m ρ c (Proc.devRef .tc main_v25) :=
  calc W4 m ρ c (Proc.devRef .tc main_v25)
    _ = W3 m ρ c (Proc.devRef .tc main_v25) := W4_of_ne m ρ c main_v25 (by decide)
    _ = W2 m ρ c (Proc.devRef .tc main_v25) := by host_untouched hostOps1 main_v25
    _ = W1 m ρ c (Proc.devRef .tc main_v25) := W2_of_ne m ρ c main_v25 (by decide)
theorem W4_v27 : (W4 (F := Ideal) m ρ c (Proc.devRef .tc main_v27) : S100000x1.Idx → EReal) = W1 m ρ c (Proc.devRef .tc main_v27) :=
  ((W4_arr m ρ c 2).trans (((dat1 (V3 m ρ) c).arrAt_in 2 rfl _).trans (A_eq1 (V3 m ρ) c 2))).trans (W3_v27 m ρ c)
theorem W5_v43 : (W5 (F := Ideal) m ρ c (Proc.devRef .tc main_v43) : S100000x32.Idx → EReal) = W4 m ρ c (Proc.devRef .tc main_v43) := by
  host_untouched hostOps2 main_v43
theorem W5_v27 : (W5 (F := Ideal) m ρ c (Proc.devRef .tc main_v27) : S100000x1.Idx → EReal) = W1 m ρ c (Proc.devRef .tc main_v27) :=
  calc W5 m ρ c (Proc.devRef .tc main_v27)
    _ = W4 m ρ c (Proc.devRef .tc main_v27) := by host_untouched hostOps2 main_v27
    _ = W1 m ρ c (Proc.devRef .tc main_v27) := W4_v27 m ρ c

/-! ## The values -/

/-- The first call leaves the first projected rows in its output array. -/
theorem hw1_at : (W2 (F := Ideal) m ρ c (Proc.devRef .tc main_v28) : S100000x32.Idx → EReal) = hw1 m c := by
  refine (W2_arr m ρ c 6).trans ?_
  refine (arr0 (V1 m ρ) c).trans ?_
  show embedLayer (W1 m ρ c (Proc.devRef .tc main_arg0) : S100000x6.Idx → EReal) (W1 m ρ c (Proc.devRef .tc main_arg2) : S6x64.Idx → EReal)
    (W1 m ρ c (Proc.devRef .tc main_arg3) : S64.Idx → EReal) (W1 m ρ c (Proc.devRef .tc main_arg4) : S64x32.Idx → EReal)
    (W1 m ρ c (Proc.devRef .tc main_arg5) : S32.Idx → EReal) (W1 m ρ c (Proc.devRef .tc main_arg6) : S32x32.Idx → EReal) = _
  rw [W1_arg0, W1_arg2, W1_arg3, W1_arg4, W1_arg5, W1_arg6]
  rfl

set_option maxHeartbeats 4000000 in
/-- The second stretch's scatter holds the aggregation of the first projected rows. -/
theorem agg1_at (p : Fin 100000) (q : Fin 32) :
    (W3 (F := Ideal) m ρ c (Proc.devRef .tc main_v42) : S100000x32.Idx → EReal) (ix2 p q)
      = agg hN 100000#32 (sW m c) (dW m c) (hw1 m c) (ix2 p q) := by
  show StableHlo.after hostOps1 (W2 m ρ c) (Proc.devRef .tc main_v42) (ix2 p q) = _
  after_results
  refine (aggTerm_at (W2 m ρ c (Proc.devRef .tc main_v28)) (W2 m ρ c (Proc.devRef .tc main_v1)) (W2 m ρ c (Proc.devRef .tc main_v3))
    (W2 m ρ c (Proc.devRef .tc main_v25)) (sW m c) (dW m c) (fun k => ?_) (fun k => ?_) (fun k => ?_) p q).trans ?_
  · exact (congrFun (W2_v1 m ρ c) (ix1 k)).trans (src_at m ρ c k)
  · exact (congrFun (W2_v3 m ρ c) (ix1 k)).trans (dst_at m ρ c k)
  · exact (congrFun (W2_v25 m ρ c) (ix1 k)).trans (norm_at m ρ c k)
  · exact congrArg (fun H : S100000x32.Idx → EReal => agg hN 100000#32 (sW m c) (dW m c) H (ix2 p q)) (hw1_at m ρ c)

/-- The self-loop column at any boundary that kept it, read as a weight per node. -/
theorem selfCol_eq (B : S100000x1.Idx → EReal) (h : B = W1 m ρ c (Proc.devRef .tc main_v27)) :
    (fun p : Fin 100000 => B (ix2 p (0 : Fin 1))) = selfW (dW m c) :=
  funext fun p => (congrFun h (ix2 p (0 : Fin 1))).trans (self_at m ρ c p)

/-- The second call leaves the second projected rows in its output array. -/
theorem hw2_at : (W4 (F := Ideal) m ρ c (Proc.devRef .tc main_v43) : S100000x32.Idx → EReal) = hw2 m c := by
  refine (W4_arr m ρ c 5).trans ?_
  refine (arr1 (V3 m ρ) c).trans ?_
  have eA : (W3 m ρ c (Proc.devRef .tc main_v42) : S100000x32.Idx → EReal) = agg hN 100000#32 (sW m c) (dW m c) (hw1 m c) := by
    funext i
    obtain ⟨p, q, rfl⟩ : ∃ (p : Fin 100000) (q : Fin 32), i = ix2 p q := ⟨nodeOf i, featOf i, eq_ix2_node_feat i⟩
    exact agg1_at m ρ c p q
  have eH : (W3 m ρ c (Proc.devRef .tc main_v28) : S100000x32.Idx → EReal) = hw1 m c := (W3_v28 m ρ c).trans (hw1_at m ρ c)
  have eS := selfCol_eq m ρ c (W3 m ρ c (Proc.devRef .tc main_v27)) (W3_v27 m ρ c)
  show midLayer (W3 m ρ c (Proc.devRef .tc main_arg7) : S32.Idx → EReal) (W3 m ρ c (Proc.devRef .tc main_arg8) : S32x32.Idx → EReal)
    (W3 m ρ c (Proc.devRef .tc main_v42) : S100000x32.Idx → EReal) (W3 m ρ c (Proc.devRef .tc main_v28) : S100000x32.Idx → EReal)
    (fun p : Fin 100000 => (W3 m ρ c (Proc.devRef .tc main_v27) : S100000x1.Idx → EReal) (ix2 p (0 : Fin 1))) = _
  rw [W3_arg7, W3_arg8, eA, eH, eS]
  rfl

set_option maxHeartbeats 4000000 in
/-- The third stretch's scatter holds the aggregation of the second projected rows. -/
theorem agg2_at (p : Fin 100000) (q : Fin 32) :
    (W5 (F := Ideal) m ρ c (Proc.devRef .tc main_v57) : S100000x32.Idx → EReal) (ix2 p q)
      = agg hN 100000#32 (sW m c) (dW m c) (hw2 m c) (ix2 p q) := by
  show StableHlo.after hostOps2 (W4 m ρ c) (Proc.devRef .tc main_v57) (ix2 p q) = _
  after_results
  refine (aggTerm_at (W4 m ρ c (Proc.devRef .tc main_v43)) (W4 m ρ c (Proc.devRef .tc main_v1)) (W4 m ρ c (Proc.devRef .tc main_v3))
    (W4 m ρ c (Proc.devRef .tc main_v25)) (sW m c) (dW m c) (fun k => ?_) (fun k => ?_) (fun k => ?_) p q).trans ?_
  · exact (congrFun (W4_v1 m ρ c) (ix1 k)).trans (src_at m ρ c k)
  · exact (congrFun (W4_v3 m ρ c) (ix1 k)).trans (dst_at m ρ c k)
  · exact (congrFun (W4_v25 m ρ c) (ix1 k)).trans (norm_at m ρ c k)
  · exact congrArg (fun H : S100000x32.Idx → EReal => agg hN 100000#32 (sW m c) (dW m c) H (ix2 p q)) (hw2_at m ρ c)

/-- THE RESULT: the last call leaves the specification's network in the result array. -/
theorem result_eq : (W6 (F := Ideal) m ρ c (Proc.devRef .tc main_v58) : S100000x1.Idx → EReal)
    = net hN 100000#32 (a0 m c) (edges m c) (a2 m c) (a3 m c) (a4 m c) (a5 m c) (a6 m c) (a7 m c) (a8 m c) (a9 m c) (a10 m c)
        (a11 m c) (a12 m c) (a13 m c) := by
  refine (W6_arr m ρ c 8).trans ?_
  refine (arr2 (V5 m ρ) c).trans ?_
  have eA : (W5 m ρ c (Proc.devRef .tc main_v57) : S100000x32.Idx → EReal) = agg hN 100000#32 (sW m c) (dW m c) (hw2 m c) := by
    funext i
    obtain ⟨p, q, rfl⟩ : ∃ (p : Fin 100000) (q : Fin 32), i = ix2 p q := ⟨nodeOf i, featOf i, eq_ix2_node_feat i⟩
    exact agg2_at m ρ c p q
  have eH : (W5 m ρ c (Proc.devRef .tc main_v43) : S100000x32.Idx → EReal) = hw2 m c := (W5_v43 m ρ c).trans (hw2_at m ρ c)
  have eS := selfCol_eq m ρ c (W5 m ρ c (Proc.devRef .tc main_v27)) (W5_v27 m ρ c)
  show headLayer (W5 m ρ c (Proc.devRef .tc main_arg9) : S32.Idx → EReal) (W5 m ρ c (Proc.devRef .tc main_arg10) : S32x32.Idx → EReal)
    (W5 m ρ c (Proc.devRef .tc main_arg11) : S32.Idx → EReal) (W5 m ρ c (Proc.devRef .tc main_arg12) : S32x1.Idx → EReal)
    (W5 m ρ c (Proc.devRef .tc main_arg13) : S1.Idx → EReal)
    (W5 m ρ c (Proc.devRef .tc main_v57) : S100000x32.Idx → EReal) (W5 m ρ c (Proc.devRef .tc main_v43) : S100000x32.Idx → EReal)
    (fun p : Fin 100000 => (W5 m ρ c (Proc.devRef .tc main_v27) : S100000x1.Idx → EReal) (ix2 p (0 : Fin 1))) = _
  rw [W5_arg9, W5_arg10, W5_arg11, W5_arg12, W5_arg13, eA, eH, eS]
  rfl

end Cert.KernelIdeal.KNet

end
-- ==== Proof.lean ====
/-
  A graph-convolution network on 100000 nodes and 1600000 directed edges: the Pallas kernel against its jnp reference,
  equal over the extended reals.

  Both programs embed each node's six features by two dense tanh layers and project them; apply two graph-convolution
  layers (aggregate the neighbours' projected rows with the symmetric normalisation `dinv(source) · dinv(target)`, where
  `dinv = 1/√(in-degree + 1)` counts one self-loop per node; add the node's own row with weight `dinv²`; add a bias;
  rectify; project); and close with two dense tanh layers. That common function is `Cert.GcnSpec.net` (GcnSpec.lean).

  The reference appends one loop per node to the edge list and lets the scatter sum it; the kernel sums the real edges
  only and adds the node's own row, scaled by `dinv²`, inside the dense bodies. Splitting the reference's sum over the
  extended list into the real edges plus the one loop that lands on the node gives the kernel's form: only the
  commutativity and associativity of addition on the extended reals are used, so the precondition (finite inputs) is
  never opened. The reference's guard "if degree > 0" always takes the inverse root, the degree being at least one.
  Changes of float format are the identity at the extended reals; both programs carry the same two float patterns.

  The reference's side is RefNet.lean (each stage of its run read at an index), the kernel's side is KNet.lean (the
  contents of every buffer at the six segment boundaries of its three pallas_calls and three stretches of host
  operations), and Assembly.lean puts the five conjuncts together: the three frames from the programs' runs, the
  idealization's ledger (empty), and the two runs ending at the same `net` of the arguments.
-/
import proofs.«127179_j13134009991452_2_alg».proof.Defs
import proofs.«127179_j13134009991452_2_alg».proof.Proof.Assembly
import proofs.«127179_j13134009991452_2_alg».proof.Proof.KNet

noncomputable section

namespace Cert.Proof

/-- The certificate: the assembly, given that the kernel's result array ends holding `net` of its arguments. -/
theorem claim : Cert.Claim := Cert.Assembly.claim_of Cert.KernelIdeal.KNet.result_eq

end Cert.Proof

end
